-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v91)) (v1 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S3x128 .f32) (main_arg9 : FVec F S3x128 .f32) (main_arg10 : FVec F S128x128 .f32) (main_arg11 : FVec F S128 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S3x128x128 .f32) (main_arg6 : FVec F S3x128 .f32) (main_arg7 : FVec F S3x128x128 .f32) (main_arg8 : FVec F S3x128 .f32) (main_arg9 : FVec F S3x128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg7
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S3x128x128 .f32) (main_arg6 : FVec F S3x128 .f32) (main_arg7 : FVec F S3x128x128 .f32) (main_arg8 : FVec F S3x128 .f32) (main_arg9 : FVec F S3x128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x800000 : Shape := ⟨2, ![1, 800000]⟩
abbrev S1x128 : Shape := ⟨2, ![1, 128]⟩
abbrev S3x1x128 : Shape := ⟨3, ![3, 1, 128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S1x1x128 : Shape := ⟨3, ![1, 1, 128]⟩
abbrev S5000 : Shape := ⟨1, ![5000]⟩
abbrev S5000x1 : Shape := ⟨2, ![5000, 1]⟩

abbrev nBuf : Space → Nat
  | .hbm => 114
  | .vmem => 47
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S3x128x128, .f32⟩
  | .hbm, ⟨6, _⟩ => ⟨S3x128, .f32⟩
  | .hbm, ⟨7, _⟩ => ⟨S3x128x128, .f32⟩
  | .hbm, ⟨8, _⟩ => ⟨S3x128, .f32⟩
  | .hbm, ⟨9, _⟩ => ⟨S3x128, .f32⟩
  | .hbm, ⟨10, _⟩ => ⟨S128x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S128x128, .f32⟩
  | .hbm, ⟨17, _⟩ => ⟨S3x128x128, .f32⟩
  | .hbm, ⟨18, _⟩ => ⟨S3x128x128, .f32⟩
  | .hbm, ⟨19, _⟩ => ⟨S128x128, .f32⟩
  | .hbm, ⟨20, _⟩ => ⟨S1x128, .f32⟩
  | .hbm, ⟨21, _⟩ => ⟨S3x1x128, .f32⟩
  | .hbm, ⟨22, _⟩ => ⟨S3x1x128, .f32⟩
  | .hbm, ⟨23, _⟩ => ⟨S3x1x128, .f32⟩
  | .hbm, ⟨24, _⟩ => ⟨S1x128, .f32⟩
  | .hbm, ⟨25, _⟩ => ⟨S50000x128, .f32⟩
  | .hbm, ⟨26, _⟩ => ⟨S50000x128, .bf16⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .bf16⟩
  | .hbm, ⟨36, _⟩ => ⟨S800000x128, .f32⟩
  | .hbm, ⟨37, _⟩ => ⟨S800000x1, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S1x128x128, .f32⟩
  | .hbm, ⟨45, _⟩ => ⟨S128x128, .f32⟩
  | .hbm, ⟨46, _⟩ => ⟨S1x1x128, .f32⟩
  | .hbm, ⟨47, _⟩ => ⟨S1x128, .f32⟩
  | .hbm, ⟨48, _⟩ => ⟨S1x128x128, .f32⟩
  | .hbm, ⟨49, _⟩ => ⟨S128x128, .f32⟩
  | .hbm, ⟨50, _⟩ => ⟨S1x1x128, .f32⟩
  | .hbm, ⟨51, _⟩ => ⟨S1x128, .f32⟩
  | .hbm, ⟨52, _⟩ => ⟨S1x1x128, .f32⟩
  | .hbm, ⟨53, _⟩ => ⟨S1x128, .f32⟩
  | .hbm, ⟨54, _⟩ => ⟨S50000x128, .f32⟩
  | .hbm, ⟨55, _⟩ => ⟨S50000x128, .bf16⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .bf16⟩
  | .hbm, ⟨65, _⟩ => ⟨S800000x128, .f32⟩
  | .hbm, ⟨66, _⟩ => ⟨S800000x1, .f32⟩
  | .hbm, ⟨67, _⟩ => ⟨S800000x128, .f32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S1x128x128, .f32⟩
  | .hbm, ⟨74, _⟩ => ⟨S128x128, .f32⟩
  | .hbm, ⟨75, _⟩ => ⟨S1x1x128, .f32⟩
  | .hbm, ⟨76, _⟩ => ⟨S1x128, .f32⟩
  | .hbm, ⟨77, _⟩ => ⟨S1x128x128, .f32⟩
  | .hbm, ⟨78, _⟩ => ⟨S128x128, .f32⟩
  | .hbm, ⟨79, _⟩ => ⟨S1x1x128, .f32⟩
  | .hbm, ⟨80, _⟩ => ⟨S1x128, .f32⟩
  | .hbm, ⟨81, _⟩ => ⟨S1x1x128, .f32⟩
  | .hbm, ⟨82, _⟩ => ⟨S1x128, .f32⟩
  | .hbm, ⟨83, _⟩ => ⟨S50000x128, .f32⟩
  | .hbm, ⟨84, _⟩ => ⟨S50000x128, .bf16⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x128, .bf16⟩
  | .hbm, ⟨94, _⟩ => ⟨S800000x128, .f32⟩
  | .hbm, ⟨95, _⟩ => ⟨S800000x1, .f32⟩
  | .hbm, ⟨96, _⟩ => ⟨S800000x128, .f32⟩
  | .hbm, ⟨97, _⟩ => ⟨S800000x128, .f32⟩
  | .hbm, ⟨98, _⟩ => ⟨S_, .f32⟩
  | .hbm, ⟨99, _⟩ => ⟨S50000x128, .f32⟩
  | .hbm, ⟨100, _⟩ => ⟨S800000x1, .i32⟩
  | .hbm, ⟨101, _⟩ => ⟨S50000x128, .f32⟩
  | .hbm, ⟨102, _⟩ => ⟨S1x128x128, .f32⟩
  | .hbm, ⟨103, _⟩ => ⟨S128x128, .f32⟩
  | .hbm, ⟨104, _⟩ => ⟨S1x1x128, .f32⟩
  | .hbm, ⟨105, _⟩ => ⟨S1x128, .f32⟩
  | .hbm, ⟨106, _⟩ => ⟨S1x128x128, .f32⟩
  | .hbm, ⟨107, _⟩ => ⟨S128x128, .f32⟩
  | .hbm, ⟨108, _⟩ => ⟨S1x1x128, .f32⟩
  | .hbm, ⟨109, _⟩ => ⟨S1x128, .f32⟩
  | .hbm, ⟨110, _⟩ => ⟨S1x1x128, .f32⟩
  | .hbm, ⟨111, _⟩ => ⟨S1x128, .f32⟩
  | .hbm, ⟨112, _⟩ => ⟨S50000x128, .f32⟩
  | .hbm, ⟨113, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S1x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S128x128, .f32⟩
  | .local _ .vmem, ⟨44, _⟩ => ⟨S1x128, .f32⟩
  | .local _ .vmem, ⟨45, _⟩ => ⟨S5000x128, .f32⟩
  | .local _ .vmem, ⟨46, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_1 : Ref sig .tc := ⟨.hbm, 56, rfl⟩
abbrev main_v41 : Ref sig .tc := ⟨.hbm, 57, rfl⟩
abbrev main_v42 : Ref sig .tc := ⟨.hbm, 58, rfl⟩
abbrev main_c_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_3 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_4 : Ref sig .tc := ⟨.hbm, 85, rfl⟩
abbrev main_v67 : Ref sig .tc := ⟨.hbm, 86, rfl⟩
abbrev main_v68 : Ref sig .tc := ⟨.hbm, 87, rfl⟩
abbrev main_c_5 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_6 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg7_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg3_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc2_sem8_0 : DmaSem sig := 28
abbrev cc2_sem8_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem7_1 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem3_0 : DmaSem sig := 45
abbrev cc4_sem3_1 : DmaSem sig := 46

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  transposes_S3x128x128_S3x128x128_0_2_1 : S3x128x128.Transposes [0, 2, 1] S3x128x128
  shapeCasts_S128_S1x128 : S128.ShapeCasts S1x128
  shapeCasts_S3x128_S3x1x128 : S3x128.ShapeCasts S3x1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x1x128_S1x1x128_0_0_0 : S3x1x128.Slices ![0, 0, 0] S1x1x128
  shapeCasts_S1x1x128_S1x128 : S1x1x128.ShapeCasts S1x128
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  slices_S3x128x128_S1x128x128_1_0_0 : S3x128x128.Slices ![1, 0, 0] S1x128x128
  slices_S3x1x128_S1x1x128_1_0_0 : S3x1x128.Slices ![1, 0, 0] S1x1x128
  slices_S3x128x128_S1x128x128_2_0_0 : S3x128x128.Slices ![2, 0, 0] S1x128x128
  slices_S3x1x128_S1x1x128_2_0_0 : S3x1x128.Slices ![2, 0, 0] S1x1x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v13) S5000x128.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v65) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v80) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v82) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v84) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v88) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v90) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v91) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v91) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v12) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v92) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x800000 : Shape := ⟨2, ![1, 800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S50000 : Shape := ⟨1, ![50000]⟩
abbrev S50000x1 : Shape := ⟨2, ![50000, 1]⟩

abbrev nBuf : Space → Nat
  | .hbm => 228
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S3x128x128, .f32⟩
  | 6 => ⟨S3x128, .f32⟩
  | 7 => ⟨S3x128x128, .f32⟩
  | 8 => ⟨S3x128, .f32⟩
  | 9 => ⟨S3x128, .f32⟩
  | 10 => ⟨S128x128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S128x128, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S800000x1, .f32⟩
  | 34 => ⟨S800000x128, .f32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S1x128x128, .f32⟩
  | 41 => ⟨S128x128, .f32⟩
  | 42 => ⟨S128x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S1x128x128, .f32⟩
  | 50 => ⟨S128x128, .f32⟩
  | 51 => ⟨S128x128, .f32⟩
  | 52 => ⟨S50000x128, .f32⟩
  | 53 => ⟨S50000x128, .f32⟩
  | 54 => ⟨S1x128, .f32⟩
  | 55 => ⟨S128, .f32⟩
  | 56 => ⟨S1x128, .f32⟩
  | 57 => ⟨S128, .f32⟩
  | 58 => ⟨S_, .f32⟩
  | 59 => ⟨S50000, .f32⟩
  | 60 => ⟨S50000x1, .f32⟩
  | 61 => ⟨S_, .f32⟩
  | 62 => ⟨S50000x1, .f32⟩
  | 63 => ⟨S50000x1, .f32⟩
  | 64 => ⟨S50000x128, .f32⟩
  | 65 => ⟨S50000x128, .f32⟩
  | 66 => ⟨S50000x128, .f32⟩
  | 67 => ⟨S_, .f32⟩
  | 68 => ⟨S50000, .f32⟩
  | 69 => ⟨S50000x1, .f32⟩
  | 70 => ⟨S_, .f32⟩
  | 71 => ⟨S50000x1, .f32⟩
  | 72 => ⟨S50000x1, .f32⟩
  | 73 => ⟨S50000x128, .f32⟩
  | 74 => ⟨S50000x128, .f32⟩
  | 75 => ⟨S_, .f32⟩
  | 76 => ⟨S50000x1, .f32⟩
  | 77 => ⟨S50000x1, .f32⟩
  | 78 => ⟨S50000x1, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S800000x1, .f32⟩
  | 100 => ⟨S800000x128, .f32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S1x128x128, .f32⟩
  | 107 => ⟨S128x128, .f32⟩
  | 108 => ⟨S128x128, .f32⟩
  | 109 => ⟨S50000x128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S1x128x128, .f32⟩
  | 116 => ⟨S128x128, .f32⟩
  | 117 => ⟨S128x128, .f32⟩
  | 118 => ⟨S50000x128, .f32⟩
  | 119 => ⟨S50000x128, .f32⟩
  | 120 => ⟨S1x128, .f32⟩
  | 121 => ⟨S128, .f32⟩
  | 122 => ⟨S1x128, .f32⟩
  | 123 => ⟨S128, .f32⟩
  | 124 => ⟨S_, .f32⟩
  | 125 => ⟨S50000, .f32⟩
  | 126 => ⟨S50000x1, .f32⟩
  | 127 => ⟨S_, .f32⟩
  | _ => ⟨S50000x128, .f32⟩

abbrev hbmTy0_1 (i : Nat) : BufTy := match i % 128 with
  | 0 => ⟨S50000x1, .f32⟩
  | 1 => ⟨S50000x1, .f32⟩
  | 2 => ⟨S50000x128, .f32⟩
  | 3 => ⟨S50000x128, .f32⟩
  | 4 => ⟨S50000x128, .f32⟩
  | 5 => ⟨S_, .f32⟩
  | 6 => ⟨S50000, .f32⟩
  | 7 => ⟨S50000x1, .f32⟩
  | 8 => ⟨S_, .f32⟩
  | 9 => ⟨S50000x1, .f32⟩
  | 10 => ⟨S50000x1, .f32⟩
  | 11 => ⟨S50000x128, .f32⟩
  | 12 => ⟨S50000x128, .f32⟩
  | 13 => ⟨S_, .f32⟩
  | 14 => ⟨S50000x1, .f32⟩
  | 15 => ⟨S50000x1, .f32⟩
  | 16 => ⟨S50000x1, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S800000x1, .f32⟩
  | 39 => ⟨S800000x128, .f32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S1x128x128, .f32⟩
  | 46 => ⟨S128x128, .f32⟩
  | 47 => ⟨S128x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S1x128x128, .f32⟩
  | 55 => ⟨S128x128, .f32⟩
  | 56 => ⟨S128x128, .f32⟩
  | 57 => ⟨S50000x128, .f32⟩
  | 58 => ⟨S50000x128, .f32⟩
  | 59 => ⟨S1x128, .f32⟩
  | 60 => ⟨S128, .f32⟩
  | 61 => ⟨S1x128, .f32⟩
  | 62 => ⟨S128, .f32⟩
  | 63 => ⟨S_, .f32⟩
  | 64 => ⟨S50000, .f32⟩
  | 65 => ⟨S50000x1, .f32⟩
  | 66 => ⟨S_, .f32⟩
  | 67 => ⟨S50000x1, .f32⟩
  | 68 => ⟨S50000x1, .f32⟩
  | 69 => ⟨S50000x128, .f32⟩
  | 70 => ⟨S50000x128, .f32⟩
  | 71 => ⟨S50000x128, .f32⟩
  | 72 => ⟨S_, .f32⟩
  | 73 => ⟨S50000, .f32⟩
  | 74 => ⟨S50000x1, .f32⟩
  | 75 => ⟨S_, .f32⟩
  | 76 => ⟨S50000x1, .f32⟩
  | 77 => ⟨S50000x1, .f32⟩
  | 78 => ⟨S50000x128, .f32⟩
  | 79 => ⟨S50000x128, .f32⟩
  | 80 => ⟨S_, .f32⟩
  | 81 => ⟨S50000x1, .f32⟩
  | 82 => ⟨S50000x1, .f32⟩
  | 83 => ⟨S50000x1, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S128x128, .f32⟩
  | 96 => ⟨S50000x128, .f32⟩
  | 97 => ⟨S1x128, .f32⟩
  | 98 => ⟨S50000x128, .f32⟩
  | 99 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call0_cst : Ref sig .tc := ⟨.hbm, 21, rfl⟩
abbrev main_call0_v0 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_1 : Ref sig .tc := ⟨.hbm, 58, rfl⟩
abbrev main_v41 : Ref sig .tc := ⟨.hbm, 59, rfl⟩
abbrev main_v42 : Ref sig .tc := ⟨.hbm, 60, rfl⟩
abbrev main_cst_2 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_3 : Ref sig .tc := ⟨.hbm, 67, rfl⟩
abbrev main_v48 : Ref sig .tc := ⟨.hbm, 68, rfl⟩
abbrev main_v49 : Ref sig .tc := ⟨.hbm, 69, rfl⟩
abbrev main_cst_4 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_5 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_call1_cst : Ref sig .tc := ⟨.hbm, 87, rfl⟩
abbrev main_call1_v0 : Ref sig .tc := ⟨.hbm, 88, rfl⟩
abbrev main_v65 : Ref sig .tc := ⟨.hbm, 89, rfl⟩
abbrev main_c_6 : Ref sig .tc := ⟨.hbm, 90, rfl⟩
abbrev main_v66 : Ref sig .tc := ⟨.hbm, 91, rfl⟩
abbrev main_v67 : Ref sig .tc := ⟨.hbm, 92, rfl⟩
abbrev main_c_7 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_8 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_9 : Ref sig .tc := ⟨.hbm, 124, rfl⟩
abbrev main_v97 : Ref sig .tc := ⟨.hbm, 125, rfl⟩
abbrev main_v98 : Ref sig .tc := ⟨.hbm, 126, rfl⟩
abbrev main_cst_10 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_11 : Ref sig .tc := ⟨.hbm, 133, rfl⟩
abbrev main_v104 : Ref sig .tc := ⟨.hbm, 134, rfl⟩
abbrev main_v105 : Ref sig .tc := ⟨.hbm, 135, rfl⟩
abbrev main_cst_12 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_13 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_call2_cst : Ref sig .tc := ⟨.hbm, 154, rfl⟩
abbrev main_call2_v0 : Ref sig .tc := ⟨.hbm, 155, rfl⟩
abbrev main_v122 : Ref sig .tc := ⟨.hbm, 156, rfl⟩
abbrev main_c_14 : Ref sig .tc := ⟨.hbm, 157, rfl⟩
abbrev main_v123 : Ref sig .tc := ⟨.hbm, 158, rfl⟩
abbrev main_v124 : Ref sig .tc := ⟨.hbm, 159, rfl⟩
abbrev main_c_15 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_16 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_cst_17 : Ref sig .tc := ⟨.hbm, 191, rfl⟩
abbrev main_v154 : Ref sig .tc := ⟨.hbm, 192, rfl⟩
abbrev main_v155 : Ref sig .tc := ⟨.hbm, 193, rfl⟩
abbrev main_cst_18 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_cst_19 : Ref sig .tc := ⟨.hbm, 200, rfl⟩
abbrev main_v161 : Ref sig .tc := ⟨.hbm, 201, rfl⟩
abbrev main_v162 : Ref sig .tc := ⟨.hbm, 202, rfl⟩
abbrev main_cst_20 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_21 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_call3_cst : Ref sig .tc := ⟨.hbm, 220, rfl⟩
abbrev main_call3_v0 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelFold.lean ====
/-
  The buffers between the kernel program's launches: which are kept, what the first stretch makes, and what each
  launch is given.

  The program's memory is followed through nine boundaries `W0 … W9`: a stretch of host operations changes exactly the
  buffers its operations write, each to its operation's function of the operands; a launch changes exactly its result
  array. The weights are prepared once, by the first stretch — the matrices transposed, the per-layer rows reshaped —
  and the two edge-index vectors are cut out of the edge array there too; nothing later writes those buffers, so at
  every later boundary they still hold what the first stretch made of the arguments. Each later stretch does the same
  two things with what the previous launch left: it aggregates that array along the edges (gather the source rows,
  scale by the edge weights, add into the destination rows), and it cuts the next layer's matrices and rows out of the
  prepared weights.
-/
import proofs.«170463_j5016521802571_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic Idealize.SL.Sem
open Idealize.ShloMosaic.Pipeline (Dat Cfg Window)

variable {F : FTy → Type} [FloatOps F]
variable (m : (ℓ : Loc nD τ sig) → Buf (Elt F) ℓ) (ρ : Dev nD → PrngReg)

/-! ## What a stretch keeps -/

/-- The buffers the second stretch of host operations writes. -/
abbrev written1 : List (Ref sig .tc) :=
  [main_v14, main_c, main_v15, main_v16, main_c_0, main_v17, main_v18, main_v19, main_v20, main_v21, main_v22, main_v23,
   main_v24, main_v25, main_cst, main_v26, main_v27, main_v28, main_v29, main_v30, main_v31, main_v32, main_v33, main_v34,
   main_v35, main_v36, main_v37, main_v38]
/-- The buffers the third stretch writes. -/
abbrev written2 : List (Ref sig .tc) :=
  [main_v40, main_c_1, main_v41, main_v42, main_c_2, main_v43, main_v44, main_v45, main_v46, main_v47, main_v48, main_v49,
   main_v50, main_v51, main_cst_3, main_v52, main_v53, main_v54, main_v55, main_v56, main_v57, main_v58, main_v59, main_v60,
   main_v61, main_v62, main_v63, main_v64]
/-- The buffers the fourth stretch writes. -/
abbrev written3 : List (Ref sig .tc) :=
  [main_v66, main_c_4, main_v67, main_v68, main_c_5, main_v69, main_v70, main_v71, main_v72, main_v73, main_v74, main_v75,
   main_v76, main_v77, main_cst_6, main_v78, main_v79, main_v80, main_v81, main_v82, main_v83, main_v84, main_v85, main_v86,
   main_v87, main_v88, main_v89, main_v90]

/-- A buffer the second stretch does not write holds after it what it held before. -/
theorem kept1 (c : Dev nD) (b : Ref sig .tc) (hb : b ∉ written1) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => hb (by subst e; decide))))

/-- A buffer the third stretch does not write holds after it what it held before. -/
theorem kept2 (c : Dev nD) (b : Ref sig .tc) (hb : b ∉ written2) :
    W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => hb (by subst e; decide))))

/-- A buffer the fourth stretch does not write holds after it what it held before. -/
theorem kept3 (c : Dev nD) (b : Ref sig .tc) (hb : b ∉ written3) :
    W7 m ρ c (Proc.devRef .tc b) = W6 m ρ c (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => hb (by subst e; decide))))

/-! ## The prepared buffers are carried to every boundary -/

/-- The buffers the first stretch prepares and nothing later writes: the two edge-index vectors, the transposed
    weights, the reshaped rows; with them the edge-weight argument. -/
abbrev carried : List (Ref sig .tc) :=
  [main_v1, main_v3, main_v5, main_v6, main_v7, main_v9, main_v10, main_v11, main_v12, main_arg2]

theorem back2 (c : Dev nD) (b : Ref sig .tc) (hb : b ∈ carried) :
    W2 m ρ c (Proc.devRef .tc b) = W1 m ρ c (Proc.devRef .tc b) := by
  simp only [carried, List.mem_cons, List.mem_singleton, List.not_mem_nil, or_false] at hb
  rcases hb with rfl | rfl | rfl | rfl | rfl | rfl | rfl | rfl | rfl | rfl <;> exact W2_of_ne m ρ c _ (by decide)

theorem back3 (c : Dev nD) (b : Ref sig .tc) (hb : b ∈ carried) :
    W3 m ρ c (Proc.devRef .tc b) = W1 m ρ c (Proc.devRef .tc b) := by
  refine (kept1 m ρ c b ?_).trans (back2 m ρ c b hb)
  simp only [carried, List.mem_cons, List.mem_singleton, List.not_mem_nil, or_false] at hb
  rcases hb with rfl | rfl | rfl | rfl | rfl | rfl | rfl | rfl | rfl | rfl <;> decide

theorem back4 (c : Dev nD) (b : Ref sig .tc) (hb : b ∈ carried) :
    W4 m ρ c (Proc.devRef .tc b) = W1 m ρ c (Proc.devRef .tc b) := by
  refine Eq.trans ?_ (back3 m ρ c b hb)
  simp only [carried, List.mem_cons, List.mem_singleton, List.not_mem_nil, or_false] at hb
  rcases hb with rfl | rfl | rfl | rfl | rfl | rfl | rfl | rfl | rfl | rfl <;> exact W4_of_ne m ρ c _ (by decide)

theorem back5 (c : Dev nD) (b : Ref sig .tc) (hb : b ∈ carried) :
    W5 m ρ c (Proc.devRef .tc b) = W1 m ρ c (Proc.devRef .tc b) := by
  refine (kept2 m ρ c b ?_).trans (back4 m ρ c b hb)
  simp only [carried, List.mem_cons, List.mem_singleton, List.not_mem_nil, or_false] at hb
  rcases hb with rfl | rfl | rfl | rfl | rfl | rfl | rfl | rfl | rfl | rfl <;> decide

theorem back6 (c : Dev nD) (b : Ref sig .tc) (hb : b ∈ carried) :
    W6 m ρ c (Proc.devRef .tc b) = W1 m ρ c (Proc.devRef .tc b) := by
  refine Eq.trans ?_ (back5 m ρ c b hb)
  simp only [carried, List.mem_cons, List.mem_singleton, List.not_mem_nil, or_false] at hb
  rcases hb with rfl | rfl | rfl | rfl | rfl | rfl | rfl | rfl | rfl | rfl <;> exact W6_of_ne m ρ c _ (by decide)

theorem back7 (c : Dev nD) (b : Ref sig .tc) (hb : b ∈ carried) :
    W7 m ρ c (Proc.devRef .tc b) = W1 m ρ c (Proc.devRef .tc b) := by
  refine (kept3 m ρ c b ?_).trans (back6 m ρ c b hb)
  simp only [carried, List.mem_cons, List.mem_singleton, List.not_mem_nil, or_false] at hb
  rcases hb with rfl | rfl | rfl | rfl | rfl | rfl | rfl | rfl | rfl | rfl <;> decide

theorem back8 (c : Dev nD) (b : Ref sig .tc) (hb : b ∈ carried) :
    W8 m ρ c (Proc.devRef .tc b) = W1 m ρ c (Proc.devRef .tc b) := by
  refine Eq.trans ?_ (back7 m ρ c b hb)
  simp only [carried, List.mem_cons, List.mem_singleton, List.not_mem_nil, or_false] at hb
  rcases hb with rfl | rfl | rfl | rfl | rfl | rfl | rfl | rfl | rfl | rfl <;> exact W8_of_ne m ρ c _ (by decide)

/-! ## What the first stretch makes of the arguments -/

/-- The source indices: row 0 of the edge array, as a vector. -/
theorem W1_src (c : Dev nD) : W1 m ρ c (Proc.devRef .tc main_v1)
    = shapeCast S800000 (extractStridedSlice S1x800000 ![0, 0] (m ((c : Thread nD τ).loc main_arg1)) slices_S2x800000_S1x800000_0_0) shapeCasts_S1x800000_S800000 := by
  show StableHlo.after hostOps0 (W0 m ρ c) (Proc.devRef .tc main_v1) = _
  after_results <;> rfl

/-- The destination indices: row 1 of the edge array, as a vector. -/
theorem W1_dst (c : Dev nD) : W1 m ρ c (Proc.devRef .tc main_v3)
    = shapeCast S800000 (extractStridedSlice S1x800000 ![1, 0] (m ((c : Thread nD τ).loc main_arg1)) slices_S2x800000_S1x800000_1_0) shapeCasts_S1x800000_S800000 := by
  show StableHlo.after hostOps0 (W0 m ρ c) (Proc.devRef .tc main_v3) = _
  after_results <;> rfl

/-- The input stage's matrix: the weight array transposed. -/
theorem W1_win (c : Dev nD) : W1 m ρ c (Proc.devRef .tc main_v4)
    = transpose S128x128 [1, 0] (m ((c : Thread nD τ).loc main_arg3)) transposes_S128x128_S128x128_1_0 := by
  show StableHlo.after hostOps0 (W0 m ρ c) (Proc.devRef .tc main_v4) = _
  after_results <;> rfl

/-- The layers' first matrices: each slab transposed. -/
theorem W1_wrel (c : Dev nD) : W1 m ρ c (Proc.devRef .tc main_v5)
    = transpose S3x128x128 [0, 2, 1] (m ((c : Thread nD τ).loc main_arg5)) transposes_S3x128x128_S3x128x128_0_2_1 := by
  show StableHlo.after hostOps0 (W0 m ρ c) (Proc.devRef .tc main_v5) = _
  after_results <;> rfl

/-- The layers' second matrices: each slab transposed. -/
theorem W1_wroot (c : Dev nD) : W1 m ρ c (Proc.devRef .tc main_v6)
    = transpose S3x128x128 [0, 2, 1] (m ((c : Thread nD τ).loc main_arg7)) transposes_S3x128x128_S3x128x128_0_2_1 := by
  show StableHlo.after hostOps0 (W0 m ρ c) (Proc.devRef .tc main_v6) = _
  after_results <;> rfl

/-- The output stage's matrix: the weight array transposed. -/
theorem W1_wout (c : Dev nD) : W1 m ρ c (Proc.devRef .tc main_v7)
    = transpose S128x128 [1, 0] (m ((c : Thread nD τ).loc main_arg10)) transposes_S128x128_S128x128_1_0 := by
  show StableHlo.after hostOps0 (W0 m ρ c) (Proc.devRef .tc main_v7) = _
  after_results <;> rfl

/-- The input stage's bias, as a row. -/
theorem W1_bin (c : Dev nD) : W1 m ρ c (Proc.devRef .tc main_v8)
    = shapeCast S1x128 (m ((c : Thread nD τ).loc main_arg4)) shapeCasts_S128_S1x128 := by
  show StableHlo.after hostOps0 (W0 m ρ c) (Proc.devRef .tc main_v8) = _
  after_results <;> rfl

/-- The layers' biases, one row per layer. -/
theorem W1_brel (c : Dev nD) : W1 m ρ c (Proc.devRef .tc main_v9)
    = shapeCast S3x1x128 (m ((c : Thread nD τ).loc main_arg6)) shapeCasts_S3x128_S3x1x128 := by
  show StableHlo.after hostOps0 (W0 m ρ c) (Proc.devRef .tc main_v9) = _
  after_results <;> rfl

/-- The layers' normalisation gains, one row per layer. -/
theorem W1_gain (c : Dev nD) : W1 m ρ c (Proc.devRef .tc main_v10)
    = shapeCast S3x1x128 (m ((c : Thread nD τ).loc main_arg8)) shapeCasts_S3x128_S3x1x128 := by
  show StableHlo.after hostOps0 (W0 m ρ c) (Proc.devRef .tc main_v10) = _
  after_results <;> rfl

/-- The layers' normalisation biases, one row per layer. -/
theorem W1_bias (c : Dev nD) : W1 m ρ c (Proc.devRef .tc main_v11)
    = shapeCast S3x1x128 (m ((c : Thread nD τ).loc main_arg9)) shapeCasts_S3x128_S3x1x128 := by
  show StableHlo.after hostOps0 (W0 m ρ c) (Proc.devRef .tc main_v11) = _
  after_results <;> rfl

/-- The output stage's bias, as a row. -/
theorem W1_bout (c : Dev nD) : W1 m ρ c (Proc.devRef .tc main_v12)
    = shapeCast S1x128 (m ((c : Thread nD τ).loc main_arg11)) shapeCasts_S128_S1x128 := by
  show StableHlo.after hostOps0 (W0 m ρ c) (Proc.devRef .tc main_v12) = _
  after_results <;> rfl

/-- The node features are not written: the argument. -/
theorem W1_x (c : Dev nD) : W1 m ρ c (Proc.devRef .tc main_arg0)
    = (m ((c : Thread nD τ).loc main_arg0)) := by
  show StableHlo.after hostOps0 (W0 m ρ c) (Proc.devRef .tc main_arg0) = _
  after_results <;> rfl

/-- The edge weights are not written: the argument. -/
theorem W1_weight (c : Dev nD) : W1 m ρ c (Proc.devRef .tc main_arg2)
    = (m ((c : Thread nD τ).loc main_arg2)) := by
  show StableHlo.after hostOps0 (W0 m ρ c) (Proc.devRef .tc main_arg2) = _
  after_results <;> rfl

/-! ## The aggregation along the edges -/

/-- What a stretch makes of an array `h` of node features: for every edge the row of `h` at the edge's source index
    (a negative index counted from the end), widened back from the narrow float format it is gathered in, times the
    edge's weight; these rows added into the rows of a zero array at the edges' destination indices. -/
def aggregate (h : (⟨S50000x128, .f32⟩ : BufTy).Contents (Elt F)) (src dst : (⟨S800000, .i32⟩ : BufTy).Contents (Elt F))
    (w : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf
      (extf .f32
        (Host.gather gather_S50000x128_S800000x1_S800000x128_1_0_n_n_0_1_1128 (truncf .bf16 h bitsLt_bf16_f32)
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32))) src)))
        bitsLt_bf16_f32)
      (broadcastInDim S800000x128 ![0, 1] bcast_S800000x1_S800000x128_0_1 (broadcastInDim S800000x1 ![0] bcast_S800000_S800000x1_0 w)))

set_option maxHeartbeats 4000000 in
/-- The second stretch aggregates what the first launch left. -/
theorem agg1 (c : Dev nD) : W3 m ρ c (Proc.devRef .tc main_v28)
    = aggregate (W2 m ρ c (Proc.devRef .tc main_v13)) (W2 m ρ c (Proc.devRef .tc main_v1)) (W2 m ρ c (Proc.devRef .tc main_v3))
        (W2 m ρ c (Proc.devRef .tc main_arg2)) := by
  show StableHlo.after hostOps1 (W2 m ρ c) (Proc.devRef .tc main_v28) = _
  after_results_simp <;> rfl

set_option maxHeartbeats 4000000 in
/-- The third stretch aggregates what the second launch left. -/
theorem agg2 (c : Dev nD) : W5 m ρ c (Proc.devRef .tc main_v54)
    = aggregate (W4 m ρ c (Proc.devRef .tc main_v39)) (W4 m ρ c (Proc.devRef .tc main_v1)) (W4 m ρ c (Proc.devRef .tc main_v3))
        (W4 m ρ c (Proc.devRef .tc main_arg2)) := by
  show StableHlo.after hostOps2 (W4 m ρ c) (Proc.devRef .tc main_v54) = _
  after_results_simp <;> rfl

set_option maxHeartbeats 4000000 in
/-- The fourth stretch aggregates what the third launch left. -/
theorem agg3 (c : Dev nD) : W7 m ρ c (Proc.devRef .tc main_v80)
    = aggregate (W6 m ρ c (Proc.devRef .tc main_v65)) (W6 m ρ c (Proc.devRef .tc main_v1)) (W6 m ρ c (Proc.devRef .tc main_v3))
        (W6 m ρ c (Proc.devRef .tc main_arg2)) := by
  show StableHlo.after hostOps3 (W6 m ρ c) (Proc.devRef .tc main_v80) = _
  after_results_simp <;> rfl

end Cert.KernelIdeal.Fold

end
-- ==== Proof.GraphConv.lean ====
/-
  The mathematics of a stack of graph-convolution layers, stated without any program.

  A node carries a ROW of 128 features. A dense stage sends a row `x` to `x · w + b` (entry `j` is the sum over `k` of
  `x k * w k j`, plus `b j`). A graph-convolution layer combines, for every node, the row aggregated from its
  neighbours and the node's own row through two matrices and a bias, then NORMALISES the resulting row — subtract its
  mean, multiply by the reciprocal square root of its variance plus a small constant, scale by a gain and shift by a
  bias — and clamps below at zero, with or without a residual row added before the clamp.

  Everything is over the extended reals. Sums are finite sums over `Fin 128`; the mean divides by the extended real the
  float word of 128 denotes and the small constant is the one its float word denotes: the words are kept as words, so
  two programs that use the same word agree without the word ever being evaluated. The only law between two
  arrangements that is needed later is `combine_bias_first`: adding the bias before or after the second product is the
  same sum, by commutativity and associativity of addition alone — which hold on all of the extended reals, so no
  finiteness is asked of the inputs.
-/
import Idealize.ShloMosaic.PureOps.Ideal
import Idealize.ShloMosaic.PureOps.Ideal.Laws
import Idealize.ShloMosaic.Lib.ValueIdx

noncomputable section

namespace Cert.GraphConv

open Idealize.ShloMosaic Idealize.ShloMosaic.ValueIdx

/-- A row of 128 features. -/
abbrev Row := Fin 128 → EReal
/-- A 128 × 128 matrix, entry `(k, j)`: from input feature `k` to output feature `j`. -/
abbrev Mat := Fin 128 → Fin 128 → EReal
/-- The shape of the node features: 50000 rows of 128. -/
abbrev Nodes : Shape := ⟨2, ![50000, 128]⟩
/-- An array of node features. -/
abbrev Feat := Nodes.Idx → EReal

/-- The extended real the float word of `128.0` denotes. -/
abbrev width : EReal := Ideal.ofBits .f32 0x43000000#32
/-- The extended real the float word of the normalisation's small constant denotes. -/
abbrev small : EReal := Ideal.ofBits .f32 0x3727C5AC#32
/-- The extended real the zero word denotes. -/
abbrev nought : EReal := Ideal.ofBits .f32 0x00000000#32

/-- `x · w`: entry `j` is the sum over `k` of `x k * w k j`. -/
def rowMat (x : Row) (w : Mat) : Row := fun j => ∑ k : Fin 128, x k * w k j

/-- The mean of a row: its sum divided by 128. -/
def rowMean (t : Row) : EReal := Ideal.div (∑ k : Fin 128, t k) width

/-- A row minus its mean. -/
def centre (t : Row) : Row := fun j => t j - rowMean t

/-- The variance of a row: the mean of the squares of the centred row. -/
def rowVar (t : Row) : EReal := Ideal.div (∑ k : Fin 128, centre t k * centre t k) width

/-- Layer normalisation of a row, with gain `g` and bias `b`. -/
def normalise (t g b : Row) : Row := fun j => centre t j * Ideal.rsqrt (rowVar t + small) * g j + b j

/-- The row a graph-convolution layer normalises: the aggregated row through `wrel`, plus the node's own row through
    `wroot`, plus the bias. -/
def combine (a h : Row) (wrel wroot : Mat) (brel : Row) : Row := fun j => rowMat a wrel j + rowMat h wroot j + brel j

/-- Adding the bias before the second product gives the same row. -/
theorem combine_bias_first (a h : Row) (wrel wroot : Mat) (brel : Row) (j : Fin 128) :
    rowMat a wrel j + brel j + rowMat h wroot j = combine a h wrel wroot brel j :=
  add_right_comm _ _ _

/-- Row `r` of an array of node features. -/
def rowOf (x : Feat) (r : Fin 50000) : Row := fun k => x (ix2 r k)

/-- The input stage: `max (x · w + b) 0`, row by row. -/
def inputStage (x : Feat) (w : Mat) (b : Row) : Feat :=
  fun i => max (rowMat (rowOf x (i 0)) w (i 1) + b (i 1)) nought

/-- The output stage: `x · w + b`, row by row. -/
def outputStage (x : Feat) (w : Mat) (b : Row) : Feat :=
  fun i => rowMat (rowOf x (i 0)) w (i 1) + b (i 1)

/-- A graph-convolution layer without a residual: the normalised combination, clamped below at zero. -/
def layerStage (a h : Feat) (wrel wroot : Mat) (brel g b : Row) : Feat :=
  fun i => max (normalise (combine (rowOf a (i 0)) (rowOf h (i 0)) wrel wroot brel) g b (i 1)) nought

/-- A graph-convolution layer with a residual array `res` added before the clamp. -/
def layerResStage (a h : Feat) (wrel wroot : Mat) (brel g b : Row) (res : Feat) : Feat :=
  fun i => max (normalise (combine (rowOf a (i 0)) (rowOf h (i 0)) wrel wroot brel) g b (i 1) + res i) nought

/-! ## The parameters, read out of the argument arrays -/

/-- The transpose of a 128 × 128 weight array as a matrix: entry `(k, j)` is the array at `(j, k)`. -/
def matT (w : (⟨2, ![128, 128]⟩ : Shape).Idx → EReal) : Mat := fun k j => w (ix2 j k)

/-- The transpose of slab `l` of a 3 × 128 × 128 weight array: entry `(k, j)` is the array at `(l, j, k)`. -/
def slabT (w : (⟨3, ![3, 128, 128]⟩ : Shape).Idx → EReal) (l : Fin 3) : Mat := fun k j => w (ix3 l j k)

/-- A vector of 128 entries as a row. -/
def vec (b : (⟨1, ![128]⟩ : Shape).Idx → EReal) : Row := fun j => b (ix1 j)

/-- Row `l` of a 3 × 128 array. -/
def vecAt (b : (⟨2, ![3, 128]⟩ : Shape).Idx → EReal) (l : Fin 3) : Row := fun j => b (ix2 l j)

/-! ## The whole stack, over an aggregation operator

The aggregation of neighbours' rows along the edges is the same host computation in every program that is compared
here, so the stack is stated over an arbitrary operator `agg` on arrays of node features: what matters is only that
every layer aggregates the array the previous layer produced. -/

/-- The weights of the stack, as matrices and rows. -/
structure Weights where
  /-- the input stage's matrix and bias -/
  win : Mat
  bin : Row
  /-- per layer: the matrix on the aggregated row, its bias, the matrix on the node's own row -/
  wrel : Fin 3 → Mat
  brel : Fin 3 → Row
  wroot : Fin 3 → Mat
  /-- per layer: the normalisation's gain and bias -/
  gain : Fin 3 → Row
  bias : Fin 3 → Row
  /-- the output stage's matrix and bias -/
  wout : Mat
  bout : Row

/-- The weights read out of the nine weight arguments (every matrix transposed, as `x · wᵀ` asks). -/
def weightsOf (a3 : (⟨2, ![128, 128]⟩ : Shape).Idx → EReal) (a4 : (⟨1, ![128]⟩ : Shape).Idx → EReal)
    (a5 : (⟨3, ![3, 128, 128]⟩ : Shape).Idx → EReal) (a6 : (⟨2, ![3, 128]⟩ : Shape).Idx → EReal)
    (a7 : (⟨3, ![3, 128, 128]⟩ : Shape).Idx → EReal) (a8 a9 : (⟨2, ![3, 128]⟩ : Shape).Idx → EReal)
    (a10 : (⟨2, ![128, 128]⟩ : Shape).Idx → EReal) (a11 : (⟨1, ![128]⟩ : Shape).Idx → EReal) : Weights :=
  ⟨matT a3, vec a4, slabT a5, vecAt a6, slabT a7, vecAt a8, vecAt a9, matT a10, vec a11⟩

/-- After the input stage. -/
def hidden0 (P : Weights) (x : Feat) : Feat := inputStage x P.win P.bin

/-- After the first layer (no residual). -/
def hidden1 (agg : Feat → Feat) (P : Weights) (x : Feat) : Feat :=
  layerStage (agg (hidden0 P x)) (hidden0 P x) (P.wrel 0) (P.wroot 0) (P.brel 0) (P.gain 0) (P.bias 0)

/-- After the second layer, whose residual is the input stage's array. -/
def hidden2 (agg : Feat → Feat) (P : Weights) (x : Feat) : Feat :=
  layerResStage (agg (hidden1 agg P x)) (hidden1 agg P x) (P.wrel 1) (P.wroot 1) (P.brel 1) (P.gain 1) (P.bias 1) (hidden0 P x)

/-- After the third layer (no residual): the first result. -/
def hidden3 (agg : Feat → Feat) (P : Weights) (x : Feat) : Feat :=
  layerStage (agg (hidden2 agg P x)) (hidden2 agg P x) (P.wrel 2) (P.wroot 2) (P.brel 2) (P.gain 2) (P.bias 2)

/-- The output stage of the third layer's array: the second result. -/
def output (agg : Feat → Feat) (P : Weights) (x : Feat) : Feat := outputStage (hidden3 agg P x) P.wout P.bout

end Cert.GraphConv

end
-- ==== Proof.ParamReads.lean ====
/-
  The weights as the kernels and the host prepare them, read entry by entry.

  A program multiplies by the transpose of a weight matrix in one of two ways: it transposes the whole array first and
  takes its slab afterwards, or takes the slab first and transposes it. Either way the matrix it multiplies by has, at
  `(k, j)`, the weight array at `(j, k)` (in slab `l`: at `(l, j, k)`). A bias or a normalisation row of layer `l` is
  row `l` of its `3 × 128` array, whether it is cut out of the array reshaped to `3 × 1 × 128` or sliced and then
  widened. These are facts about arrangements only — casts, slices and transposes move entries and compute nothing —
  so they hold for entries of any type.
-/
import proofs.«170463_j5016521802571_2_alg».proof.Proof.GraphConv
import Idealize.ShloMosaic.Lib.Pipeline.Value
import Idealize.ShloMosaic.Lib.ValueLayout
import Idealize.ShloMosaic.Lib.ValueIdx

noncomputable section

namespace Cert.ParamReads

open Idealize.ShloMosaic Idealize.ShloMosaic.ValueIdx Cert.GraphConv

/-- A whole 128 × 128 weight array transposed is, read at `(k, j)`, the specification's transposed matrix. -/
theorem transposed_eq (A : (⟨2, ![128, 128]⟩ : Shape).Idx → EReal)
    (h : (⟨2, ![128, 128]⟩ : Shape).Transposes [1, 0] ⟨2, ![128, 128]⟩) :
    (fun k j : Fin 128 => transpose ⟨2, ![128, 128]⟩ [1, 0] A h (ix2 k j)) = matT A :=
  funext fun k => funext fun j => transpose_ix2_apply A h k j

/-- Slab `l` of a stack of three matrices, read at `(0, k, j)` of the `1 × 128 × 128` slice. -/
theorem slab_apply {α : Type} (X : (⟨3, ![3, 128, 128]⟩ : Shape).Idx → α) (l : Fin 3)
    (hs : (⟨3, ![3, 128, 128]⟩ : Shape).Slices ![l.val, 0, 0] ⟨3, ![1, 128, 128]⟩) (k j : Fin 128) :
    extractStridedSlice ⟨3, ![1, 128, 128]⟩ ![l.val, 0, 0] X hs (ix3 (0 : Fin 1) k j) = X (ix3 l k j) := by
  refine extractStridedSlice_apply ![l.val, 0, 0] X hs (ix3 (0 : Fin 1) k j) (ix3 l k j) fun a => ?_
  match a with
  | ⟨0, _⟩ => show l.val = l.val + 0; omega
  | ⟨1, _⟩ => show k.val = 0 + k.val; omega
  | ⟨2, _⟩ => show j.val = 0 + j.val; omega

/-- TRANSPOSE THE STACK, THEN TAKE SLAB `l` AND FLATTEN IT: at `(k, j)` the weight array at `(l, j, k)`. -/
theorem slab_of_transposed_eq (A : (⟨3, ![3, 128, 128]⟩ : Shape).Idx → EReal) (l : Fin 3)
    (ht : (⟨3, ![3, 128, 128]⟩ : Shape).Transposes [0, 2, 1] ⟨3, ![3, 128, 128]⟩)
    (hs : (⟨3, ![3, 128, 128]⟩ : Shape).Slices ![l.val, 0, 0] ⟨3, ![1, 128, 128]⟩)
    (hc : (⟨3, ![1, 128, 128]⟩ : Shape).ShapeCasts ⟨2, ![128, 128]⟩) :
    (fun k j : Fin 128 => shapeCast ⟨2, ![128, 128]⟩
        (extractStridedSlice ⟨3, ![1, 128, 128]⟩ ![l.val, 0, 0] (transpose ⟨3, ![3, 128, 128]⟩ [0, 2, 1] A ht) hs) hc (ix2 k j))
      = slabT A l := by
  funext k j
  rw [shapeCast_1ab_ab_apply, slab_apply, transpose_ix3_021_apply]
  rfl

/-- TAKE SLAB `l`, FLATTEN IT, THEN TRANSPOSE: the same matrix. -/
theorem transposed_slab_eq (A : (⟨3, ![3, 128, 128]⟩ : Shape).Idx → EReal) (l : Fin 3)
    (hs : (⟨3, ![3, 128, 128]⟩ : Shape).Slices ![l.val, 0, 0] ⟨3, ![1, 128, 128]⟩)
    (hc : (⟨3, ![1, 128, 128]⟩ : Shape).ShapeCasts ⟨2, ![128, 128]⟩)
    (ht : (⟨2, ![128, 128]⟩ : Shape).Transposes [1, 0] ⟨2, ![128, 128]⟩) :
    (fun k j : Fin 128 => transpose ⟨2, ![128, 128]⟩ [1, 0]
        (shapeCast ⟨2, ![128, 128]⟩ (extractStridedSlice ⟨3, ![1, 128, 128]⟩ ![l.val, 0, 0] A hs) hc) ht (ix2 k j))
      = slabT A l := by
  funext k j
  rw [transpose_ix2_apply, shapeCast_1ab_ab_apply, slab_apply]
  rfl

/-- A `3 × 128` array reshaped to `3 × 1 × 128` reads, at `(l, 0, j)`, the array at `(l, j)`: the same row-major place. -/
theorem widened_apply {α : Type} (B : (⟨2, ![3, 128]⟩ : Shape).Idx → α)
    (hc : (⟨2, ![3, 128]⟩ : Shape).ShapeCasts ⟨3, ![3, 1, 128]⟩) (l : Fin 3) (j : Fin 128) :
    shapeCast ⟨3, ![3, 1, 128]⟩ B hc (ix3 l (0 : Fin 1) j) = B (ix2 l j) := by
  refine shapeCast_apply B hc (ix3 l (0 : Fin 1) j) (ix2 l j) ?_
  rewrite [Shape.rowMajor_val_two, Shape.rowMajor_val_three]
  show l.val * 128 + j.val = (l.val * 1 + 0) * 128 + j.val
  omega

/-- Row `l` of a `3 × 1 × 128` array, read at `(0, 0, j)` of the `1 × 1 × 128` slice. -/
theorem row_apply {α : Type} (X : (⟨3, ![3, 1, 128]⟩ : Shape).Idx → α) (l : Fin 3)
    (hs : (⟨3, ![3, 1, 128]⟩ : Shape).Slices ![l.val, 0, 0] ⟨3, ![1, 1, 128]⟩) (j : Fin 128) :
    extractStridedSlice ⟨3, ![1, 1, 128]⟩ ![l.val, 0, 0] X hs (ix3 (0 : Fin 1) (0 : Fin 1) j) = X (ix3 l (0 : Fin 1) j) := by
  refine extractStridedSlice_apply ![l.val, 0, 0] X hs (ix3 (0 : Fin 1) (0 : Fin 1) j) (ix3 l (0 : Fin 1) j) fun a => ?_
  match a with
  | ⟨0, _⟩ => show l.val = l.val + 0; omega
  | ⟨1, _⟩ => show 0 = 0 + 0; omega
  | ⟨2, _⟩ => show j.val = 0 + j.val; omega

/-- WIDEN THE `3 × 128` ARRAY, CUT ROW `l`, FLATTEN TO `1 × 128`: at `(0, j)` the array at `(l, j)`. -/
theorem row_of_widened_eq (B : (⟨2, ![3, 128]⟩ : Shape).Idx → EReal) (l : Fin 3)
    (hw : (⟨2, ![3, 128]⟩ : Shape).ShapeCasts ⟨3, ![3, 1, 128]⟩)
    (hs : (⟨3, ![3, 1, 128]⟩ : Shape).Slices ![l.val, 0, 0] ⟨3, ![1, 1, 128]⟩)
    (hc : (⟨3, ![1, 1, 128]⟩ : Shape).ShapeCasts ⟨2, ![1, 128]⟩) :
    (fun j : Fin 128 => shapeCast ⟨2, ![1, 128]⟩
        (extractStridedSlice ⟨3, ![1, 1, 128]⟩ ![l.val, 0, 0] (shapeCast ⟨3, ![3, 1, 128]⟩ B hw) hs) hc (ix2 (0 : Fin 1) j))
      = vecAt B l := by
  funext j
  rw [shapeCast_1ab_ab_apply, row_apply, widened_apply]
  rfl

/-- A vector of 128 entries cast to a `1 × 128` row reads, at `(0, j)`, the vector at `j`. -/
theorem row_of_vector_eq (b : (⟨1, ![128]⟩ : Shape).Idx → EReal) (hc : (⟨1, ![128]⟩ : Shape).ShapeCasts ⟨2, ![1, 128]⟩) :
    (fun j : Fin 128 => shapeCast ⟨2, ![1, 128]⟩ b hc (ix2 (0 : Fin 1) j)) = vec b :=
  funext fun j => shapeCast_a_1a_apply b hc (0 : Fin 1) j

end Cert.ParamReads

end
-- ==== Proof.ColumnForms.lean ====
/-
  Column forms read at an index, and a lane sum as a finite sum.

  A mean taken along the last axis of an `[a, b]` array passes through three arrangements on its way back to the
  array: the `a` row sums, held as a vector `[a]`, are cast to a column `[a, 1]`; the column is broadcast across the
  `b` lanes to `[a, b]`. Read at `(p, c)` each arrangement is the operand at row `p`: the cast at `(p, 0)` is the
  vector at `p`, and the broadcast at `(p, c)` is the column at `(p, 0)`. The row sum itself, read at `p` over the
  extended reals, is the finite sum over the lanes `k` of the array at `(p, k)`.
-/
import Idealize.ShloMosaic.PureOps.Ideal.Laws
import Idealize.ShloMosaic.Lib.Pipeline.Value
import Idealize.ShloMosaic.Lib.ValueIdx

noncomputable section

namespace Cert.ColumnForms

open Idealize.ShloMosaic Idealize.ShloMosaic.ValueIdx

variable {α : Type}

/-- A vector `[a]` cast to a column `[a, 1]` reads, at `(p, 0)`, the vector at `p`: both sit at row-major position `p`. -/
theorem shapeCast_a_a1_apply {a : ℕ} (v : (⟨1, ![a]⟩ : Shape).Idx → α) (h : (⟨1, ![a]⟩ : Shape).ShapeCasts ⟨2, ![a, 1]⟩)
    (p : Fin a) : shapeCast ⟨2, ![a, 1]⟩ v h (ix2 p (0 : Fin 1)) = v (ix1 p) := by
  refine shapeCast_apply v h (ix2 p (0 : Fin 1)) (ix1 p) ?_
  rewrite [Shape.rowMajor_val_one, Shape.rowMajor_val_two]
  show p.val = p.val * 1 + 0
  omega

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of an `[a, b]` array of extended reals, read at row `p`, is the finite sum over the lanes
    `k` of the array at `(p, k)`. -/
theorem laneSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun ax => Fin.ext (by match ax with | ⟨0, _⟩ => rfl | ⟨1, _⟩ => rfl))

end Cert.ColumnForms

end
-- ==== Proof.LayerBlock.lean ====
/-
  The arithmetic of one graph-convolution layer on a block of 5000 rows, read entry by entry.

  The kernel of a layer loads a block of 5000 aggregated rows and the same 5000 rows of the nodes' own features, two
  128 × 128 matrices and three rows of 128 (a bias, the normalisation's gain and bias), and computes with whole blocks:
  two matrix products into zero, their sum plus the bias broadcast down the rows; the row sums divided by 128, broadcast
  back across the lanes and subtracted; the squares' row sums divided by 128, plus a small constant, reciprocal square
  root, broadcast back and multiplied in; times the gain, plus the bias, clamped below at zero (after adding a residual
  block, in the layer that has one).

  Over the extended reals a change of float format is the identity, a matrix product into zero at `(p, q)` is the
  finite sum over `k` of left `(p, k)` times right `(k, q)`, and a row sum at `p` is the finite sum over the lanes.
  So entry `(p, q)` of the result depends on row `p` of the two blocks only, and is the row arithmetic of
  `Cert.GraphConv`: `combine` for the normalised row, `normalise` for the normalisation.

  The payload is cut in two named functions of its operands — the block that is normalised, and the normalisation of
  an arbitrary block — so that each is read once; the kernels of the three layers compute with the same two functions.
-/
import proofs.«170463_j5016521802571_2_alg».proof.Proof.Gen.KernelIdeal.Skeleton
import proofs.«170463_j5016521802571_2_alg».proof.Proof.GraphConv
import proofs.«170463_j5016521802571_2_alg».proof.Proof.ColumnForms
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.GraphConv Cert.ColumnForms

/-! ## A block times a matrix -/

theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_lane (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q

theorem rhs_row (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q

theorem rhs_lane (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a 5000 × 128 block with a 128 × 128 matrix into zero, at `(p, q)`: the sum over `k` of the block at
    `(p, k)` times the matrix at `(k, q)`. -/
theorem blockMat_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q) = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_lane _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_lane _ _)
  rw [el, er]

/-! ## The payload in two functions -/

section AnyFloat
variable {F : FTy → Type} [FloatOps F]

/-- The block a layer normalises: the aggregated block through the first matrix, plus the nodes' own block through the
    second, plus the bias row broadcast down the rows. -/
def preBlock (x0 x1 : Vec F S5000x128 .f32) (x2 x4 : Vec F S128x128 .f32) (x3 : Vec F S1x128 .f32) : FVec F S5000x128 .f32 :=
  addf (addf
      (matmul dot_S5000x128_S128x128_S5000x128_1_0_0_1_n_n none (truncf .bf16 (shapeCast S5000x128 x0 shapeCasts_S5000x128_S5000x128) bitsLt_bf16_f32)
        (truncf .bf16 (shapeCast S128x128 x2 shapeCasts_S128x128_S128x128) bitsLt_bf16_f32) (constant S5000x128 .f32 0x00000000#32))
      (matmul dot_S5000x128_S128x128_S5000x128_1_0_0_1_n_n none (truncf .bf16 (shapeCast S5000x128 x1 shapeCasts_S5000x128_S5000x128) bitsLt_bf16_f32)
        (truncf .bf16 (shapeCast S128x128 x4 shapeCasts_S128x128_S128x128) bitsLt_bf16_f32) (constant S5000x128 .f32 0x00000000#32)))
    (broadcastTo S5000x128 (shapeCast S1x128 x3 shapeCasts_S1x128_S1x128) broadcasts_S1x128_S5000x128)

/-- The row means of a block, as a column. -/
def meanCol (t : FVec F S5000x128 .f32) : FVec F S5000x1 .f32 :=
  divf (shapeCast S5000x1 (multiReduction .add [1] S5000 t 0x00000000#32 reduces_S5000x128_S5000 (.inl rfl) rfl) shapeCasts_S5000_S5000x1)
    (broadcast S5000x1 (Scalar.ofBits .f32 0x43000000#32))

/-- A block minus its row means. -/
def centredBlock (t : FVec F S5000x128 .f32) : FVec F S5000x128 .f32 :=
  subf t (broadcastTo S5000x128 (meanCol t) broadcasts_S5000x1_S5000x128)

/-- The normalisation of a block up to the gain: the centred block times the reciprocal square root of its rows'
    variance plus the small constant, times the gain row. -/
def normBlock (t : FVec F S5000x128 .f32) (x5 : Vec F S1x128 .f32) : FVec F S5000x128 .f32 :=
  mulf (mulf (centredBlock t)
      (broadcastTo S5000x128
        (rsqrt (addf (meanCol (mulf (centredBlock t) (centredBlock t))) (broadcast S5000x1 (Scalar.ofBits .f32 0x3727C5AC#32))))
        broadcasts_S5000x1_S5000x128))
    (broadcastTo S5000x128 (shapeCast S1x128 x5 shapeCasts_S1x128_S1x128) broadcasts_S1x128_S5000x128)

/-- The three layers' kernels compute the same normalised block: the payload is `normBlock` of `preBlock`. -/
theorem pay_layer0 (x0 x1 : Vec F S5000x128 .f32) (x2 x4 : Vec F S128x128 .f32) (x3 x5 : Vec F S1x128 .f32) :
    k1_pay2 x0 x1 x2 x4 x3 x5 = normBlock (preBlock x0 x1 x2 x4 x3) x5 := rfl
theorem pay_layer1 (x0 x1 : Vec F S5000x128 .f32) (x2 x4 : Vec F S128x128 .f32) (x3 x5 : Vec F S1x128 .f32) :
    k2_pay2 x0 x1 x2 x4 x3 x5 = normBlock (preBlock x0 x1 x2 x4 x3) x5 := rfl
theorem pay_layer2 (x0 x1 : Vec F S5000x128 .f32) (x2 x4 : Vec F S128x128 .f32) (x3 x5 : Vec F S1x128 .f32) :
    k3_pay2 x0 x1 x2 x4 x3 x5 = normBlock (preBlock x0 x1 x2 x4 x3) x5 := rfl

/-- The end of a layer without a residual: plus the bias row, clamped below at zero. -/
def clampBlock (v : FVec F S5000x128 .f32) (x6 : Vec F S1x128 .f32) : FVec F S5000x128 .f32 :=
  maximumf (addf v (broadcastTo S5000x128 (shapeCast S1x128 x6 shapeCasts_S1x128_S1x128) broadcasts_S1x128_S5000x128))
    (broadcast S5000x128 (Scalar.ofBits .f32 0x00000000#32))

/-- The end of the layer with a residual: plus the bias row, plus the residual block, clamped below at zero. -/
def clampResBlock (v : FVec F S5000x128 .f32) (x6 : Vec F S1x128 .f32) (x7 : Vec F S5000x128 .f32) : FVec F S5000x128 .f32 :=
  maximumf (addf (addf v (broadcastTo S5000x128 (shapeCast S1x128 x6 shapeCasts_S1x128_S1x128) broadcasts_S1x128_S5000x128))
      (shapeCast S5000x128 x7 shapeCasts_S5000x128_S5000x128))
    (broadcast S5000x128 (Scalar.ofBits .f32 0x00000000#32))

theorem tail_layer0 (v : FVec F S5000x128 .f32) (x6 : Vec F S1x128 .f32) : k1_pay1 v x6 = clampBlock v x6 := rfl
theorem tail_layer1 (v : FVec F S5000x128 .f32) (x6 : Vec F S1x128 .f32) (x7 : Vec F S5000x128 .f32) :
    k2_pay1 v x6 x7 = clampResBlock v x6 x7 := rfl
theorem tail_layer2 (v : FVec F S5000x128 .f32) (x6 : Vec F S1x128 .f32) : k3_pay1 v x6 = clampBlock v x6 := rfl

/-- The input stage's block: the block through the matrix, plus the bias row, clamped below at zero. -/
def inputBlock (x0 : Vec F S5000x128 .f32) (x1 : Vec F S128x128 .f32) (x2 : Vec F S1x128 .f32) : FVec F S5000x128 .f32 :=
  maximumf (addf
      (matmul dot_S5000x128_S128x128_S5000x128_1_0_0_1_n_n none (truncf .bf16 x0 bitsLt_bf16_f32)
        (truncf .bf16 (shapeCast S128x128 x1 shapeCasts_S128x128_S128x128) bitsLt_bf16_f32) (constant S5000x128 .f32 0x00000000#32))
      (broadcastTo S5000x128 (shapeCast S1x128 x2 shapeCasts_S1x128_S1x128) broadcasts_S1x128_S5000x128))
    (broadcast S5000x128 (Scalar.ofBits .f32 0x00000000#32))

/-- The output stage's block: the block through the matrix, plus the bias row. -/
def outputBlock (x0 : Vec F S5000x128 .f32) (x1 : Vec F S128x128 .f32) (x2 : Vec F S1x128 .f32) : FVec F S5000x128 .f32 :=
  addf
    (matmul dot_S5000x128_S128x128_S5000x128_1_0_0_1_n_n none (truncf .bf16 (shapeCast S5000x128 x0 shapeCasts_S5000x128_S5000x128) bitsLt_bf16_f32)
      (truncf .bf16 (shapeCast S128x128 x1 shapeCasts_S128x128_S128x128) bitsLt_bf16_f32) (constant S5000x128 .f32 0x00000000#32))
    (broadcastTo S5000x128 (shapeCast S1x128 x2 shapeCasts_S1x128_S1x128) broadcasts_S1x128_S5000x128)

theorem pay_input (x0 : Vec F S5000x128 .f32) (x1 : Vec F S128x128 .f32) (x2 : Vec F S1x128 .f32) :
    k0_pay1 x0 x1 x2 = inputBlock x0 x1 x2 := rfl
theorem pay_output (x0 : Vec F S5000x128 .f32) (x1 : Vec F S128x128 .f32) (x2 : Vec F S1x128 .f32) :
    k4_pay1 x0 x1 x2 = outputBlock x0 x1 x2 := rfl

end AnyFloat

/-! ## Read entry by entry over the extended reals -/

/-- Entry `(p, q)` of the block a layer normalises is entry `q` of the combination of row `p` of the two blocks. -/
theorem preBlock_apply (x0 x1 : Vec Ideal S5000x128 .f32) (x2 x4 : Vec Ideal S128x128 .f32) (x3 : Vec Ideal S1x128 .f32)
    (p : Fin 5000) (q : Fin 128) :
    preBlock (F := Ideal) x0 x1 x2 x4 x3 (ix2 p q)
      = combine (fun k => x0 (ix2 p k)) (fun k => x1 (ix2 p k)) (fun k j => x2 (ix2 k j)) (fun k j => x4 (ix2 k j))
          (fun j => x3 (ix2 (0 : Fin 1) j)) q := by
  unfold preBlock combine rowMat
  rw [addf_apply, addf_apply, blockMat_apply, blockMat_apply, broadcastTo_1b_ab_apply]
  simp only [shapeCast_self, truncf_apply]

/-- The row mean, read at row `p`. -/
theorem meanCol_apply (t : FVec Ideal S5000x128 .f32) (p : Fin 5000) :
    meanCol (F := Ideal) t (ix2 p (0 : Fin 1)) = rowMean (fun k => t (ix2 p k)) := by
  unfold meanCol rowMean
  rw [divf_apply, shapeCast_a_a1_apply]
  exact congrArg (Ideal.div · width) (laneSum_apply t 0x00000000#32 reduces_S5000x128_S5000 _ _ p)

/-- The centred block, read at `(p, q)`. -/
theorem centredBlock_apply (t : FVec Ideal S5000x128 .f32) (p : Fin 5000) (q : Fin 128) :
    centredBlock (F := Ideal) t (ix2 p q) = centre (fun k => t (ix2 p k)) q := by
  unfold centredBlock centre
  rw [subf_apply, broadcastTo_a1_ab_apply, meanCol_apply]

/-- The normalisation up to the gain, read at `(p, q)`, plus the bias entry, is the normalised row's entry. -/
theorem normBlock_apply (t : FVec Ideal S5000x128 .f32) (x5 x6 : Vec Ideal S1x128 .f32) (p : Fin 5000) (q : Fin 128) :
    normBlock (F := Ideal) t x5 (ix2 p q) + x6 (ix2 (0 : Fin 1) q)
      = normalise (fun k => t (ix2 p k)) (fun j => x5 (ix2 (0 : Fin 1) j)) (fun j => x6 (ix2 (0 : Fin 1) j)) q := by
  unfold normBlock normalise rowVar
  rw [mulf_apply, mulf_apply, broadcastTo_a1_ab_apply, broadcastTo_1b_ab_apply, centredBlock_apply]
  have hvar : meanCol (F := Ideal) (mulf (centredBlock (F := Ideal) t) (centredBlock (F := Ideal) t)) (ix2 p (0 : Fin 1))
      = Ideal.div (∑ k : Fin 128, centre (fun k => t (ix2 p k)) k * centre (fun k => t (ix2 p k)) k) width := by
    rw [meanCol_apply]
    unfold rowMean
    refine congrArg (Ideal.div · width) (Finset.sum_congr rfl fun k _ => ?_)
    show mulf (centredBlock (F := Ideal) t) (centredBlock (F := Ideal) t) (ix2 p k) = _
    rw [mulf_apply, centredBlock_apply]
  show centre (fun k => t (ix2 p k)) q
      * Ideal.rsqrt (meanCol (F := Ideal) (mulf (centredBlock (F := Ideal) t) (centredBlock (F := Ideal) t)) (ix2 p (0 : Fin 1)) + small)
      * (shapeCast S1x128 x5 shapeCasts_S1x128_S1x128) (ix2 (0 : Fin 1) q) + x6 (ix2 (0 : Fin 1) q) = _
  rw [hvar, shapeCast_self]

/-- The end of a layer without a residual, read at `(p, q)`. -/
theorem clampBlock_apply (v : FVec Ideal S5000x128 .f32) (x6 : Vec Ideal S1x128 .f32) (p : Fin 5000) (q : Fin 128) :
    clampBlock (F := Ideal) v x6 (ix2 p q) = max (v (ix2 p q) + x6 (ix2 (0 : Fin 1) q)) nought := by
  unfold clampBlock
  rw [maximumf_apply, addf_apply, broadcastTo_1b_ab_apply, shapeCast_self]
  rfl

/-- The end of the layer with a residual, read at `(p, q)`. -/
theorem clampResBlock_apply (v : FVec Ideal S5000x128 .f32) (x6 : Vec Ideal S1x128 .f32) (x7 : Vec Ideal S5000x128 .f32)
    (p : Fin 5000) (q : Fin 128) :
    clampResBlock (F := Ideal) v x6 x7 (ix2 p q) = max (v (ix2 p q) + x6 (ix2 (0 : Fin 1) q) + x7 (ix2 p q)) nought := by
  unfold clampResBlock
  rw [maximumf_apply, addf_apply, addf_apply, broadcastTo_1b_ab_apply, shapeCast_self, shapeCast_self]
  rfl

/-- ENTRY `(p, q)` OF A LAYER'S BLOCK (no residual): the normalised combination of row `p` of the two blocks, at `q`,
    clamped below at zero. -/
theorem layer_entry (x0 x1 : Vec Ideal S5000x128 .f32) (x2 x4 : Vec Ideal S128x128 .f32) (x3 x5 x6 : Vec Ideal S1x128 .f32)
    (p : Fin 5000) (q : Fin 128) :
    clampBlock (F := Ideal) (normBlock (F := Ideal) (preBlock (F := Ideal) x0 x1 x2 x4 x3) x5) x6 (ix2 p q)
      = max (normalise (combine (fun k => x0 (ix2 p k)) (fun k => x1 (ix2 p k)) (fun k j => x2 (ix2 k j)) (fun k j => x4 (ix2 k j))
          (fun j => x3 (ix2 (0 : Fin 1) j))) (fun j => x5 (ix2 (0 : Fin 1) j)) (fun j => x6 (ix2 (0 : Fin 1) j)) q) nought := by
  rw [clampBlock_apply, normBlock_apply]
  exact congrArg (fun r : Row => max (normalise r (fun j => x5 (ix2 (0 : Fin 1) j)) (fun j => x6 (ix2 (0 : Fin 1) j)) q) nought)
    (funext fun k => preBlock_apply x0 x1 x2 x4 x3 p k)

/-- ENTRY `(p, q)` OF THE BLOCK OF THE LAYER WITH A RESIDUAL: the same, the residual block's entry added before the
    clamp. -/
theorem layerRes_entry (x0 x1 : Vec Ideal S5000x128 .f32) (x2 x4 : Vec Ideal S128x128 .f32) (x3 x5 x6 : Vec Ideal S1x128 .f32)
    (x7 : Vec Ideal S5000x128 .f32) (p : Fin 5000) (q : Fin 128) :
    clampResBlock (F := Ideal) (normBlock (F := Ideal) (preBlock (F := Ideal) x0 x1 x2 x4 x3) x5) x6 x7 (ix2 p q)
      = max (normalise (combine (fun k => x0 (ix2 p k)) (fun k => x1 (ix2 p k)) (fun k j => x2 (ix2 k j)) (fun k j => x4 (ix2 k j))
          (fun j => x3 (ix2 (0 : Fin 1) j))) (fun j => x5 (ix2 (0 : Fin 1) j)) (fun j => x6 (ix2 (0 : Fin 1) j)) q
        + x7 (ix2 p q)) nought := by
  rw [clampResBlock_apply, normBlock_apply]
  exact congrArg (fun r : Row => max (normalise r (fun j => x5 (ix2 (0 : Fin 1) j)) (fun j => x6 (ix2 (0 : Fin 1) j)) q
      + x7 (ix2 p q)) nought)
    (funext fun k => preBlock_apply x0 x1 x2 x4 x3 p k)

/-- ENTRY `(p, q)` OF THE INPUT STAGE'S BLOCK. -/
theorem input_entry (x0 : Vec Ideal S5000x128 .f32) (x1 : Vec Ideal S128x128 .f32) (x2 : Vec Ideal S1x128 .f32)
    (p : Fin 5000) (q : Fin 128) :
    inputBlock (F := Ideal) x0 x1 x2 (ix2 p q)
      = max (rowMat (fun k => x0 (ix2 p k)) (fun k j => x1 (ix2 k j)) q + x2 (ix2 (0 : Fin 1) q)) nought := by
  unfold inputBlock rowMat
  rw [maximumf_apply, addf_apply, blockMat_apply, broadcastTo_1b_ab_apply]
  simp only [shapeCast_self, truncf_apply]
  rfl

/-- ENTRY `(p, q)` OF THE OUTPUT STAGE'S BLOCK. -/
theorem output_entry (x0 : Vec Ideal S5000x128 .f32) (x1 : Vec Ideal S128x128 .f32) (x2 : Vec Ideal S1x128 .f32)
    (p : Fin 5000) (q : Fin 128) :
    outputBlock (F := Ideal) x0 x1 x2 (ix2 p q)
      = rowMat (fun k => x0 (ix2 p k)) (fun k j => x1 (ix2 k j)) q + x2 (ix2 (0 : Fin 1) q) := by
  unfold outputBlock rowMat
  rw [addf_apply, blockMat_apply, broadcastTo_1b_ab_apply]
  simp only [shapeCast_self, truncf_apply]

end Cert.KernelIdeal.Block

end
-- ==== Proof.ArrayInput.lean ====
/-
  The array the input stage leaves, as one function of the arrays it finds.

  The input stage's kernel runs at ten grid points. At point `t` it is given rows `5000 t … 5000 t + 4999` of the node
  features, the whole of the weight matrix and of the bias row, and writes back the same rows of its result: each row
  through the matrix, plus the bias, clamped below at zero. An entry of what it writes depends only on the same row of
  the node features, so the ten blocks are the ten restrictions of ONE array, the input stage of `Cert.GraphConv` applied
  to the arrays as the region finds them; and the ten blocks tile all 50000 rows, so after the region the result array
  IS that array.

  Everything is stated at an arbitrary valuation `V` of the buffers at the region's entry; the run instantiates it.
-/
import proofs.«170463_j5016521802571_2_alg».proof.Proof.Gen.KernelIdeal.Frame
import proofs.«170463_j5016521802571_2_alg».proof.Proof.LayerBlock
import Idealize.ShloMosaic.Lib.Pipeline.Value

set_option maxRecDepth 16384

noncomputable section

namespace Cert.KernelIdeal.ArrayInput

open Cert.KernelIdeal Cert.KernelIdeal.Gen Cert.KernelIdeal.Block Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the ten grid points: the row window and the result move to block `(t, 0)`, the matrix
    and the bias row stay at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 10 := lt_of_lt_of_eq t.isLt N_0

/-- Row `p` of block `t` is row `5000 t + p` of the array. -/
def rowAt (t : Fin cfg0.N) (p : Fin 5000) : Fin 50000 :=
  ⟨t.val * 5000 + p.val, by have := point_lt t; have := p.isLt; omega⟩

/-! ## The windows' blocks, read at an entry -/

/-- The node features' block at point `t`, entry `(p, k)`: the array at row `5000 t + p`. -/
theorem rows_x (c : Dev nD) (t : Fin cfg0.N) (p : Fin 5000) (k : Fin 128) :
    (iblk0 V c 0 t : Vec Ideal S5000x128 .f32) (ix2 p k) = (V c main_arg0 : S50000x128.Idx → Elt Ideal .f32) (ix2 (rowAt t p) k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * p.val = t.val * 5000 + p.val; rw [e0]; omega
  | ⟨1, _⟩ => show win0_0.index t 1 * 128 + 1 * k.val = k.val; rw [e1]; omega

/-- The matrix's block at every point is the whole array. -/
theorem whole_w (c : Dev nD) (t : Fin cfg0.N) (k j : Fin 128) :
    (iblk0 V c 1 t : Vec Ideal S128x128 .f32) (ix2 k j) = (V c main_v4 : S128x128.Idx → Elt Ideal .f32) (ix2 k j) := by
  obtain ⟨-, -, e0, e1, -⟩ := idx_facts t
  unfold iblk0
  rw [View.read_apply]
  show V c main_v4 _ = V c main_v4 _
  congr 1
  funext a
  apply Fin.ext
  match a with
  | ⟨0, _⟩ => show win0_1.index t 0 * 128 + 1 * k.val = k.val; rw [e0]; omega
  | ⟨1, _⟩ => show win0_1.index t 1 * 128 + 1 * j.val = j.val; rw [e1]; omega

/-- The bias row's block at every point is the whole array. -/
theorem whole_b (c : Dev nD) (t : Fin cfg0.N) (j : Fin 128) :
    (iblk0 V c 2 t : Vec Ideal S1x128 .f32) (ix2 (0 : Fin 1) j) = (V c main_v8 : S1x128.Idx → Elt Ideal .f32) (ix2 (0 : Fin 1) j) := by
  obtain ⟨-, -, -, -, e0, e1, -⟩ := idx_facts t
  unfold iblk0
  rw [View.read_apply]
  show V c main_v8 _ = V c main_v8 _
  congr 1
  funext a
  apply Fin.ext
  match a with
  | ⟨0, _⟩ => show win0_2.index t 0 * 1 + 1 * 0 = 0; rw [e0]
  | ⟨1, _⟩ => show win0_2.index t 1 * 128 + 1 * j.val = j.val; rw [e1]; omega

/-! ## The array -/

/-- The input stage of the arrays as the region finds them. -/
def stage (c : Dev nD) : S50000x128.Idx → Elt Ideal .f32 :=
  inputStage (V c main_arg0)
    (fun k j => (V c main_v4 : S128x128.Idx → Elt Ideal .f32) (ix2 k j))
    (fun j => (V c main_v8 : S1x128.Idx → Elt Ideal .f32) (ix2 (0 : Fin 1) j))

/-- The result window's block at point `t` embeds entry `(p, q)` at row `5000 t + p`, lane `q`. -/
theorem emb_out (t : Fin cfg0.N) (p : Fin 5000) (q : Fin 128) :
    ((cfg0.win 3).blk t).view.emb (ix2 p q) = (ix2 (rowAt t p) q : S50000x128.Idx) := by
  obtain ⟨-, -, -, -, -, -, e0, e1⟩ := idx_facts t
  funext a
  apply Fin.ext
  match a with
  | ⟨0, _⟩ => show win0_3.index t 0 * 5000 + 1 * p.val = t.val * 5000 + p.val; rw [e0]; omega
  | ⟨1, _⟩ => show win0_3.index t 1 * 128 + 1 * q.val = q.val; rw [e1]; omega

/-- WHAT POINT `t` WRITES BACK is block `t` of the stage's array. -/
theorem flushed_eq (c : Dev nD) (t : Fin cfg0.N) :
    (dat0 V c).flushed 3 t = ((cfg0.win 3).blk t).view.read (Elt Ideal) (stage V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  rw [pay_input]
  funext y
  obtain ⟨p, q, rfl⟩ : ∃ (p : Fin 5000) (q : Fin 128), y = ix2 p q := ⟨y 0, y 1, eq_ix2 y⟩
  rw [View.read_apply, emb_out]
  refine (input_entry (iblk0 V c 0 t) (iblk0 V c 1 t) (iblk0 V c 2 t) p q).trans ?_
  simp only [rows_x V c t, whole_w V c t, whole_b V c t]
  rfl

/-- An index of the result array is in point `t`'s block iff its row lies in `5000 t … 5000 t + 4999`. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v13).slice (win0_3.rect t)).set ↔ _
  rw [View.set_slice_whole, Rect.mem_set_unit]
  exact Iff.rfl

/-- Every index of the result array is in some point's block: row `r` lies in block `r / 5000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e0, e1⟩ := idx_facts t
  refine ⟨t, flush0_3 t, ?_⟩
  rw [mem_blk]
  intro a
  have ht : t.val = (i 0).val / 5000 := rfl
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 128 ≤ (i 1).val ∧ (i 1).val < win0_3.index t (1 : Fin 2) * 128 + 128; rw [e1]; omega

/-- THE ARRAY AFTER THE REGION: the input stage of the arrays the region finds. -/
theorem final (c : Dev nD) : (dat0 V c).arrAt 3 cfg0.N = stage V c :=
  (dat0 V c).arrAt_eq_of_cover 3 (stage V c) (fun t _ => flushed_eq V c t) (cover)

end Cert.KernelIdeal.ArrayInput

end
-- ==== Proof.ArrayLayer0.lean ====
/-
  The array the first graph-convolution layer leaves, as one function of the arrays it finds.

  The layer's kernel runs at ten grid points. At point `t` it is given rows `5000 t … 5000 t + 4999` of the aggregated
  array and of the nodes' own array, the whole of the two weight matrices and of the three parameter rows, and writes
  back rows `5000 t … 5000 t + 4999` of its result. An entry of what it writes depends only on the same row of the two
  arrays (the block arithmetic read entry by entry), so the ten blocks are the ten restrictions of ONE array: the
  layer's stage of `Cert.GraphConv` applied to the arrays as the region finds them. The ten blocks tile all 50000 rows
  (row `r` lies in block `r / 5000`), so after the region the result array IS that array.

  Everything is stated at an arbitrary valuation `V` of the buffers at the region's entry; the run instantiates it.
-/
import proofs.«170463_j5016521802571_2_alg».proof.Proof.Gen.KernelIdeal.Frame
import proofs.«170463_j5016521802571_2_alg».proof.Proof.LayerBlock
import Idealize.ShloMosaic.Lib.Pipeline.Value

set_option maxRecDepth 16384

noncomputable section

namespace Cert.KernelIdeal.ArrayLayer0

open Cert.KernelIdeal Cert.KernelIdeal.Gen Cert.KernelIdeal.Block Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the ten grid points: the two row windows and the result move to block `(t, 0)`, the
    five parameter windows stay at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem point_lt (t : Fin cfg1.N) : t.val < 10 := lt_of_lt_of_eq t.isLt N_1

/-- Row `p` of block `t` is row `5000 t + p` of the array. -/
def rowAt (t : Fin cfg1.N) (p : Fin 5000) : Fin 50000 :=
  ⟨t.val * 5000 + p.val, by have := point_lt t; have := p.isLt; omega⟩

/-! ## The windows' blocks, read at an entry -/

/-- The aggregated array's block at point `t`, entry `(p, k)`: the array at row `5000 t + p`. -/
theorem rows_agg (c : Dev nD) (t : Fin cfg1.N) (p : Fin 5000) (k : Fin 128) :
    (iblk1 V c 0 t : Vec Ideal S5000x128 .f32) (ix2 p k) = (V c main_v28 : S50000x128.Idx → Elt Ideal .f32) (ix2 (rowAt t p) k) := by
  obtain ⟨e0, e1, -⟩ := idx_facts t
  unfold iblk1
  rw [View.read_apply]
  show V c main_v28 _ = V c main_v28 _
  congr 1
  funext a
  apply Fin.ext
  match a with
  | ⟨0, _⟩ => show win1_0.index t 0 * 5000 + 1 * p.val = t.val * 5000 + p.val; rw [e0]; omega
  | ⟨1, _⟩ => show win1_0.index t 1 * 128 + 1 * k.val = k.val; rw [e1]; omega

/-- The nodes' own array's block at point `t`, entry `(p, k)`: the array at row `5000 t + p`. -/
theorem rows_own (c : Dev nD) (t : Fin cfg1.N) (p : Fin 5000) (k : Fin 128) :
    (iblk1 V c 1 t : Vec Ideal S5000x128 .f32) (ix2 p k) = (V c main_v13 : S50000x128.Idx → Elt Ideal .f32) (ix2 (rowAt t p) k) := by
  obtain ⟨-, -, e0, e1, -⟩ := idx_facts t
  unfold iblk1
  rw [View.read_apply]
  show V c main_v13 _ = V c main_v13 _
  congr 1
  funext a
  apply Fin.ext
  match a with
  | ⟨0, _⟩ => show win1_1.index t 0 * 5000 + 1 * p.val = t.val * 5000 + p.val; rw [e0]; omega
  | ⟨1, _⟩ => show win1_1.index t 1 * 128 + 1 * k.val = k.val; rw [e1]; omega

/-- The first matrix's block at every point is the whole array. -/
theorem whole_wrel (c : Dev nD) (t : Fin cfg1.N) (k j : Fin 128) :
    (iblk1 V c 2 t : Vec Ideal S128x128 .f32) (ix2 k j) = (V c main_v30 : S128x128.Idx → Elt Ideal .f32) (ix2 k j) := by
  obtain ⟨-, -, -, -, e0, e1, -⟩ := idx_facts t
  unfold iblk1
  rw [View.read_apply]
  show V c main_v30 _ = V c main_v30 _
  congr 1
  funext a
  apply Fin.ext
  match a with
  | ⟨0, _⟩ => show win1_2.index t 0 * 128 + 1 * k.val = k.val; rw [e0]; omega
  | ⟨1, _⟩ => show win1_2.index t 1 * 128 + 1 * j.val = j.val; rw [e1]; omega

/-- The first bias row's block at every point is the whole array. -/
theorem whole_brel (c : Dev nD) (t : Fin cfg1.N) (j : Fin 128) :
    (iblk1 V c 3 t : Vec Ideal S1x128 .f32) (ix2 (0 : Fin 1) j) = (V c main_v32 : S1x128.Idx → Elt Ideal .f32) (ix2 (0 : Fin 1) j) := by
  obtain ⟨-, -, -, -, -, -, e0, e1, -⟩ := idx_facts t
  unfold iblk1
  rw [View.read_apply]
  show V c main_v32 _ = V c main_v32 _
  congr 1
  funext a
  apply Fin.ext
  match a with
  | ⟨0, _⟩ => show win1_3.index t 0 * 1 + 1 * 0 = 0; rw [e0]
  | ⟨1, _⟩ => show win1_3.index t 1 * 128 + 1 * j.val = j.val; rw [e1]; omega

/-- The second matrix's block at every point is the whole array. -/
theorem whole_wroot (c : Dev nD) (t : Fin cfg1.N) (k j : Fin 128) :
    (iblk1 V c 4 t : Vec Ideal S128x128 .f32) (ix2 k j) = (V c main_v34 : S128x128.Idx → Elt Ideal .f32) (ix2 k j) := by
  obtain ⟨-, -, -, -, -, -, -, -, e0, e1, -⟩ := idx_facts t
  unfold iblk1
  rw [View.read_apply]
  show V c main_v34 _ = V c main_v34 _
  congr 1
  funext a
  apply Fin.ext
  match a with
  | ⟨0, _⟩ => show win1_4.index t 0 * 128 + 1 * k.val = k.val; rw [e0]; omega
  | ⟨1, _⟩ => show win1_4.index t 1 * 128 + 1 * j.val = j.val; rw [e1]; omega

/-- The gain row's block at every point is the whole array. -/
theorem whole_gain (c : Dev nD) (t : Fin cfg1.N) (j : Fin 128) :
    (iblk1 V c 5 t : Vec Ideal S1x128 .f32) (ix2 (0 : Fin 1) j) = (V c main_v36 : S1x128.Idx → Elt Ideal .f32) (ix2 (0 : Fin 1) j) := by
  obtain ⟨-, -, -, -, -, -, -, -, -, -, e0, e1, -⟩ := idx_facts t
  unfold iblk1
  rw [View.read_apply]
  show V c main_v36 _ = V c main_v36 _
  congr 1
  funext a
  apply Fin.ext
  match a with
  | ⟨0, _⟩ => show win1_5.index t 0 * 1 + 1 * 0 = 0; rw [e0]
  | ⟨1, _⟩ => show win1_5.index t 1 * 128 + 1 * j.val = j.val; rw [e1]; omega

/-- The normalisation's bias row's block at every point is the whole array. -/
theorem whole_bias (c : Dev nD) (t : Fin cfg1.N) (j : Fin 128) :
    (iblk1 V c 6 t : Vec Ideal S1x128 .f32) (ix2 (0 : Fin 1) j) = (V c main_v38 : S1x128.Idx → Elt Ideal .f32) (ix2 (0 : Fin 1) j) := by
  obtain ⟨-, -, -, -, -, -, -, -, -, -, -, -, e0, e1, -⟩ := idx_facts t
  unfold iblk1
  rw [View.read_apply]
  show V c main_v38 _ = V c main_v38 _
  congr 1
  funext a
  apply Fin.ext
  match a with
  | ⟨0, _⟩ => show win1_6.index t 0 * 1 + 1 * 0 = 0; rw [e0]
  | ⟨1, _⟩ => show win1_6.index t 1 * 128 + 1 * j.val = j.val; rw [e1]; omega

/-! ## The array -/

/-- The layer's stage of the arrays as the region finds them. -/
def stage (c : Dev nD) : S50000x128.Idx → Elt Ideal .f32 :=
  layerStage (V c main_v28) (V c main_v13)
    (fun k j => (V c main_v30 : S128x128.Idx → Elt Ideal .f32) (ix2 k j))
    (fun k j => (V c main_v34 : S128x128.Idx → Elt Ideal .f32) (ix2 k j))
    (fun j => (V c main_v32 : S1x128.Idx → Elt Ideal .f32) (ix2 (0 : Fin 1) j))
    (fun j => (V c main_v36 : S1x128.Idx → Elt Ideal .f32) (ix2 (0 : Fin 1) j))
    (fun j => (V c main_v38 : S1x128.Idx → Elt Ideal .f32) (ix2 (0 : Fin 1) j))

/-- The result window's block at point `t` embeds entry `(p, q)` at row `5000 t + p`, lane `q`. -/
theorem emb_out (t : Fin cfg1.N) (p : Fin 5000) (q : Fin 128) :
    ((cfg1.win 7).blk t).view.emb (ix2 p q) = (ix2 (rowAt t p) q : S50000x128.Idx) := by
  obtain ⟨-, -, -, -, -, -, -, -, -, -, -, -, -, -, e0, e1⟩ := idx_facts t
  funext a
  apply Fin.ext
  match a with
  | ⟨0, _⟩ => show win1_7.index t 0 * 5000 + 1 * p.val = t.val * 5000 + p.val; rw [e0]; omega
  | ⟨1, _⟩ => show win1_7.index t 1 * 128 + 1 * q.val = q.val; rw [e1]; omega

/-- WHAT POINT `t` WRITES BACK is block `t` of the stage's array. -/
theorem flushed_eq (c : Dev nD) (t : Fin cfg1.N) :
    (dat1 V c).flushed 7 t = ((cfg1.win 7).blk t).view.read (Elt Ideal) (stage V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  rw [pay_layer0, tail_layer0]
  funext y
  obtain ⟨p, q, rfl⟩ : ∃ (p : Fin 5000) (q : Fin 128), y = ix2 p q := ⟨y 0, y 1, eq_ix2 y⟩
  rw [View.read_apply, emb_out]
  refine (layer_entry (iblk1 V c 0 t) (iblk1 V c 1 t) (iblk1 V c 2 t) (iblk1 V c 4 t) (iblk1 V c 3 t) (iblk1 V c 5 t)
    (iblk1 V c 6 t) p q).trans ?_
  simp only [rows_agg V c t, rows_own V c t, whole_wrel V c t, whole_brel V c t, whole_wroot V c t, whole_gain V c t,
    whole_bias V c t]
  rfl

/-- An index of the result array is in point `t`'s block iff its row lies in `5000 t … 5000 t + 4999`. -/
theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v39).slice (win1_7.rect t)).set ↔ _
  rw [View.set_slice_whole, Rect.mem_set_unit]
  exact Iff.rfl

/-- Every index of the result array is in some point's block: row `r` lies in block `r / 5000`. -/
theorem cover (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, -, -, -, -, -, e0, e1⟩ := idx_facts t
  refine ⟨t, flush1_7 t, ?_⟩
  rw [mem_blk]
  intro a
  have ht : t.val = (i 0).val / 5000 := rfl
  match a with
  | ⟨0, _⟩ => show win1_7.index t (0 : Fin 2) * 5000 ≤ (i 0).val ∧ (i 0).val < win1_7.index t (0 : Fin 2) * 5000 + 5000; rw [e0, ht]; omega
  | ⟨1, _⟩ => show win1_7.index t (1 : Fin 2) * 128 ≤ (i 1).val ∧ (i 1).val < win1_7.index t (1 : Fin 2) * 128 + 128; rw [e1]; omega

/-- THE ARRAY AFTER THE REGION: the layer's stage of the arrays the region finds. -/
theorem final (c : Dev nD) : (dat1 V c).arrAt 7 cfg1.N = stage V c :=
  (dat1 V c).arrAt_eq_of_cover 7 (stage V c) (fun t _ => flushed_eq V c t) (cover)

end Cert.KernelIdeal.ArrayLayer0

end
-- ==== Proof.ArrayLayer1.lean ====
/-
  The array the second graph-convolution layer leaves, as one function of the arrays it finds.

  The layer's kernel runs at ten grid points. At point `t` it is given rows `5000 t … 5000 t + 4999` of the aggregated
  array and of the nodes' own array, the whole of the two weight matrices and of the three parameter rows, and the same rows of the residual array, and writes
  back rows `5000 t … 5000 t + 4999` of its result. An entry of what it writes depends only on the same row of the two
  arrays and of the residual (the block arithmetic read entry by entry), so the ten blocks are the ten restrictions of ONE array: the
  layer's stage of `Cert.GraphConv` applied to the arrays as the region finds them. The ten blocks tile all 50000 rows
  (row `r` lies in block `r / 5000`), so after the region the result array IS that array.

  Everything is stated at an arbitrary valuation `V` of the buffers at the region's entry; the run instantiates it.
-/
import proofs.«170463_j5016521802571_2_alg».proof.Proof.Gen.KernelIdeal.Frame
import proofs.«170463_j5016521802571_2_alg».proof.Proof.LayerBlock
import Idealize.ShloMosaic.Lib.Pipeline.Value

set_option maxRecDepth 16384

noncomputable section

namespace Cert.KernelIdeal.ArrayLayer1

open Cert.KernelIdeal Cert.KernelIdeal.Gen Cert.KernelIdeal.Block Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the ten grid points: the three row windows (the two arrays and the residual) and the result move to block `(t, 0)`, the
    five parameter windows stay at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

theorem point_lt (t : Fin cfg2.N) : t.val < 10 := lt_of_lt_of_eq t.isLt N_2

/-- Row `p` of block `t` is row `5000 t + p` of the array. -/
def rowAt (t : Fin cfg2.N) (p : Fin 5000) : Fin 50000 :=
  ⟨t.val * 5000 + p.val, by have := point_lt t; have := p.isLt; omega⟩

/-! ## The windows' blocks, read at an entry -/

/-- The aggregated array's block at point `t`, entry `(p, k)`: the array at row `5000 t + p`. -/
theorem rows_agg (c : Dev nD) (t : Fin cfg2.N) (p : Fin 5000) (k : Fin 128) :
    (iblk2 V c 0 t : Vec Ideal S5000x128 .f32) (ix2 p k) = (V c main_v54 : S50000x128.Idx → Elt Ideal .f32) (ix2 (rowAt t p) k) := by
  obtain ⟨e0, e1, -⟩ := idx_facts t
  unfold iblk2
  rw [View.read_apply]
  show V c main_v54 _ = V c main_v54 _
  congr 1
  funext a
  apply Fin.ext
  match a with
  | ⟨0, _⟩ => show win2_0.index t 0 * 5000 + 1 * p.val = t.val * 5000 + p.val; rw [e0]; omega
  | ⟨1, _⟩ => show win2_0.index t 1 * 128 + 1 * k.val = k.val; rw [e1]; omega

/-- The nodes' own array's block at point `t`, entry `(p, k)`: the array at row `5000 t + p`. -/
theorem rows_own (c : Dev nD) (t : Fin cfg2.N) (p : Fin 5000) (k : Fin 128) :
    (iblk2 V c 1 t : Vec Ideal S5000x128 .f32) (ix2 p k) = (V c main_v39 : S50000x128.Idx → Elt Ideal .f32) (ix2 (rowAt t p) k) := by
  obtain ⟨-, -, e0, e1, -⟩ := idx_facts t
  unfold iblk2
  rw [View.read_apply]
  show V c main_v39 _ = V c main_v39 _
  congr 1
  funext a
  apply Fin.ext
  match a with
  | ⟨0, _⟩ => show win2_1.index t 0 * 5000 + 1 * p.val = t.val * 5000 + p.val; rw [e0]; omega
  | ⟨1, _⟩ => show win2_1.index t 1 * 128 + 1 * k.val = k.val; rw [e1]; omega

/-- The first matrix's block at every point is the whole array. -/
theorem whole_wrel (c : Dev nD) (t : Fin cfg2.N) (k j : Fin 128) :
    (iblk2 V c 2 t : Vec Ideal S128x128 .f32) (ix2 k j) = (V c main_v56 : S128x128.Idx → Elt Ideal .f32) (ix2 k j) := by
  obtain ⟨-, -, -, -, e0, e1, -⟩ := idx_facts t
  unfold iblk2
  rw [View.read_apply]
  show V c main_v56 _ = V c main_v56 _
  congr 1
  funext a
  apply Fin.ext
  match a with
  | ⟨0, _⟩ => show win2_2.index t 0 * 128 + 1 * k.val = k.val; rw [e0]; omega
  | ⟨1, _⟩ => show win2_2.index t 1 * 128 + 1 * j.val = j.val; rw [e1]; omega

/-- The first bias row's block at every point is the whole array. -/
theorem whole_brel (c : Dev nD) (t : Fin cfg2.N) (j : Fin 128) :
    (iblk2 V c 3 t : Vec Ideal S1x128 .f32) (ix2 (0 : Fin 1) j) = (V c main_v58 : S1x128.Idx → Elt Ideal .f32) (ix2 (0 : Fin 1) j) := by
  obtain ⟨-, -, -, -, -, -, e0, e1, -⟩ := idx_facts t
  unfold iblk2
  rw [View.read_apply]
  show V c main_v58 _ = V c main_v58 _
  congr 1
  funext a
  apply Fin.ext
  match a with
  | ⟨0, _⟩ => show win2_3.index t 0 * 1 + 1 * 0 = 0; rw [e0]
  | ⟨1, _⟩ => show win2_3.index t 1 * 128 + 1 * j.val = j.val; rw [e1]; omega

/-- The second matrix's block at every point is the whole array. -/
theorem whole_wroot (c : Dev nD) (t : Fin cfg2.N) (k j : Fin 128) :
    (iblk2 V c 4 t : Vec Ideal S128x128 .f32) (ix2 k j) = (V c main_v60 : S128x128.Idx → Elt Ideal .f32) (ix2 k j) := by
  obtain ⟨-, -, -, -, -, -, -, -, e0, e1, -⟩ := idx_facts t
  unfold iblk2
  rw [View.read_apply]
  show V c main_v60 _ = V c main_v60 _
  congr 1
  funext a
  apply Fin.ext
  match a with
  | ⟨0, _⟩ => show win2_4.index t 0 * 128 + 1 * k.val = k.val; rw [e0]; omega
  | ⟨1, _⟩ => show win2_4.index t 1 * 128 + 1 * j.val = j.val; rw [e1]; omega

/-- The gain row's block at every point is the whole array. -/
theorem whole_gain (c : Dev nD) (t : Fin cfg2.N) (j : Fin 128) :
    (iblk2 V c 5 t : Vec Ideal S1x128 .f32) (ix2 (0 : Fin 1) j) = (V c main_v62 : S1x128.Idx → Elt Ideal .f32) (ix2 (0 : Fin 1) j) := by
  obtain ⟨-, -, -, -, -, -, -, -, -, -, e0, e1, -⟩ := idx_facts t
  unfold iblk2
  rw [View.read_apply]
  show V c main_v62 _ = V c main_v62 _
  congr 1
  funext a
  apply Fin.ext
  match a with
  | ⟨0, _⟩ => show win2_5.index t 0 * 1 + 1 * 0 = 0; rw [e0]
  | ⟨1, _⟩ => show win2_5.index t 1 * 128 + 1 * j.val = j.val; rw [e1]; omega

/-- The normalisation's bias row's block at every point is the whole array. -/
theorem whole_bias (c : Dev nD) (t : Fin cfg2.N) (j : Fin 128) :
    (iblk2 V c 6 t : Vec Ideal S1x128 .f32) (ix2 (0 : Fin 1) j) = (V c main_v64 : S1x128.Idx → Elt Ideal .f32) (ix2 (0 : Fin 1) j) := by
  obtain ⟨-, -, -, -, -, -, -, -, -, -, -, -, e0, e1, -⟩ := idx_facts t
  unfold iblk2
  rw [View.read_apply]
  show V c main_v64 _ = V c main_v64 _
  congr 1
  funext a
  apply Fin.ext
  match a with
  | ⟨0, _⟩ => show win2_6.index t 0 * 1 + 1 * 0 = 0; rw [e0]
  | ⟨1, _⟩ => show win2_6.index t 1 * 128 + 1 * j.val = j.val; rw [e1]; omega

/-- The residual array's block at point `t`, entry `(p, k)`: the array at row `5000 t + p`. -/
theorem rows_res (c : Dev nD) (t : Fin cfg2.N) (p : Fin 5000) (k : Fin 128) :
    (iblk2 V c 7 t : Vec Ideal S5000x128 .f32) (ix2 p k) = (V c main_v13 : S50000x128.Idx → Elt Ideal .f32) (ix2 (rowAt t p) k) := by
  obtain ⟨-, -, -, -, -, -, -, -, -, -, -, -, -, -, e0, e1, -⟩ := idx_facts t
  unfold iblk2
  rw [View.read_apply]
  show V c main_v13 _ = V c main_v13 _
  congr 1
  funext a
  apply Fin.ext
  match a with
  | ⟨0, _⟩ => show win2_7.index t 0 * 5000 + 1 * p.val = t.val * 5000 + p.val; rw [e0]; omega
  | ⟨1, _⟩ => show win2_7.index t 1 * 128 + 1 * k.val = k.val; rw [e1]; omega

/-! ## The array -/

/-- The layer's stage, with its residual, of the arrays as the region finds them. -/
def stage (c : Dev nD) : S50000x128.Idx → Elt Ideal .f32 :=
  layerResStage (V c main_v54) (V c main_v39)
    (fun k j => (V c main_v56 : S128x128.Idx → Elt Ideal .f32) (ix2 k j))
    (fun k j => (V c main_v60 : S128x128.Idx → Elt Ideal .f32) (ix2 k j))
    (fun j => (V c main_v58 : S1x128.Idx → Elt Ideal .f32) (ix2 (0 : Fin 1) j))
    (fun j => (V c main_v62 : S1x128.Idx → Elt Ideal .f32) (ix2 (0 : Fin 1) j))
    (fun j => (V c main_v64 : S1x128.Idx → Elt Ideal .f32) (ix2 (0 : Fin 1) j))
    (V c main_v13)

/-- The result window's block at point `t` embeds entry `(p, q)` at row `5000 t + p`, lane `q`. -/
theorem emb_out (t : Fin cfg2.N) (p : Fin 5000) (q : Fin 128) :
    ((cfg2.win 8).blk t).view.emb (ix2 p q) = (ix2 (rowAt t p) q : S50000x128.Idx) := by
  obtain ⟨-, -, -, -, -, -, -, -, -, -, -, -, -, -, -, -, e0, e1⟩ := idx_facts t
  funext a
  apply Fin.ext
  match a with
  | ⟨0, _⟩ => show win2_8.index t 0 * 5000 + 1 * p.val = t.val * 5000 + p.val; rw [e0]; omega
  | ⟨1, _⟩ => show win2_8.index t 1 * 128 + 1 * q.val = q.val; rw [e1]; omega

/-- WHAT POINT `t` WRITES BACK is block `t` of the stage's array. -/
theorem flushed_eq (c : Dev nD) (t : Fin cfg2.N) :
    (dat2 V c).flushed 8 t = ((cfg2.win 8).blk t).view.read (Elt Ideal) (stage V c) := by
  show (cfg2.win 8).cut (grid2.coords t) ((dat2 V c).after 8 t) = _
  rw [after2_8]
  unfold out2_8
  rw [View.canon_unit_zero hz]
  simp only [View.ld_unit_zero (S := S5000x128) hz, View.ld_unit_zero (S := S128x128) hz, View.ld_unit_zero (S := S1x128) hz]
  rw [pay_layer1, tail_layer1]
  funext y
  obtain ⟨p, q, rfl⟩ : ∃ (p : Fin 5000) (q : Fin 128), y = ix2 p q := ⟨y 0, y 1, eq_ix2 y⟩
  rw [View.read_apply, emb_out]
  refine (layerRes_entry (iblk2 V c 0 t) (iblk2 V c 1 t) (iblk2 V c 2 t) (iblk2 V c 4 t) (iblk2 V c 3 t) (iblk2 V c 5 t)
    (iblk2 V c 6 t) (iblk2 V c 7 t) p q).trans ?_
  simp only [rows_agg V c t, rows_own V c t, whole_wrel V c t, whole_brel V c t, whole_wroot V c t, whole_gain V c t,
    whole_bias V c t, rows_res V c t]
  rfl

/-- An index of the result array is in point `t`'s block iff its row lies in `5000 t … 5000 t + 4999`. -/
theorem mem_blk (t : Fin cfg2.N) (i : S50000x128.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole main_v65).slice (win2_8.rect t)).set ↔ _
  rw [View.set_slice_whole, Rect.mem_set_unit]
  exact Iff.rfl

/-- Every index of the result array is in some point's block: row `r` lies in block `r / 5000`. -/
theorem cover (i : S50000x128.Idx) : ∃ t : Fin cfg2.N, (cfg2.win 8).flush t = true ∧ i ∈ ((cfg2.win 8).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, -, -, -, -, -, -, -, -, -, -, e0, e1⟩ := idx_facts t
  refine ⟨t, flush2_8 t, ?_⟩
  rw [mem_blk]
  intro a
  have ht : t.val = (i 0).val / 5000 := rfl
  match a with
  | ⟨0, _⟩ => show win2_8.index t (0 : Fin 2) * 5000 ≤ (i 0).val ∧ (i 0).val < win2_8.index t (0 : Fin 2) * 5000 + 5000; rw [e0, ht]; omega
  | ⟨1, _⟩ => show win2_8.index t (1 : Fin 2) * 128 ≤ (i 1).val ∧ (i 1).val < win2_8.index t (1 : Fin 2) * 128 + 128; rw [e1]; omega

/-- THE ARRAY AFTER THE REGION: the layer's stage of the arrays the region finds. -/
theorem final (c : Dev nD) : (dat2 V c).arrAt 8 cfg2.N = stage V c :=
  (dat2 V c).arrAt_eq_of_cover 8 (stage V c) (fun t _ => flushed_eq V c t) (cover)

end Cert.KernelIdeal.ArrayLayer1

end
-- ==== Proof.ArrayLayer2.lean ====
/-
  The array the third graph-convolution layer leaves, as one function of the arrays it finds.

  The layer's kernel runs at ten grid points. At point `t` it is given rows `5000 t … 5000 t + 4999` of the aggregated
  array and of the nodes' own array, the whole of the two weight matrices and of the three parameter rows, and writes
  back rows `5000 t … 5000 t + 4999` of its result. An entry of what it writes depends only on the same row of the two
  arrays (the block arithmetic read entry by entry), so the ten blocks are the ten restrictions of ONE array: the
  layer's stage of `Cert.GraphConv` applied to the arrays as the region finds them. The ten blocks tile all 50000 rows
  (row `r` lies in block `r / 5000`), so after the region the result array IS that array.

  Everything is stated at an arbitrary valuation `V` of the buffers at the region's entry; the run instantiates it.
-/
import proofs.«170463_j5016521802571_2_alg».proof.Proof.Gen.KernelIdeal.Frame
import proofs.«170463_j5016521802571_2_alg».proof.Proof.LayerBlock
import Idealize.ShloMosaic.Lib.Pipeline.Value

set_option maxRecDepth 16384

noncomputable section

namespace Cert.KernelIdeal.ArrayLayer2

open Cert.KernelIdeal Cert.KernelIdeal.Gen Cert.KernelIdeal.Block Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the ten grid points: the two row windows and the result move to block `(t, 0)`, the
    five parameter windows stay at block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

theorem point_lt (t : Fin cfg3.N) : t.val < 10 := lt_of_lt_of_eq t.isLt N_3

/-- Row `p` of block `t` is row `5000 t + p` of the array. -/
def rowAt (t : Fin cfg3.N) (p : Fin 5000) : Fin 50000 :=
  ⟨t.val * 5000 + p.val, by have := point_lt t; have := p.isLt; omega⟩

/-! ## The windows' blocks, read at an entry -/

/-- The aggregated array's block at point `t`, entry `(p, k)`: the array at row `5000 t + p`. -/
theorem rows_agg (c : Dev nD) (t : Fin cfg3.N) (p : Fin 5000) (k : Fin 128) :
    (iblk3 V c 0 t : Vec Ideal S5000x128 .f32) (ix2 p k) = (V c main_v80 : S50000x128.Idx → Elt Ideal .f32) (ix2 (rowAt t p) k) := by
  obtain ⟨e0, e1, -⟩ := idx_facts t
  unfold iblk3
  rw [View.read_apply]
  show V c main_v80 _ = V c main_v80 _
  congr 1
  funext a
  apply Fin.ext
  match a with
  | ⟨0, _⟩ => show win3_0.index t 0 * 5000 + 1 * p.val = t.val * 5000 + p.val; rw [e0]; omega
  | ⟨1, _⟩ => show win3_0.index t 1 * 128 + 1 * k.val = k.val; rw [e1]; omega

/-- The nodes' own array's block at point `t`, entry `(p, k)`: the array at row `5000 t + p`. -/
theorem rows_own (c : Dev nD) (t : Fin cfg3.N) (p : Fin 5000) (k : Fin 128) :
    (iblk3 V c 1 t : Vec Ideal S5000x128 .f32) (ix2 p k) = (V c main_v65 : S50000x128.Idx → Elt Ideal .f32) (ix2 (rowAt t p) k) := by
  obtain ⟨-, -, e0, e1, -⟩ := idx_facts t
  unfold iblk3
  rw [View.read_apply]
  show V c main_v65 _ = V c main_v65 _
  congr 1
  funext a
  apply Fin.ext
  match a with
  | ⟨0, _⟩ => show win3_1.index t 0 * 5000 + 1 * p.val = t.val * 5000 + p.val; rw [e0]; omega
  | ⟨1, _⟩ => show win3_1.index t 1 * 128 + 1 * k.val = k.val; rw [e1]; omega

/-- The first matrix's block at every point is the whole array. -/
theorem whole_wrel (c : Dev nD) (t : Fin cfg3.N) (k j : Fin 128) :
    (iblk3 V c 2 t : Vec Ideal S128x128 .f32) (ix2 k j) = (V c main_v82 : S128x128.Idx → Elt Ideal .f32) (ix2 k j) := by
  obtain ⟨-, -, -, -, e0, e1, -⟩ := idx_facts t
  unfold iblk3
  rw [View.read_apply]
  show V c main_v82 _ = V c main_v82 _
  congr 1
  funext a
  apply Fin.ext
  match a with
  | ⟨0, _⟩ => show win3_2.index t 0 * 128 + 1 * k.val = k.val; rw [e0]; omega
  | ⟨1, _⟩ => show win3_2.index t 1 * 128 + 1 * j.val = j.val; rw [e1]; omega

/-- The first bias row's block at every point is the whole array. -/
theorem whole_brel (c : Dev nD) (t : Fin cfg3.N) (j : Fin 128) :
    (iblk3 V c 3 t : Vec Ideal S1x128 .f32) (ix2 (0 : Fin 1) j) = (V c main_v84 : S1x128.Idx → Elt Ideal .f32) (ix2 (0 : Fin 1) j) := by
  obtain ⟨-, -, -, -, -, -, e0, e1, -⟩ := idx_facts t
  unfold iblk3
  rw [View.read_apply]
  show V c main_v84 _ = V c main_v84 _
  congr 1
  funext a
  apply Fin.ext
  match a with
  | ⟨0, _⟩ => show win3_3.index t 0 * 1 + 1 * 0 = 0; rw [e0]
  | ⟨1, _⟩ => show win3_3.index t 1 * 128 + 1 * j.val = j.val; rw [e1]; omega

/-- The second matrix's block at every point is the whole array. -/
theorem whole_wroot (c : Dev nD) (t : Fin cfg3.N) (k j : Fin 128) :
    (iblk3 V c 4 t : Vec Ideal S128x128 .f32) (ix2 k j) = (V c main_v86 : S128x128.Idx → Elt Ideal .f32) (ix2 k j) := by
  obtain ⟨-, -, -, -, -, -, -, -, e0, e1, -⟩ := idx_facts t
  unfold iblk3
  rw [View.read_apply]
  show V c main_v86 _ = V c main_v86 _
  congr 1
  funext a
  apply Fin.ext
  match a with
  | ⟨0, _⟩ => show win3_4.index t 0 * 128 + 1 * k.val = k.val; rw [e0]; omega
  | ⟨1, _⟩ => show win3_4.index t 1 * 128 + 1 * j.val = j.val; rw [e1]; omega

/-- The gain row's block at every point is the whole array. -/
theorem whole_gain (c : Dev nD) (t : Fin cfg3.N) (j : Fin 128) :
    (iblk3 V c 5 t : Vec Ideal S1x128 .f32) (ix2 (0 : Fin 1) j) = (V c main_v88 : S1x128.Idx → Elt Ideal .f32) (ix2 (0 : Fin 1) j) := by
  obtain ⟨-, -, -, -, -, -, -, -, -, -, e0, e1, -⟩ := idx_facts t
  unfold iblk3
  rw [View.read_apply]
  show V c main_v88 _ = V c main_v88 _
  congr 1
  funext a
  apply Fin.ext
  match a with
  | ⟨0, _⟩ => show win3_5.index t 0 * 1 + 1 * 0 = 0; rw [e0]
  | ⟨1, _⟩ => show win3_5.index t 1 * 128 + 1 * j.val = j.val; rw [e1]; omega

/-- The normalisation's bias row's block at every point is the whole array. -/
theorem whole_bias (c : Dev nD) (t : Fin cfg3.N) (j : Fin 128) :
    (iblk3 V c 6 t : Vec Ideal S1x128 .f32) (ix2 (0 : Fin 1) j) = (V c main_v90 : S1x128.Idx → Elt Ideal .f32) (ix2 (0 : Fin 1) j) := by
  obtain ⟨-, -, -, -, -, -, -, -, -, -, -, -, e0, e1, -⟩ := idx_facts t
  unfold iblk3
  rw [View.read_apply]
  show V c main_v90 _ = V c main_v90 _
  congr 1
  funext a
  apply Fin.ext
  match a with
  | ⟨0, _⟩ => show win3_6.index t 0 * 1 + 1 * 0 = 0; rw [e0]
  | ⟨1, _⟩ => show win3_6.index t 1 * 128 + 1 * j.val = j.val; rw [e1]; omega

/-! ## The array -/

/-- The layer's stage of the arrays as the region finds them. -/
def stage (c : Dev nD) : S50000x128.Idx → Elt Ideal .f32 :=
  layerStage (V c main_v80) (V c main_v65)
    (fun k j => (V c main_v82 : S128x128.Idx → Elt Ideal .f32) (ix2 k j))
    (fun k j => (V c main_v86 : S128x128.Idx → Elt Ideal .f32) (ix2 k j))
    (fun j => (V c main_v84 : S1x128.Idx → Elt Ideal .f32) (ix2 (0 : Fin 1) j))
    (fun j => (V c main_v88 : S1x128.Idx → Elt Ideal .f32) (ix2 (0 : Fin 1) j))
    (fun j => (V c main_v90 : S1x128.Idx → Elt Ideal .f32) (ix2 (0 : Fin 1) j))

/-- The result window's block at point `t` embeds entry `(p, q)` at row `5000 t + p`, lane `q`. -/
theorem emb_out (t : Fin cfg3.N) (p : Fin 5000) (q : Fin 128) :
    ((cfg3.win 7).blk t).view.emb (ix2 p q) = (ix2 (rowAt t p) q : S50000x128.Idx) := by
  obtain ⟨-, -, -, -, -, -, -, -, -, -, -, -, -, -, e0, e1⟩ := idx_facts t
  funext a
  apply Fin.ext
  match a with
  | ⟨0, _⟩ => show win3_7.index t 0 * 5000 + 1 * p.val = t.val * 5000 + p.val; rw [e0]; omega
  | ⟨1, _⟩ => show win3_7.index t 1 * 128 + 1 * q.val = q.val; rw [e1]; omega

/-- WHAT POINT `t` WRITES BACK is block `t` of the stage's array. -/
theorem flushed_eq (c : Dev nD) (t : Fin cfg3.N) :
    (dat3 V c).flushed 7 t = ((cfg3.win 7).blk t).view.read (Elt Ideal) (stage V c) := by
  show (cfg3.win 7).cut (grid3.coords t) ((dat3 V c).after 7 t) = _
  rw [after3_7]
  unfold out3_7
  rw [View.canon_unit_zero hz]
  simp only [View.ld_unit_zero (S := S5000x128) hz, View.ld_unit_zero (S := S128x128) hz, View.ld_unit_zero (S := S1x128) hz]
  rw [pay_layer2, tail_layer2]
  funext y
  obtain ⟨p, q, rfl⟩ : ∃ (p : Fin 5000) (q : Fin 128), y = ix2 p q := ⟨y 0, y 1, eq_ix2 y⟩
  rw [View.read_apply, emb_out]
  refine (layer_entry (iblk3 V c 0 t) (iblk3 V c 1 t) (iblk3 V c 2 t) (iblk3 V c 4 t) (iblk3 V c 3 t) (iblk3 V c 5 t)
    (iblk3 V c 6 t) p q).trans ?_
  simp only [rows_agg V c t, rows_own V c t, whole_wrel V c t, whole_brel V c t, whole_wroot V c t, whole_gain V c t,
    whole_bias V c t]
  rfl

/-- An index of the result array is in point `t`'s block iff its row lies in `5000 t … 5000 t + 4999`. -/
theorem mem_blk (t : Fin cfg3.N) (i : S50000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v91).slice (win3_7.rect t)).set ↔ _
  rw [View.set_slice_whole, Rect.mem_set_unit]
  exact Iff.rfl

/-- Every index of the result array is in some point's block: row `r` lies in block `r / 5000`. -/
theorem cover (i : S50000x128.Idx) : ∃ t : Fin cfg3.N, (cfg3.win 7).flush t = true ∧ i ∈ ((cfg3.win 7).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, -, -, -, -, -, -, -, e0, e1⟩ := idx_facts t
  refine ⟨t, flush3_7 t, ?_⟩
  rw [mem_blk]
  intro a
  have ht : t.val = (i 0).val / 5000 := rfl
  match a with
  | ⟨0, _⟩ => show win3_7.index t (0 : Fin 2) * 5000 ≤ (i 0).val ∧ (i 0).val < win3_7.index t (0 : Fin 2) * 5000 + 5000; rw [e0, ht]; omega
  | ⟨1, _⟩ => show win3_7.index t (1 : Fin 2) * 128 ≤ (i 1).val ∧ (i 1).val < win3_7.index t (1 : Fin 2) * 128 + 128; rw [e1]; omega

/-- THE ARRAY AFTER THE REGION: the layer's stage of the arrays the region finds. -/
theorem final (c : Dev nD) : (dat3 V c).arrAt 7 cfg3.N = stage V c :=
  (dat3 V c).arrAt_eq_of_cover 7 (stage V c) (fun t _ => flushed_eq V c t) (cover)

end Cert.KernelIdeal.ArrayLayer2

end
-- ==== Proof.ArrayOutput.lean ====
/-
  The array the output stage leaves, as one function of the arrays it finds.

  The output stage's kernel runs at ten grid points. At point `t` it is given rows `5000 t … 5000 t + 4999` of the third
  layer's array, the whole of the weight matrix and of the bias row, and writes back the same rows of its result: each row
  through the matrix, plus the bias. An entry of what it writes depends only on the same row of
  that array, so the ten blocks are the ten restrictions of ONE array, the output stage of `Cert.GraphConv` applied
  to the arrays as the region finds them; and the ten blocks tile all 50000 rows, so after the region the result array
  IS that array.

  Everything is stated at an arbitrary valuation `V` of the buffers at the region's entry; the run instantiates it.
-/
import proofs.«170463_j5016521802571_2_alg».proof.Proof.Gen.KernelIdeal.Frame
import proofs.«170463_j5016521802571_2_alg».proof.Proof.LayerBlock
import Idealize.ShloMosaic.Lib.Pipeline.Value

set_option maxRecDepth 16384

noncomputable section

namespace Cert.KernelIdeal.ArrayOutput

open Cert.KernelIdeal Cert.KernelIdeal.Gen Cert.KernelIdeal.Block Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the ten grid points: the row window and the result move to block `(t, 0)`, the matrix
    and the bias row stay at block `(0, 0)`. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem point_lt (t : Fin cfg4.N) : t.val < 10 := lt_of_lt_of_eq t.isLt N_4

/-- Row `p` of block `t` is row `5000 t + p` of the array. -/
def rowAt (t : Fin cfg4.N) (p : Fin 5000) : Fin 50000 :=
  ⟨t.val * 5000 + p.val, by have := point_lt t; have := p.isLt; omega⟩

/-! ## The windows' blocks, read at an entry -/

/-- The third layer's array's block at point `t`, entry `(p, k)`: the array at row `5000 t + p`. -/
theorem rows_x (c : Dev nD) (t : Fin cfg4.N) (p : Fin 5000) (k : Fin 128) :
    (iblk4 V c 0 t : Vec Ideal S5000x128 .f32) (ix2 p k) = (V c main_v91 : S50000x128.Idx → Elt Ideal .f32) (ix2 (rowAt t p) k) := by
  obtain ⟨e0, e1, -⟩ := idx_facts t
  unfold iblk4
  rw [View.read_apply]
  show V c main_v91 _ = V c main_v91 _
  congr 1
  funext a
  apply Fin.ext
  match a with
  | ⟨0, _⟩ => show win4_0.index t 0 * 5000 + 1 * p.val = t.val * 5000 + p.val; rw [e0]; omega
  | ⟨1, _⟩ => show win4_0.index t 1 * 128 + 1 * k.val = k.val; rw [e1]; omega

/-- The matrix's block at every point is the whole array. -/
theorem whole_w (c : Dev nD) (t : Fin cfg4.N) (k j : Fin 128) :
    (iblk4 V c 1 t : Vec Ideal S128x128 .f32) (ix2 k j) = (V c main_v7 : S128x128.Idx → Elt Ideal .f32) (ix2 k j) := by
  obtain ⟨-, -, e0, e1, -⟩ := idx_facts t
  unfold iblk4
  rw [View.read_apply]
  show V c main_v7 _ = V c main_v7 _
  congr 1
  funext a
  apply Fin.ext
  match a with
  | ⟨0, _⟩ => show win4_1.index t 0 * 128 + 1 * k.val = k.val; rw [e0]; omega
  | ⟨1, _⟩ => show win4_1.index t 1 * 128 + 1 * j.val = j.val; rw [e1]; omega

/-- The bias row's block at every point is the whole array. -/
theorem whole_b (c : Dev nD) (t : Fin cfg4.N) (j : Fin 128) :
    (iblk4 V c 2 t : Vec Ideal S1x128 .f32) (ix2 (0 : Fin 1) j) = (V c main_v12 : S1x128.Idx → Elt Ideal .f32) (ix2 (0 : Fin 1) j) := by
  obtain ⟨-, -, -, -, e0, e1, -⟩ := idx_facts t
  unfold iblk4
  rw [View.read_apply]
  show V c main_v12 _ = V c main_v12 _
  congr 1
  funext a
  apply Fin.ext
  match a with
  | ⟨0, _⟩ => show win4_2.index t 0 * 1 + 1 * 0 = 0; rw [e0]
  | ⟨1, _⟩ => show win4_2.index t 1 * 128 + 1 * j.val = j.val; rw [e1]; omega

/-! ## The array -/

/-- The output stage of the arrays as the region finds them. -/
def stage (c : Dev nD) : S50000x128.Idx → Elt Ideal .f32 :=
  outputStage (V c main_v91)
    (fun k j => (V c main_v7 : S128x128.Idx → Elt Ideal .f32) (ix2 k j))
    (fun j => (V c main_v12 : S1x128.Idx → Elt Ideal .f32) (ix2 (0 : Fin 1) j))

/-- The result window's block at point `t` embeds entry `(p, q)` at row `5000 t + p`, lane `q`. -/
theorem emb_out (t : Fin cfg4.N) (p : Fin 5000) (q : Fin 128) :
    ((cfg4.win 3).blk t).view.emb (ix2 p q) = (ix2 (rowAt t p) q : S50000x128.Idx) := by
  obtain ⟨-, -, -, -, -, -, e0, e1⟩ := idx_facts t
  funext a
  apply Fin.ext
  match a with
  | ⟨0, _⟩ => show win4_3.index t 0 * 5000 + 1 * p.val = t.val * 5000 + p.val; rw [e0]; omega
  | ⟨1, _⟩ => show win4_3.index t 1 * 128 + 1 * q.val = q.val; rw [e1]; omega

/-- WHAT POINT `t` WRITES BACK is block `t` of the stage's array. -/
theorem flushed_eq (c : Dev nD) (t : Fin cfg4.N) :
    (dat4 V c).flushed 3 t = ((cfg4.win 3).blk t).view.read (Elt Ideal) (stage V c) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x128) hz, View.ld_unit_zero (S := S1x128) hz]
  rw [pay_output]
  funext y
  obtain ⟨p, q, rfl⟩ : ∃ (p : Fin 5000) (q : Fin 128), y = ix2 p q := ⟨y 0, y 1, eq_ix2 y⟩
  rw [View.read_apply, emb_out]
  refine (output_entry (iblk4 V c 0 t) (iblk4 V c 1 t) (iblk4 V c 2 t) p q).trans ?_
  simp only [rows_x V c t, whole_w V c t, whole_b V c t]
  rfl

/-- An index of the result array is in point `t`'s block iff its row lies in `5000 t … 5000 t + 4999`. -/
theorem mem_blk (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v92).slice (win4_3.rect t)).set ↔ _
  rw [View.set_slice_whole, Rect.mem_set_unit]
  exact Iff.rfl

/-- Every index of the result array is in some point's block: row `r` lies in block `r / 5000`. -/
theorem cover (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨-, -, -, -, -, -, e0, e1⟩ := idx_facts t
  refine ⟨t, flush4_3 t, ?_⟩
  rw [mem_blk]
  intro a
  have ht : t.val = (i 0).val / 5000 := rfl
  match a with
  | ⟨0, _⟩ => show win4_3.index t (0 : Fin 2) * 5000 ≤ (i 0).val ∧ (i 0).val < win4_3.index t (0 : Fin 2) * 5000 + 5000; rw [e0, ht]; omega
  | ⟨1, _⟩ => show win4_3.index t (1 : Fin 2) * 128 ≤ (i 1).val ∧ (i 1).val < win4_3.index t (1 : Fin 2) * 128 + 128; rw [e1]; omega

/-- THE ARRAY AFTER THE REGION: the output stage of the arrays the region finds. -/
theorem final (c : Dev nD) : (dat4 V c).arrAt 3 cfg4.N = stage V c :=
  (dat4 V c).arrAt_eq_of_cover 3 (stage V c) (fun t _ => flushed_eq V c t) (cover)

end Cert.KernelIdeal.ArrayOutput

end
-- ==== Proof.KernelValue.lean ====
/-
  What the kernel program computes: the fold at each launch's result is a stage of the stack.

  The five launches are the input stage, the three layers and the output stage of `Cert.GraphConv`, each applied to
  the arrays it finds; between them the host aggregates the previous launch's array along the edges and cuts the next
  layer's weights out of what the first stretch prepared. Following the fold from the launch memory: after the first
  launch its result buffer holds `hidden0` of the arguments; after the second, `hidden1` over the program's own
  aggregation operator; and so on to `hidden3` and `output`, the two results.
-/
import proofs.«170463_j5016521802571_2_alg».proof.Proof.KernelFold
import proofs.«170463_j5016521802571_2_alg».proof.Proof.KernelRun
import proofs.«170463_j5016521802571_2_alg».proof.Proof.ParamReads
import proofs.«170463_j5016521802571_2_alg».proof.Proof.ArrayInput
import proofs.«170463_j5016521802571_2_alg».proof.Proof.ArrayLayer0
import proofs.«170463_j5016521802571_2_alg».proof.Proof.ArrayLayer1
import proofs.«170463_j5016521802571_2_alg».proof.Proof.ArrayLayer2
import proofs.«170463_j5016521802571_2_alg».proof.Proof.ArrayOutput

set_option maxRecDepth 16384

noncomputable section

namespace Cert.KernelIdeal.Stack

open Cert.KernelIdeal Cert.KernelIdeal.Gen Cert.KernelIdeal.Fold Cert.GraphConv Cert.ParamReads
open Idealize.ShloMosaic Idealize.ShloMosaic.TcCoe Idealize.ShloMosaic.Tactic Idealize.ShloMosaic.ValueIdx Idealize.SL.Sem
open Idealize.ShloMosaic.Pipeline (Dat Cfg Window)

variable (m : (ℓ : Loc nD τ sig) → Buf (Elt Ideal) ℓ) (ρ : Dev nD → PrngReg)

/-- The stack's weights, read out of the nine weight arguments. -/
def weights (c : Dev nD) : Weights :=
  weightsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The kernel program's aggregation along the edges: the host chain of `Fold.aggregate` at the two index vectors the
    first stretch cuts out of the edge array, and the edge weights. -/
def agg (c : Dev nD) (h : Feat) : Feat :=
  aggregate (F := Ideal) h (W1 m ρ c (Proc.devRef .tc main_v1)) (W1 m ρ c (Proc.devRef .tc main_v3)) (m ((c : Thread nD τ).loc main_arg2))

/-! ## The input stage -/

/-- The input stage's matrix, as its launch finds it: the weight array transposed. -/
theorem win_eq (c : Dev nD) :
    (fun k j : Fin 128 => (V1 m ρ c main_v4 : S128x128.Idx → Elt Ideal .f32) (ix2 k j)) = (weights m c).win := by
  rw [show V1 m ρ c main_v4 = _ from W1_win m ρ c]
  exact transposed_eq _ _

/-- The input stage's bias row, as its launch finds it. -/
theorem bin_eq (c : Dev nD) :
    (fun j : Fin 128 => (V1 m ρ c main_v8 : S1x128.Idx → Elt Ideal .f32) (ix2 (0 : Fin 1) j)) = (weights m c).bin := by
  rw [show V1 m ρ c main_v8 = _ from W1_bin m ρ c]
  exact row_of_vector_eq _ _

/-- AFTER THE FIRST LAUNCH its result buffer holds the input stage of the arguments. -/
theorem after_input (c : Dev nD) :
    W2 m ρ c (Proc.devRef .tc main_v13) = hidden0 (weights m c) (m ((c : Thread nD τ).loc main_arg0)) := by
  refine (W2_arr m ρ c 3).trans ((ArrayInput.final (V1 m ρ) c).trans ?_)
  unfold ArrayInput.stage hidden0
  rw [win_eq m ρ c, bin_eq m ρ c, show V1 m ρ c main_arg0 = _ from W1_x m ρ c]

/-! ## The first layer -/

set_option maxHeartbeats 4000000 in
/-- Layer 0's first matrix, as its launch finds it: slab 0 of the weight array, transposed. -/
theorem wrel0_eq (c : Dev nD) :
    (fun k j : Fin 128 => (V3 m ρ c main_v30 : S128x128.Idx → Elt Ideal .f32) (ix2 k j)) = (weights m c).wrel 0 := by
  have e : W3 m ρ c (Proc.devRef .tc main_v30)
      = shapeCast S128x128 (extractStridedSlice S1x128x128 ![0, 0, 0] (W2 m ρ c (Proc.devRef .tc main_v5)) slices_S3x128x128_S1x128x128_0_0_0) shapeCasts_S1x128x128_S128x128 := by
    show StableHlo.after hostOps1 (W2 m ρ c) (Proc.devRef .tc main_v30) = _
    after_results_simp <;> rfl
  rw [show V3 m ρ c main_v30 = _ from e, back2 m ρ c main_v5 (by decide), W1_wrel]
  exact slab_of_transposed_eq _ 0 _ _ _

set_option maxHeartbeats 4000000 in
/-- Layer 0's bias row, as its launch finds it. -/
theorem brel0_eq (c : Dev nD) :
    (fun j : Fin 128 => (V3 m ρ c main_v32 : S1x128.Idx → Elt Ideal .f32) (ix2 (0 : Fin 1) j)) = (weights m c).brel 0 := by
  have e : W3 m ρ c (Proc.devRef .tc main_v32)
      = shapeCast S1x128 (extractStridedSlice S1x1x128 ![0, 0, 0] (W2 m ρ c (Proc.devRef .tc main_v9)) slices_S3x1x128_S1x1x128_0_0_0) shapeCasts_S1x1x128_S1x128 := by
    show StableHlo.after hostOps1 (W2 m ρ c) (Proc.devRef .tc main_v32) = _
    after_results_simp <;> rfl
  rw [show V3 m ρ c main_v32 = _ from e, back2 m ρ c main_v9 (by decide), W1_brel]
  exact row_of_widened_eq _ 0 _ _ _

set_option maxHeartbeats 4000000 in
/-- Layer 0's second matrix, as its launch finds it: slab 0 of the weight array, transposed. -/
theorem wroot0_eq (c : Dev nD) :
    (fun k j : Fin 128 => (V3 m ρ c main_v34 : S128x128.Idx → Elt Ideal .f32) (ix2 k j)) = (weights m c).wroot 0 := by
  have e : W3 m ρ c (Proc.devRef .tc main_v34)
      = shapeCast S128x128 (extractStridedSlice S1x128x128 ![0, 0, 0] (W2 m ρ c (Proc.devRef .tc main_v6)) slices_S3x128x128_S1x128x128_0_0_0) shapeCasts_S1x128x128_S128x128 := by
    show StableHlo.after hostOps1 (W2 m ρ c) (Proc.devRef .tc main_v34) = _
    after_results_simp <;> rfl
  rw [show V3 m ρ c main_v34 = _ from e, back2 m ρ c main_v6 (by decide), W1_wroot]
  exact slab_of_transposed_eq _ 0 _ _ _

set_option maxHeartbeats 4000000 in
/-- Layer 0's normalisation gain, as its launch finds it. -/
theorem gain0_eq (c : Dev nD) :
    (fun j : Fin 128 => (V3 m ρ c main_v36 : S1x128.Idx → Elt Ideal .f32) (ix2 (0 : Fin 1) j)) = (weights m c).gain 0 := by
  have e : W3 m ρ c (Proc.devRef .tc main_v36)
      = shapeCast S1x128 (extractStridedSlice S1x1x128 ![0, 0, 0] (W2 m ρ c (Proc.devRef .tc main_v10)) slices_S3x1x128_S1x1x128_0_0_0) shapeCasts_S1x1x128_S1x128 := by
    show StableHlo.after hostOps1 (W2 m ρ c) (Proc.devRef .tc main_v36) = _
    after_results_simp <;> rfl
  rw [show V3 m ρ c main_v36 = _ from e, back2 m ρ c main_v10 (by decide), W1_gain]
  exact row_of_widened_eq _ 0 _ _ _

set_option maxHeartbeats 4000000 in
/-- Layer 0's normalisation bias, as its launch finds it. -/
theorem bias0_eq (c : Dev nD) :
    (fun j : Fin 128 => (V3 m ρ c main_v38 : S1x128.Idx → Elt Ideal .f32) (ix2 (0 : Fin 1) j)) = (weights m c).bias 0 := by
  have e : W3 m ρ c (Proc.devRef .tc main_v38)
      = shapeCast S1x128 (extractStridedSlice S1x1x128 ![0, 0, 0] (W2 m ρ c (Proc.devRef .tc main_v11)) slices_S3x1x128_S1x1x128_0_0_0) shapeCasts_S1x1x128_S1x128 := by
    show StableHlo.after hostOps1 (W2 m ρ c) (Proc.devRef .tc main_v38) = _
    after_results_simp <;> rfl
  rw [show V3 m ρ c main_v38 = _ from e, back2 m ρ c main_v11 (by decide), W1_bias]
  exact row_of_widened_eq _ 0 _ _ _

/-- The aggregated array the first layer's launch finds: the program's aggregation of the input stage's array. -/
theorem agg0_eq (c : Dev nD) : V3 m ρ c main_v28 = agg m ρ c (hidden0 (weights m c) (m ((c : Thread nD τ).loc main_arg0))) := by
  rw [show V3 m ρ c main_v28 = _ from agg1 m ρ c, after_input m ρ c, back2 m ρ c main_v1 (by decide), back2 m ρ c main_v3 (by decide),
    back2 m ρ c main_arg2 (by decide), W1_weight]
  rfl

/-- The nodes' own array the first layer's launch finds: the input stage's array. -/
theorem own0_eq (c : Dev nD) : V3 m ρ c main_v13 = hidden0 (weights m c) (m ((c : Thread nD τ).loc main_arg0)) :=
  (kept1 m ρ c main_v13 (by decide)).trans (after_input m ρ c)

/-- AFTER THE SECOND LAUNCH its result buffer holds the first layer's array. -/
theorem after_layer0 (c : Dev nD) :
    W4 m ρ c (Proc.devRef .tc main_v39) = hidden1 (agg m ρ c) (weights m c) (m ((c : Thread nD τ).loc main_arg0)) := by
  refine (W4_arr m ρ c 7).trans ((ArrayLayer0.final (V3 m ρ) c).trans ?_)
  unfold ArrayLayer0.stage hidden1
  rw [wrel0_eq m ρ c, brel0_eq m ρ c, wroot0_eq m ρ c, gain0_eq m ρ c, bias0_eq m ρ c, agg0_eq m ρ c, own0_eq m ρ c]

/-! ## The second layer -/

set_option maxHeartbeats 4000000 in
/-- Layer 1's first matrix, as its launch finds it: slab 1 of the weight array, transposed. -/
theorem wrel1_eq (c : Dev nD) :
    (fun k j : Fin 128 => (V5 m ρ c main_v56 : S128x128.Idx → Elt Ideal .f32) (ix2 k j)) = (weights m c).wrel 1 := by
  have e : W5 m ρ c (Proc.devRef .tc main_v56)
      = shapeCast S128x128 (extractStridedSlice S1x128x128 ![1, 0, 0] (W4 m ρ c (Proc.devRef .tc main_v5)) slices_S3x128x128_S1x128x128_1_0_0) shapeCasts_S1x128x128_S128x128 := by
    show StableHlo.after hostOps2 (W4 m ρ c) (Proc.devRef .tc main_v56) = _
    after_results_simp <;> rfl
  rw [show V5 m ρ c main_v56 = _ from e, back4 m ρ c main_v5 (by decide), W1_wrel]
  exact slab_of_transposed_eq _ 1 _ _ _

set_option maxHeartbeats 4000000 in
/-- Layer 1's bias row, as its launch finds it. -/
theorem brel1_eq (c : Dev nD) :
    (fun j : Fin 128 => (V5 m ρ c main_v58 : S1x128.Idx → Elt Ideal .f32) (ix2 (0 : Fin 1) j)) = (weights m c).brel 1 := by
  have e : W5 m ρ c (Proc.devRef .tc main_v58)
      = shapeCast S1x128 (extractStridedSlice S1x1x128 ![1, 0, 0] (W4 m ρ c (Proc.devRef .tc main_v9)) slices_S3x1x128_S1x1x128_1_0_0) shapeCasts_S1x1x128_S1x128 := by
    show StableHlo.after hostOps2 (W4 m ρ c) (Proc.devRef .tc main_v58) = _
    after_results_simp <;> rfl
  rw [show V5 m ρ c main_v58 = _ from e, back4 m ρ c main_v9 (by decide), W1_brel]
  exact row_of_widened_eq _ 1 _ _ _

set_option maxHeartbeats 4000000 in
/-- Layer 1's second matrix, as its launch finds it: slab 1 of the weight array, transposed. -/
theorem wroot1_eq (c : Dev nD) :
    (fun k j : Fin 128 => (V5 m ρ c main_v60 : S128x128.Idx → Elt Ideal .f32) (ix2 k j)) = (weights m c).wroot 1 := by
  have e : W5 m ρ c (Proc.devRef .tc main_v60)
      = shapeCast S128x128 (extractStridedSlice S1x128x128 ![1, 0, 0] (W4 m ρ c (Proc.devRef .tc main_v6)) slices_S3x128x128_S1x128x128_1_0_0) shapeCasts_S1x128x128_S128x128 := by
    show StableHlo.after hostOps2 (W4 m ρ c) (Proc.devRef .tc main_v60) = _
    after_results_simp <;> rfl
  rw [show V5 m ρ c main_v60 = _ from e, back4 m ρ c main_v6 (by decide), W1_wroot]
  exact slab_of_transposed_eq _ 1 _ _ _

set_option maxHeartbeats 4000000 in
/-- Layer 1's normalisation gain, as its launch finds it. -/
theorem gain1_eq (c : Dev nD) :
    (fun j : Fin 128 => (V5 m ρ c main_v62 : S1x128.Idx → Elt Ideal .f32) (ix2 (0 : Fin 1) j)) = (weights m c).gain 1 := by
  have e : W5 m ρ c (Proc.devRef .tc main_v62)
      = shapeCast S1x128 (extractStridedSlice S1x1x128 ![1, 0, 0] (W4 m ρ c (Proc.devRef .tc main_v10)) slices_S3x1x128_S1x1x128_1_0_0) shapeCasts_S1x1x128_S1x128 := by
    show StableHlo.after hostOps2 (W4 m ρ c) (Proc.devRef .tc main_v62) = _
    after_results_simp <;> rfl
  rw [show V5 m ρ c main_v62 = _ from e, back4 m ρ c main_v10 (by decide), W1_gain]
  exact row_of_widened_eq _ 1 _ _ _

set_option maxHeartbeats 4000000 in
/-- Layer 1's normalisation bias, as its launch finds it. -/
theorem bias1_eq (c : Dev nD) :
    (fun j : Fin 128 => (V5 m ρ c main_v64 : S1x128.Idx → Elt Ideal .f32) (ix2 (0 : Fin 1) j)) = (weights m c).bias 1 := by
  have e : W5 m ρ c (Proc.devRef .tc main_v64)
      = shapeCast S1x128 (extractStridedSlice S1x1x128 ![1, 0, 0] (W4 m ρ c (Proc.devRef .tc main_v11)) slices_S3x1x128_S1x1x128_1_0_0) shapeCasts_S1x1x128_S1x128 := by
    show StableHlo.after hostOps2 (W4 m ρ c) (Proc.devRef .tc main_v64) = _
    after_results_simp <;> rfl
  rw [show V5 m ρ c main_v64 = _ from e, back4 m ρ c main_v11 (by decide), W1_bias]
  exact row_of_widened_eq _ 1 _ _ _

/-- The aggregated array the second layer's launch finds: the program's aggregation of the first layer's array. -/
theorem agg1_eq (c : Dev nD) : V5 m ρ c main_v54 = agg m ρ c (hidden1 (agg m ρ c) (weights m c) (m ((c : Thread nD τ).loc main_arg0))) := by
  rw [show V5 m ρ c main_v54 = _ from agg2 m ρ c, after_layer0 m ρ c, back4 m ρ c main_v1 (by decide), back4 m ρ c main_v3 (by decide),
    back4 m ρ c main_arg2 (by decide), W1_weight]
  rfl

/-- The nodes' own array the second layer's launch finds: the first layer's array. -/
theorem own1_eq (c : Dev nD) : V5 m ρ c main_v39 = hidden1 (agg m ρ c) (weights m c) (m ((c : Thread nD τ).loc main_arg0)) :=
  (kept2 m ρ c main_v39 (by decide)).trans (after_layer0 m ρ c)

/-- The residual array the second layer's launch finds: the input stage's array, which the previous launch only read. -/
theorem res1_eq (c : Dev nD) : V5 m ρ c main_v13 = hidden0 (weights m c) (m ((c : Thread nD τ).loc main_arg0)) :=
  (kept2 m ρ c main_v13 (by decide)).trans
    ((W4_arr m ρ c 1).trans (((dat1 (V3 m ρ) c).arrAt_in 1 rfl _).trans ((A_eq1 (V3 m ρ) c 1).trans (own0_eq m ρ c))))

/-- AFTER THE THIRD LAUNCH its result buffer holds the second layer's array. -/
theorem after_layer1 (c : Dev nD) :
    W6 m ρ c (Proc.devRef .tc main_v65) = hidden2 (agg m ρ c) (weights m c) (m ((c : Thread nD τ).loc main_arg0)) := by
  refine (W6_arr m ρ c 8).trans ((ArrayLayer1.final (V5 m ρ) c).trans ?_)
  unfold ArrayLayer1.stage hidden2
  rw [wrel1_eq m ρ c, brel1_eq m ρ c, wroot1_eq m ρ c, gain1_eq m ρ c, bias1_eq m ρ c, agg1_eq m ρ c, own1_eq m ρ c, res1_eq m ρ c]

/-! ## The third layer -/

set_option maxHeartbeats 4000000 in
/-- Layer 2's first matrix, as its launch finds it: slab 2 of the weight array, transposed. -/
theorem wrel2_eq (c : Dev nD) :
    (fun k j : Fin 128 => (V7 m ρ c main_v82 : S128x128.Idx → Elt Ideal .f32) (ix2 k j)) = (weights m c).wrel 2 := by
  have e : W7 m ρ c (Proc.devRef .tc main_v82)
      = shapeCast S128x128 (extractStridedSlice S1x128x128 ![2, 0, 0] (W6 m ρ c (Proc.devRef .tc main_v5)) slices_S3x128x128_S1x128x128_2_0_0) shapeCasts_S1x128x128_S128x128 := by
    show StableHlo.after hostOps3 (W6 m ρ c) (Proc.devRef .tc main_v82) = _
    after_results_simp <;> rfl
  rw [show V7 m ρ c main_v82 = _ from e, back6 m ρ c main_v5 (by decide), W1_wrel]
  exact slab_of_transposed_eq _ 2 _ _ _

set_option maxHeartbeats 4000000 in
/-- Layer 2's bias row, as its launch finds it. -/
theorem brel2_eq (c : Dev nD) :
    (fun j : Fin 128 => (V7 m ρ c main_v84 : S1x128.Idx → Elt Ideal .f32) (ix2 (0 : Fin 1) j)) = (weights m c).brel 2 := by
  have e : W7 m ρ c (Proc.devRef .tc main_v84)
      = shapeCast S1x128 (extractStridedSlice S1x1x128 ![2, 0, 0] (W6 m ρ c (Proc.devRef .tc main_v9)) slices_S3x1x128_S1x1x128_2_0_0) shapeCasts_S1x1x128_S1x128 := by
    show StableHlo.after hostOps3 (W6 m ρ c) (Proc.devRef .tc main_v84) = _
    after_results_simp <;> rfl
  rw [show V7 m ρ c main_v84 = _ from e, back6 m ρ c main_v9 (by decide), W1_brel]
  exact row_of_widened_eq _ 2 _ _ _

set_option maxHeartbeats 4000000 in
/-- Layer 2's second matrix, as its launch finds it: slab 2 of the weight array, transposed. -/
theorem wroot2_eq (c : Dev nD) :
    (fun k j : Fin 128 => (V7 m ρ c main_v86 : S128x128.Idx → Elt Ideal .f32) (ix2 k j)) = (weights m c).wroot 2 := by
  have e : W7 m ρ c (Proc.devRef .tc main_v86)
      = shapeCast S128x128 (extractStridedSlice S1x128x128 ![2, 0, 0] (W6 m ρ c (Proc.devRef .tc main_v6)) slices_S3x128x128_S1x128x128_2_0_0) shapeCasts_S1x128x128_S128x128 := by
    show StableHlo.after hostOps3 (W6 m ρ c) (Proc.devRef .tc main_v86) = _
    after_results_simp <;> rfl
  rw [show V7 m ρ c main_v86 = _ from e, back6 m ρ c main_v6 (by decide), W1_wroot]
  exact slab_of_transposed_eq _ 2 _ _ _

set_option maxHeartbeats 4000000 in
/-- Layer 2's normalisation gain, as its launch finds it. -/
theorem gain2_eq (c : Dev nD) :
    (fun j : Fin 128 => (V7 m ρ c main_v88 : S1x128.Idx → Elt Ideal .f32) (ix2 (0 : Fin 1) j)) = (weights m c).gain 2 := by
  have e : W7 m ρ c (Proc.devRef .tc main_v88)
      = shapeCast S1x128 (extractStridedSlice S1x1x128 ![2, 0, 0] (W6 m ρ c (Proc.devRef .tc main_v10)) slices_S3x1x128_S1x1x128_2_0_0) shapeCasts_S1x1x128_S1x128 := by
    show StableHlo.after hostOps3 (W6 m ρ c) (Proc.devRef .tc main_v88) = _
    after_results_simp <;> rfl
  rw [show V7 m ρ c main_v88 = _ from e, back6 m ρ c main_v10 (by decide), W1_gain]
  exact row_of_widened_eq _ 2 _ _ _

set_option maxHeartbeats 4000000 in
/-- Layer 2's normalisation bias, as its launch finds it. -/
theorem bias2_eq (c : Dev nD) :
    (fun j : Fin 128 => (V7 m ρ c main_v90 : S1x128.Idx → Elt Ideal .f32) (ix2 (0 : Fin 1) j)) = (weights m c).bias 2 := by
  have e : W7 m ρ c (Proc.devRef .tc main_v90)
      = shapeCast S1x128 (extractStridedSlice S1x1x128 ![2, 0, 0] (W6 m ρ c (Proc.devRef .tc main_v11)) slices_S3x1x128_S1x1x128_2_0_0) shapeCasts_S1x1x128_S1x128 := by
    show StableHlo.after hostOps3 (W6 m ρ c) (Proc.devRef .tc main_v90) = _
    after_results_simp <;> rfl
  rw [show V7 m ρ c main_v90 = _ from e, back6 m ρ c main_v11 (by decide), W1_bias]
  exact row_of_widened_eq _ 2 _ _ _

/-- The aggregated array the third layer's launch finds: the program's aggregation of the second layer's array. -/
theorem agg2_eq (c : Dev nD) : V7 m ρ c main_v80 = agg m ρ c (hidden2 (agg m ρ c) (weights m c) (m ((c : Thread nD τ).loc main_arg0))) := by
  rw [show V7 m ρ c main_v80 = _ from agg3 m ρ c, after_layer1 m ρ c, back6 m ρ c main_v1 (by decide), back6 m ρ c main_v3 (by decide),
    back6 m ρ c main_arg2 (by decide), W1_weight]
  rfl

/-- The nodes' own array the third layer's launch finds: the second layer's array. -/
theorem own2_eq (c : Dev nD) : V7 m ρ c main_v65 = hidden2 (agg m ρ c) (weights m c) (m ((c : Thread nD τ).loc main_arg0)) :=
  (kept3 m ρ c main_v65 (by decide)).trans (after_layer1 m ρ c)

/-- AFTER THE FOURTH LAUNCH its result buffer holds the third layer's array. -/
theorem after_layer2 (c : Dev nD) :
    W8 m ρ c (Proc.devRef .tc main_v91) = hidden3 (agg m ρ c) (weights m c) (m ((c : Thread nD τ).loc main_arg0)) := by
  refine (W8_arr m ρ c 7).trans ((ArrayLayer2.final (V7 m ρ) c).trans ?_)
  unfold ArrayLayer2.stage hidden3
  rw [wrel2_eq m ρ c, brel2_eq m ρ c, wroot2_eq m ρ c, gain2_eq m ρ c, bias2_eq m ρ c, agg2_eq m ρ c, own2_eq m ρ c]

/-! ## The output stage, and the two results -/

/-- The output stage's matrix, as its launch finds it: the weight array transposed, prepared by the first stretch. -/
theorem wout_eq (c : Dev nD) :
    (fun k j : Fin 128 => (V8 m ρ c main_v7 : S128x128.Idx → Elt Ideal .f32) (ix2 k j)) = (weights m c).wout := by
  rw [show V8 m ρ c main_v7 = _ from back8 m ρ c main_v7 (by decide), W1_wout]
  exact transposed_eq _ _

/-- The output stage's bias row, as its launch finds it. -/
theorem bout_eq (c : Dev nD) :
    (fun j : Fin 128 => (V8 m ρ c main_v12 : S1x128.Idx → Elt Ideal .f32) (ix2 (0 : Fin 1) j)) = (weights m c).bout := by
  rw [show V8 m ρ c main_v12 = _ from back8 m ρ c main_v12 (by decide), W1_bout]
  exact row_of_vector_eq _ _

/-- AFTER THE FIFTH LAUNCH its result buffer holds the output stage's array: RESULT 1. -/
theorem after_output (c : Dev nD) :
    W9 m ρ c (Proc.devRef .tc main_v92) = output (agg m ρ c) (weights m c) (m ((c : Thread nD τ).loc main_arg0)) := by
  refine (W9_arr m ρ c 3).trans ((ArrayOutput.final (V8 m ρ) c).trans ?_)
  unfold ArrayOutput.stage output
  rw [wout_eq m ρ c, bout_eq m ρ c, show V8 m ρ c main_v91 = _ from after_layer2 m ρ c]

/-- The fifth launch only reads the third layer's array, so it is still there at the end: RESULT 0. -/
theorem result0 (c : Dev nD) :
    W9 m ρ c (Proc.devRef .tc main_v91) = hidden3 (agg m ρ c) (weights m c) (m ((c : Thread nD τ).loc main_arg0)) :=
  (W9_arr m ρ c 0).trans (((dat4 (V8 m ρ) c).arrAt_in 0 rfl _).trans ((A_eq4 (V8 m ρ) c 0).trans (after_layer2 m ρ c)))

/-- THE KERNEL PROGRAM'S RUN: every weakly fair execution terminates, nothing faulting, with result 0 the third
    layer's array and result 1 the output stage's array of the stack over the program's aggregation, and the argument
    arrays as launched. -/
theorem run : θ_run defs (onTc (τ := τ) (main (F := Ideal))) ⟨m, fun _ => 0, ρ⟩ (fun r => ∀ c : Dev nD,
      r.2.mem ((c.tc : Thread nD τ).loc main_v91) = hidden3 (agg m ρ c) (weights m c) (m ((c : Thread nD τ).loc main_arg0))
      ∧ r.2.mem ((c.tc : Thread nD τ).loc main_v92) = output (agg m ρ c) (weights m c) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result0 m ρ c), (h c).2.1.trans (after_output m ρ c), (h c).2.2⟩)
    (Cert.KernelIdeal.Run.run_results (F := Ideal) m ρ)

end Cert.KernelIdeal.Stack

end
-- ==== Proof.ReferenceFold.lean ====
/-
  The reference program's run, read stage by stage.

  The reference is one straight line of 216 host operations. Every weakly fair execution of it terminates, and every
  buffer then holds the fold of the operations over the launch contents: each operation in turn rewrites the buffer it
  writes to its pure function of its operands' contents and leaves the rest. The fold is read here in eight stretches
  — the input stage, then three times an aggregation along the edges and a layer, then the output stage — each over
  the contents the previous stretch left, so that no term for the whole program is ever formed: after a stretch, the
  buffer it ends on holds that stage's function of the ARGUMENTS, as the stage functions `val_…` compose it.
-/
import proofs.«170463_j5016521802571_2_alg».proof.Proof.ReferenceRead
import Idealize.ShloMosaic.Lib.StableHlo.Run

set_option maxRecDepth 16384

noncomputable section

namespace Cert.ReferenceIdeal.Fold

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]
variable (m : (ℓ : Loc nD τ sig) → Buf (Elt F) ℓ)

/-- Running one list of operations after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The buffers' contents after the first `k` operations, from the launch contents. -/
def upTo (k : Nat) (c : Dev nD) : Valuation τ sig (Elt F) :=
  after ((Value.ops (F := F)).take k) (launchContents m c)

/-- `j + k` operations are the first `j`, then the next `k`. -/
theorem upTo_add (j k : Nat) (c : Dev nD) :
    upTo m (j + k) c = after (((Value.ops (F := F)).drop j).take k) (upTo m j c) := by
  unfold upTo
  rw [List.take_add, after_append]

/-- All 216 operations. -/
theorem upTo_all (c : Dev nD) : upTo m 216 c = after (Value.ops (F := F)) (launchContents m c) := by
  unfold upTo
  have h : (Value.ops (F := F)).take 216 = Value.ops := List.take_of_length_le (Nat.le_of_eq rfl)
  rw [h]

/-- THE RUN: every weakly fair execution terminates, nothing faulting, with every buffer at the fold of all 216
    operations over the launch contents. -/
theorem run (ρ : Dev nD → PrngReg) :
    θ_run defs (onTc (τ := τ) (main (F := F))) ⟨m, fun _ => 0, ρ⟩ fun r =>
      ∀ (c : Dev nD) (b : Ref sig .tc), r.2.mem ((c.tc : Thread nD τ).loc b) = upTo m 216 c (Proc.devRef .tc b) :=
  (θ_run defs _ _).mono (fun _ h c b => (h c b).trans (congrFun (upTo_all m c).symm _))
    (run_seq Value.scopedRefs_eq Value.scopedSems_eq defs main (fun _ => Value.ops) Value.main_eq (fun _ => Value.ops_sub) m ρ)

/-! ## The input stage: the first twelve operations -/

set_option maxHeartbeats 4000000 in
/-- After twelve operations the input stage's buffer holds the input stage of the arguments. -/
theorem stage_input (c : Dev nD) : upTo m 12 c (Proc.devRef .tc main_v9)
    = val_main_v9 (F := F) (m ((c.tc : Thread nD τ).loc main_arg0)) (m ((c.tc : Thread nD τ).loc main_arg3)) (m ((c.tc : Thread nD τ).loc main_arg4)) := by
  unfold upTo
  simp only [Value.ops, List.take_succ_cons, List.take_zero]
  after_results_simp <;> rfl

/-! ## What a stretch keeps -/

/-- Before any operation a buffer holds its launch contents. -/
theorem upTo_zero (c : Dev nD) (b : Ref sig .tc) : upTo m 0 c (Proc.devRef .tc b) = m ((c.tc : Thread nD τ).loc b) := rfl

/-- The buffers operations 1 to 12 write. -/
abbrev written1 : List (Ref sig .tc) :=
  [main_v0, main_v1, main_v2, main_v3, main_v4, main_v5, main_v6, main_v7, main_v8, main_call0_cst, main_call0_v0,
   main_v9]

/-- The buffers operations 13 to 28 write. -/
abbrev written2 : List (Ref sig .tc) :=
  [main_c, main_v10, main_v11, main_c_0, main_v12, main_v13, main_v14, main_v15, main_v16, main_v17, main_v18,
   main_v19, main_cst, main_v20, main_v21, main_v22]

/-- The buffers operations 29 to 78 write. -/
abbrev written3 : List (Ref sig .tc) :=
  [main_v23, main_v24, main_v25, main_v26, main_v27, main_v28, main_v29, main_v30, main_v31, main_v32, main_v33,
   main_v34, main_v35, main_v36, main_v37, main_v38, main_v39, main_v40, main_cst_1, main_v41, main_v42, main_cst_2,
   main_v43, main_v44, main_v45, main_v46, main_v47, main_cst_3, main_v48, main_v49, main_cst_4, main_v50, main_v51,
   main_v52, main_v53, main_cst_5, main_v54, main_v55, main_v56, main_v57, main_v58, main_v59, main_v60, main_v61,
   main_v62, main_v63, main_v64, main_call1_cst, main_call1_v0, main_v65]

/-- The buffers operations 79 to 94 write. -/
abbrev written4 : List (Ref sig .tc) :=
  [main_c_6, main_v66, main_v67, main_c_7, main_v68, main_v69, main_v70, main_v71, main_v72, main_v73, main_v74,
   main_v75, main_cst_8, main_v76, main_v77, main_v78]

/-- The buffers operations 95 to 145 write. -/
abbrev written5 : List (Ref sig .tc) :=
  [main_v79, main_v80, main_v81, main_v82, main_v83, main_v84, main_v85, main_v86, main_v87, main_v88, main_v89,
   main_v90, main_v91, main_v92, main_v93, main_v94, main_v95, main_v96, main_cst_9, main_v97, main_v98, main_cst_10,
   main_v99, main_v100, main_v101, main_v102, main_v103, main_cst_11, main_v104, main_v105, main_cst_12, main_v106,
   main_v107, main_v108, main_v109, main_cst_13, main_v110, main_v111, main_v112, main_v113, main_v114, main_v115,
   main_v116, main_v117, main_v118, main_v119, main_v120, main_v121, main_call2_cst, main_call2_v0, main_v122]

/-- The buffers operations 146 to 161 write. -/
abbrev written6 : List (Ref sig .tc) :=
  [main_c_14, main_v123, main_v124, main_c_15, main_v125, main_v126, main_v127, main_v128, main_v129, main_v130,
   main_v131, main_v132, main_cst_16, main_v133, main_v134, main_v135]

/-- The buffers operations 162 to 211 write. -/
abbrev written7 : List (Ref sig .tc) :=
  [main_v136, main_v137, main_v138, main_v139, main_v140, main_v141, main_v142, main_v143, main_v144, main_v145,
   main_v146, main_v147, main_v148, main_v149, main_v150, main_v151, main_v152, main_v153, main_cst_17, main_v154,
   main_v155, main_cst_18, main_v156, main_v157, main_v158, main_v159, main_v160, main_cst_19, main_v161, main_v162,
   main_cst_20, main_v163, main_v164, main_v165, main_v166, main_cst_21, main_v167, main_v168, main_v169, main_v170,
   main_v171, main_v172, main_v173, main_v174, main_v175, main_v176, main_v177, main_call3_cst, main_call3_v0,
   main_v178]

/-- The buffers operations 212 to 216 write. -/
abbrev written8 : List (Ref sig .tc) :=
  [main_v179, main_v180, main_v181, main_v182, main_v183]

set_option maxHeartbeats 8000000 in
/-- A buffer operations 1 to 12 do not write holds after them what it held before. -/
theorem kept1 (c : Dev nD) (b : Ref sig .tc) (hb : b ∉ written1) :
    upTo m 12 c (Proc.devRef .tc b) = upTo m 0 c (Proc.devRef .tc b) := by
  rw [show (12 : Nat) = 0 + 12 from rfl, upTo_add]
  refine after_of_forall_not_mem (b := Proc.devRef .tc b) _ _ (List.forall_iff_forall_mem.mp ?_)
  simp only [Value.ops, List.drop_succ_cons, List.drop_zero, List.take_succ_cons, List.take_zero, List.Forall, TRef.nullary, TRef.unary, TRef.binary,
    nullary_writes, unary_writes, binary_writes, ternary_writes, reshape_writes, Finset.mem_singleton]
  repeat' apply And.intro
  all_goals exact devRef_ne_of_ne (fun e => hb (by subst e; decide))

set_option maxHeartbeats 8000000 in
/-- A buffer operations 13 to 28 do not write holds after them what it held before. -/
theorem kept2 (c : Dev nD) (b : Ref sig .tc) (hb : b ∉ written2) :
    upTo m 28 c (Proc.devRef .tc b) = upTo m 12 c (Proc.devRef .tc b) := by
  rw [show (28 : Nat) = 12 + 16 from rfl, upTo_add]
  refine after_of_forall_not_mem (b := Proc.devRef .tc b) _ _ (List.forall_iff_forall_mem.mp ?_)
  simp only [Value.ops, List.drop_succ_cons, List.drop_zero, List.take_succ_cons, List.take_zero, List.Forall, TRef.nullary, TRef.unary, TRef.binary,
    nullary_writes, unary_writes, binary_writes, ternary_writes, reshape_writes, Finset.mem_singleton]
  repeat' apply And.intro
  all_goals exact devRef_ne_of_ne (fun e => hb (by subst e; decide))

set_option maxHeartbeats 8000000 in
/-- A buffer operations 29 to 78 do not write holds after them what it held before. -/
theorem kept3 (c : Dev nD) (b : Ref sig .tc) (hb : b ∉ written3) :
    upTo m 78 c (Proc.devRef .tc b) = upTo m 28 c (Proc.devRef .tc b) := by
  rw [show (78 : Nat) = 28 + 50 from rfl, upTo_add]
  refine after_of_forall_not_mem (b := Proc.devRef .tc b) _ _ (List.forall_iff_forall_mem.mp ?_)
  simp only [Value.ops, List.drop_succ_cons, List.drop_zero, List.take_succ_cons, List.take_zero, List.Forall, TRef.nullary, TRef.unary, TRef.binary,
    nullary_writes, unary_writes, binary_writes, ternary_writes, reshape_writes, Finset.mem_singleton]
  repeat' apply And.intro
  all_goals exact devRef_ne_of_ne (fun e => hb (by subst e; decide))

set_option maxHeartbeats 8000000 in
/-- A buffer operations 79 to 94 do not write holds after them what it held before. -/
theorem kept4 (c : Dev nD) (b : Ref sig .tc) (hb : b ∉ written4) :
    upTo m 94 c (Proc.devRef .tc b) = upTo m 78 c (Proc.devRef .tc b) := by
  rw [show (94 : Nat) = 78 + 16 from rfl, upTo_add]
  refine after_of_forall_not_mem (b := Proc.devRef .tc b) _ _ (List.forall_iff_forall_mem.mp ?_)
  simp only [Value.ops, List.drop_succ_cons, List.drop_zero, List.take_succ_cons, List.take_zero, List.Forall, TRef.nullary, TRef.unary, TRef.binary,
    nullary_writes, unary_writes, binary_writes, ternary_writes, reshape_writes, Finset.mem_singleton]
  repeat' apply And.intro
  all_goals exact devRef_ne_of_ne (fun e => hb (by subst e; decide))

set_option maxHeartbeats 8000000 in
/-- A buffer operations 95 to 145 do not write holds after them what it held before. -/
theorem kept5 (c : Dev nD) (b : Ref sig .tc) (hb : b ∉ written5) :
    upTo m 145 c (Proc.devRef .tc b) = upTo m 94 c (Proc.devRef .tc b) := by
  rw [show (145 : Nat) = 94 + 51 from rfl, upTo_add]
  refine after_of_forall_not_mem (b := Proc.devRef .tc b) _ _ (List.forall_iff_forall_mem.mp ?_)
  simp only [Value.ops, List.drop_succ_cons, List.drop_zero, List.take_succ_cons, List.take_zero, List.Forall, TRef.nullary, TRef.unary, TRef.binary,
    nullary_writes, unary_writes, binary_writes, ternary_writes, reshape_writes, Finset.mem_singleton]
  repeat' apply And.intro
  all_goals exact devRef_ne_of_ne (fun e => hb (by subst e; decide))

set_option maxHeartbeats 8000000 in
/-- A buffer operations 146 to 161 do not write holds after them what it held before. -/
theorem kept6 (c : Dev nD) (b : Ref sig .tc) (hb : b ∉ written6) :
    upTo m 161 c (Proc.devRef .tc b) = upTo m 145 c (Proc.devRef .tc b) := by
  rw [show (161 : Nat) = 145 + 16 from rfl, upTo_add]
  refine after_of_forall_not_mem (b := Proc.devRef .tc b) _ _ (List.forall_iff_forall_mem.mp ?_)
  simp only [Value.ops, List.drop_succ_cons, List.drop_zero, List.take_succ_cons, List.take_zero, List.Forall, TRef.nullary, TRef.unary, TRef.binary,
    nullary_writes, unary_writes, binary_writes, ternary_writes, reshape_writes, Finset.mem_singleton]
  repeat' apply And.intro
  all_goals exact devRef_ne_of_ne (fun e => hb (by subst e; decide))

set_option maxHeartbeats 8000000 in
/-- A buffer operations 162 to 211 do not write holds after them what it held before. -/
theorem kept7 (c : Dev nD) (b : Ref sig .tc) (hb : b ∉ written7) :
    upTo m 211 c (Proc.devRef .tc b) = upTo m 161 c (Proc.devRef .tc b) := by
  rw [show (211 : Nat) = 161 + 50 from rfl, upTo_add]
  refine after_of_forall_not_mem (b := Proc.devRef .tc b) _ _ (List.forall_iff_forall_mem.mp ?_)
  simp only [Value.ops, List.drop_succ_cons, List.drop_zero, List.take_succ_cons, List.take_zero, List.Forall, TRef.nullary, TRef.unary, TRef.binary,
    nullary_writes, unary_writes, binary_writes, ternary_writes, reshape_writes, Finset.mem_singleton]
  repeat' apply And.intro
  all_goals exact devRef_ne_of_ne (fun e => hb (by subst e; decide))

set_option maxHeartbeats 8000000 in
/-- A buffer operations 212 to 216 do not write holds after them what it held before. -/
theorem kept8 (c : Dev nD) (b : Ref sig .tc) (hb : b ∉ written8) :
    upTo m 216 c (Proc.devRef .tc b) = upTo m 211 c (Proc.devRef .tc b) := by
  rw [show (216 : Nat) = 211 + 5 from rfl, upTo_add]
  refine after_of_forall_not_mem (b := Proc.devRef .tc b) _ _ (List.forall_iff_forall_mem.mp ?_)
  simp only [Value.ops, List.drop_succ_cons, List.drop_zero, List.take_succ_cons, List.take_zero, List.Forall, TRef.nullary, TRef.unary, TRef.binary,
    nullary_writes, unary_writes, binary_writes, ternary_writes, reshape_writes, Finset.mem_singleton]
  repeat' apply And.intro
  all_goals exact devRef_ne_of_ne (fun e => hb (by subst e; decide))

/-! ## The arguments are never written -/

/-- The twelve argument buffers. -/
abbrev args : List (Ref sig .tc) :=
  [main_arg0, main_arg1, main_arg2, main_arg3, main_arg4, main_arg5, main_arg6, main_arg7, main_arg8, main_arg9, main_arg10, main_arg11]

/-- After 12 operations an argument buffer still holds the argument. -/
theorem argAt12 (c : Dev nD) (b : Ref sig .tc) (hb : b ∈ args) :
    upTo m 12 c (Proc.devRef .tc b) = m ((c.tc : Thread nD τ).loc b) := by
  refine (kept1 m c b ?_).trans (upTo_zero m c b)
  simp only [args, List.mem_cons, List.mem_singleton, List.not_mem_nil, or_false] at hb
  rcases hb with rfl | rfl | rfl | rfl | rfl | rfl | rfl | rfl | rfl | rfl | rfl | rfl <;> decide

/-- After 28 operations an argument buffer still holds the argument. -/
theorem argAt28 (c : Dev nD) (b : Ref sig .tc) (hb : b ∈ args) :
    upTo m 28 c (Proc.devRef .tc b) = m ((c.tc : Thread nD τ).loc b) := by
  refine (kept2 m c b ?_).trans (argAt12 m c b hb)
  simp only [args, List.mem_cons, List.mem_singleton, List.not_mem_nil, or_false] at hb
  rcases hb with rfl | rfl | rfl | rfl | rfl | rfl | rfl | rfl | rfl | rfl | rfl | rfl <;> decide

/-- After 78 operations an argument buffer still holds the argument. -/
theorem argAt78 (c : Dev nD) (b : Ref sig .tc) (hb : b ∈ args) :
    upTo m 78 c (Proc.devRef .tc b) = m ((c.tc : Thread nD τ).loc b) := by
  refine (kept3 m c b ?_).trans (argAt28 m c b hb)
  simp only [args, List.mem_cons, List.mem_singleton, List.not_mem_nil, or_false] at hb
  rcases hb with rfl | rfl | rfl | rfl | rfl | rfl | rfl | rfl | rfl | rfl | rfl | rfl <;> decide

/-- After 94 operations an argument buffer still holds the argument. -/
theorem argAt94 (c : Dev nD) (b : Ref sig .tc) (hb : b ∈ args) :
    upTo m 94 c (Proc.devRef .tc b) = m ((c.tc : Thread nD τ).loc b) := by
  refine (kept4 m c b ?_).trans (argAt78 m c b hb)
  simp only [args, List.mem_cons, List.mem_singleton, List.not_mem_nil, or_false] at hb
  rcases hb with rfl | rfl | rfl | rfl | rfl | rfl | rfl | rfl | rfl | rfl | rfl | rfl <;> decide

/-- After 145 operations an argument buffer still holds the argument. -/
theorem argAt145 (c : Dev nD) (b : Ref sig .tc) (hb : b ∈ args) :
    upTo m 145 c (Proc.devRef .tc b) = m ((c.tc : Thread nD τ).loc b) := by
  refine (kept5 m c b ?_).trans (argAt94 m c b hb)
  simp only [args, List.mem_cons, List.mem_singleton, List.not_mem_nil, or_false] at hb
  rcases hb with rfl | rfl | rfl | rfl | rfl | rfl | rfl | rfl | rfl | rfl | rfl | rfl <;> decide

/-- After 161 operations an argument buffer still holds the argument. -/
theorem argAt161 (c : Dev nD) (b : Ref sig .tc) (hb : b ∈ args) :
    upTo m 161 c (Proc.devRef .tc b) = m ((c.tc : Thread nD τ).loc b) := by
  refine (kept6 m c b ?_).trans (argAt145 m c b hb)
  simp only [args, List.mem_cons, List.mem_singleton, List.not_mem_nil, or_false] at hb
  rcases hb with rfl | rfl | rfl | rfl | rfl | rfl | rfl | rfl | rfl | rfl | rfl | rfl <;> decide

/-- After 211 operations an argument buffer still holds the argument. -/
theorem argAt211 (c : Dev nD) (b : Ref sig .tc) (hb : b ∈ args) :
    upTo m 211 c (Proc.devRef .tc b) = m ((c.tc : Thread nD τ).loc b) := by
  refine (kept7 m c b ?_).trans (argAt161 m c b hb)
  simp only [args, List.mem_cons, List.mem_singleton, List.not_mem_nil, or_false] at hb
  rcases hb with rfl | rfl | rfl | rfl | rfl | rfl | rfl | rfl | rfl | rfl | rfl | rfl <;> decide

/-! ## The edge indices, cut out by the first twelve operations and carried on -/

set_option maxHeartbeats 4000000 in
/-- The source indices after twelve operations. -/
theorem src12 (c : Dev nD) : upTo m 12 c (Proc.devRef .tc main_v1) = val_main_v1 (F := F) (m ((c.tc : Thread nD τ).loc main_arg1)) := by
  unfold upTo
  simp only [Value.ops, List.take_succ_cons, List.take_zero]
  after_results_simp <;> rfl

set_option maxHeartbeats 4000000 in
/-- The destination indices after twelve operations. -/
theorem dst12 (c : Dev nD) : upTo m 12 c (Proc.devRef .tc main_v3) = val_main_v3 (F := F) (m ((c.tc : Thread nD τ).loc main_arg1)) := by
  unfold upTo
  simp only [Value.ops, List.take_succ_cons, List.take_zero]
  after_results_simp <;> rfl

theorem src78 (c : Dev nD) : upTo m 78 c (Proc.devRef .tc main_v1) = val_main_v1 (F := F) (m ((c.tc : Thread nD τ).loc main_arg1)) :=
  (kept3 m c main_v1 (by decide)).trans ((kept2 m c main_v1 (by decide)).trans (src12 m c))
theorem dst78 (c : Dev nD) : upTo m 78 c (Proc.devRef .tc main_v3) = val_main_v3 (F := F) (m ((c.tc : Thread nD τ).loc main_arg1)) :=
  (kept3 m c main_v3 (by decide)).trans ((kept2 m c main_v3 (by decide)).trans (dst12 m c))

theorem src145 (c : Dev nD) : upTo m 145 c (Proc.devRef .tc main_v1) = val_main_v1 (F := F) (m ((c.tc : Thread nD τ).loc main_arg1)) :=
  (kept5 m c main_v1 (by decide)).trans ((kept4 m c main_v1 (by decide)).trans (src78 m c))
theorem dst145 (c : Dev nD) : upTo m 145 c (Proc.devRef .tc main_v3) = val_main_v3 (F := F) (m ((c.tc : Thread nD τ).loc main_arg1)) :=
  (kept5 m c main_v3 (by decide)).trans ((kept4 m c main_v3 (by decide)).trans (dst78 m c))

/-! ## The stages -/

set_option maxHeartbeats 8000000 in
/-- After 28 operations the first aggregation's buffer holds the aggregation of the input stage's array. -/
theorem stage_agg0 (c : Dev nD) : upTo m 28 c (Proc.devRef .tc main_v22)
    = val_main_v22 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [show (28 : Nat) = 12 + 16 from rfl, upTo_add]
  simp only [Value.ops, List.drop_succ_cons, List.drop_zero, List.take_succ_cons, List.take_zero]
  after_results_simp
  simp only [stage_input m c, src12 m c, dst12 m c, argAt12 m c main_arg2 (by decide)]
  rfl

/-- The input stage's array is still there after 28 operations. -/
theorem input28 (c : Dev nD) : upTo m 28 c (Proc.devRef .tc main_v9) = val_main_v9 (F := F) (m ((c.tc : Thread nD τ).loc main_arg0)) (m ((c.tc : Thread nD τ).loc main_arg3)) (m ((c.tc : Thread nD τ).loc main_arg4)) :=
  (kept2 m c main_v9 (by decide)).trans (stage_input m c)

set_option maxHeartbeats 32000000 in
/-- After 78 operations the first layer's buffer holds the first layer's array. -/
theorem stage_layer0 (c : Dev nD) : upTo m 78 c (Proc.devRef .tc main_v65)
    = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show (78 : Nat) = 28 + 50 from rfl, upTo_add]
  simp only [Value.ops, List.drop_succ_cons, List.drop_zero, List.take_succ_cons, List.take_zero]
  after_results_simp
  simp only [stage_agg0 m c, input28 m c, argAt28 m c main_arg5 (by decide), argAt28 m c main_arg6 (by decide), argAt28 m c main_arg7 (by decide), argAt28 m c main_arg8 (by decide), argAt28 m c main_arg9 (by decide)]
  rfl

set_option maxHeartbeats 8000000 in
/-- After 94 operations the second aggregation's buffer holds the aggregation of the first layer's array. -/
theorem stage_agg1 (c : Dev nD) : upTo m 94 c (Proc.devRef .tc main_v78)
    = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show (94 : Nat) = 78 + 16 from rfl, upTo_add]
  simp only [Value.ops, List.drop_succ_cons, List.drop_zero, List.take_succ_cons, List.take_zero]
  after_results_simp
  simp only [stage_layer0 m c, src78 m c, dst78 m c, argAt78 m c main_arg2 (by decide)]
  rfl

/-- The first layer's array and the input stage's array are still there after 94 operations. -/
theorem layer0_94 (c : Dev nD) : upTo m 94 c (Proc.devRef .tc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (kept4 m c main_v65 (by decide)).trans (stage_layer0 m c)
theorem input94 (c : Dev nD) : upTo m 94 c (Proc.devRef .tc main_v9) = val_main_v9 (F := F) (m ((c.tc : Thread nD τ).loc main_arg0)) (m ((c.tc : Thread nD τ).loc main_arg3)) (m ((c.tc : Thread nD τ).loc main_arg4)) :=
  (kept4 m c main_v9 (by decide)).trans ((kept3 m c main_v9 (by decide)).trans (input28 m c))

set_option maxHeartbeats 32000000 in
/-- After 145 operations the second layer's buffer holds the second layer's array. -/
theorem stage_layer1 (c : Dev nD) : upTo m 145 c (Proc.devRef .tc main_v122)
    = val_main_v122 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show (145 : Nat) = 94 + 51 from rfl, upTo_add]
  simp only [Value.ops, List.drop_succ_cons, List.drop_zero, List.take_succ_cons, List.take_zero]
  after_results_simp
  simp only [stage_agg1 m c, layer0_94 m c, input94 m c, argAt94 m c main_arg5 (by decide), argAt94 m c main_arg6 (by decide), argAt94 m c main_arg7 (by decide), argAt94 m c main_arg8 (by decide), argAt94 m c main_arg9 (by decide)]
  rfl

set_option maxHeartbeats 8000000 in
/-- After 161 operations the third aggregation's buffer holds the aggregation of the second layer's array. -/
theorem stage_agg2 (c : Dev nD) : upTo m 161 c (Proc.devRef .tc main_v135)
    = val_main_v135 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show (161 : Nat) = 145 + 16 from rfl, upTo_add]
  simp only [Value.ops, List.drop_succ_cons, List.drop_zero, List.take_succ_cons, List.take_zero]
  after_results_simp
  simp only [stage_layer1 m c, src145 m c, dst145 m c, argAt145 m c main_arg2 (by decide)]
  rfl

/-- The second layer's array is still there after 161 operations. -/
theorem layer1_161 (c : Dev nD) : upTo m 161 c (Proc.devRef .tc main_v122) = val_main_v122 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (kept6 m c main_v122 (by decide)).trans (stage_layer1 m c)

set_option maxHeartbeats 32000000 in
/-- After 211 operations the third layer's buffer holds the third layer's array. -/
theorem stage_layer2 (c : Dev nD) : upTo m 211 c (Proc.devRef .tc main_v178)
    = val_main_v178 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show (211 : Nat) = 161 + 50 from rfl, upTo_add]
  simp only [Value.ops, List.drop_succ_cons, List.drop_zero, List.take_succ_cons, List.take_zero]
  after_results_simp
  simp only [stage_agg2 m c, layer1_161 m c, argAt161 m c main_arg5 (by decide), argAt161 m c main_arg6 (by decide), argAt161 m c main_arg7 (by decide), argAt161 m c main_arg8 (by decide), argAt161 m c main_arg9 (by decide)]
  rfl

set_option maxHeartbeats 8000000 in
/-- After all 216 operations the output stage's buffer holds the output stage's array: RESULT 1. -/
theorem stage_output (c : Dev nD) : upTo m 216 c (Proc.devRef .tc main_v183)
    = val_main_v183 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [show (216 : Nat) = 211 + 5 from rfl, upTo_add]
  simp only [Value.ops, List.drop_succ_cons, List.drop_zero, List.take_succ_cons, List.take_zero]
  after_results_simp
  simp only [stage_layer2 m c, argAt211 m c main_arg10 (by decide), argAt211 m c main_arg11 (by decide)]
  rfl

/-- After all 216 operations the third layer's buffer still holds its array: RESULT 0. -/
theorem result0 (c : Dev nD) : upTo m 216 c (Proc.devRef .tc main_v178) = val_main_v178 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (kept8 m c main_v178 (by decide)).trans (stage_layer2 m c)

/-- After all 216 operations an argument buffer still holds the argument. -/
theorem argAt216 (c : Dev nD) (b : Ref sig .tc) (hb : b ∈ args) :
    upTo m 216 c (Proc.devRef .tc b) = m ((c.tc : Thread nD τ).loc b) := by
  refine (kept8 m c b ?_).trans (argAt211 m c b hb)
  simp only [args, List.mem_cons, List.mem_singleton, List.not_mem_nil, or_false] at hb
  rcases hb with rfl | rfl | rfl | rfl | rfl | rfl | rfl | rfl | rfl | rfl | rfl | rfl <;> decide

end Cert.ReferenceIdeal.Fold

end
-- ==== Proof.ReferenceStages.lean ====
/-
  The reference program, stage by stage, is the stack of graph-convolution layers of the specification.

  The reference computes, on arrays of 50000 rows of 128 features: an input stage (a product with a transposed
  128 × 128 matrix, a bias, a clamp below at zero); three layers, each of which AGGREGATES the previous array along the
  edges (gathers its rows at the source nodes, scales each gathered row by its edge's weight and adds it into the row
  of the edge's destination node), multiplies the aggregated array and the previous array by two matrices, adds a
  bias, normalises every row and clamps below at zero (the second layer adds the input stage's array before the
  clamp); and an output stage (a product and a bias).

  The aggregation is never read at an index here: it is named once, as a function `agg` of the array it aggregates
  and of the two edge arguments, and each of the three layers is shown to apply that same function. Every other stage
  is read at an index `(r, j)`: the matrix products are sums over `k : Fin 128`, the mean and the variance are sums
  over the 128 entries of row `r` (the sums start from the zero word, which denotes 0), and the index arithmetic of
  the slices, reshapes, transposes and broadcasts in between reduces to coordinates. The one law used is that the
  reference adds the bias before the second product and the specification after it.
-/
import proofs.«170463_j5016521802571_2_alg».proof.Proof.ReferenceRead
import proofs.«170463_j5016521802571_2_alg».proof.Proof.GraphConv
import Idealize.ShloMosaic.PureOps.Ideal
import Idealize.ShloMosaic.PureOps.Ideal.Laws
import Idealize.ShloMosaic.Lib.ValueIdx

noncomputable section

namespace Cert.ReferenceIdeal.Stages

open Cert.ReferenceIdeal Cert.ReferenceIdeal.Read Cert.GraphConv Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S800000, .f32⟩ : BufTy).Contents (Elt Ideal)) (x3 : (⟨S128x128, .f32⟩ : BufTy).Contents (Elt Ideal))
  (x4 : (⟨S128, .f32⟩ : BufTy).Contents (Elt Ideal)) (x5 : (⟨S3x128x128, .f32⟩ : BufTy).Contents (Elt Ideal))
  (x6 : (⟨S3x128, .f32⟩ : BufTy).Contents (Elt Ideal)) (x7 : (⟨S3x128x128, .f32⟩ : BufTy).Contents (Elt Ideal))
  (x8 x9 : (⟨S3x128, .f32⟩ : BufTy).Contents (Elt Ideal)) (x10 : (⟨S128x128, .f32⟩ : BufTy).Contents (Elt Ideal))
  (x11 : (⟨S128, .f32⟩ : BufTy).Contents (Elt Ideal))

/-! ## The aggregation, as one function of the array it aggregates -/

/-- The aggregation of an array `h` of node features along the edges: row `e` of the gathered array is the row of `h`
    at edge `e`'s source node (the source index, with a negative index wrapped round by 50000), it is scaled by the
    edge's weight, and the scaled rows are added, edge by edge, into the rows of an array of zeros at the edges'
    destination nodes. A function of `h` and of the two edge arguments alone. -/
def agg (h : (⟨S50000x128, .f32⟩ : BufTy).Contents (Elt Ideal)) (x1 : (⟨S2x800000, .i32⟩ : BufTy).Contents (Elt Ideal))
    (x2 : (⟨S800000, .f32⟩ : BufTy).Contents (Elt Ideal)) : (⟨S50000x128, .f32⟩ : BufTy).Contents (Elt Ideal) :=
  Host.scatterAdd (F := Ideal) (φ := .f32) scatter_S50000x128_S800000x1_S800000x128_1_0_0_1 (val_main_v20 (F := Ideal))
    (val_main_v21 (F := Ideal) x1)
    (mulf (F := Ideal) (φ := .f32)
      (Host.gather gather_S50000x128_S800000x1_S800000x128_1_0_n_n_0_1_1128 h (val_main_v15 (F := Ideal) x1))
      (val_main_v18 (F := Ideal) x2))

/-- The first layer aggregates the input stage's array. -/
theorem aggregation0_eq : val_main_v22 (F := Ideal) x0 x1 x2 x3 x4 = agg (val_main_v9 (F := Ideal) x0 x3 x4) x1 x2 := by
  unfold val_main_v22 val_main_v19 val_main_v16 agg
  rfl

/-- The second layer's normalised source index is the first layer's: the same operations on the same argument. -/
theorem source1_eq : val_main_v71 (F := Ideal) x1 = val_main_v15 (F := Ideal) x1 := by
  unfold val_main_v71 val_main_v70 val_main_v67 val_main_v69 val_main_v66 val_main_v68 val_main_c_6 val_main_c_7
    val_main_v15 val_main_v14 val_main_v11 val_main_v13 val_main_v10 val_main_v12 val_main_c val_main_c_0
  rfl

/-- The second layer aggregates the first layer's array. -/
theorem aggregation1_eq : val_main_v78 (F := Ideal) x0 x1 x2 x3 x4 x5 x6 x7 x8 x9 = agg (val_main_v65 (F := Ideal) x0 x1 x2 x3 x4 x5 x6 x7 x8 x9) x1 x2 := by
  have hs := source1_eq x1
  have hw : val_main_v74 (F := Ideal) x2 = val_main_v18 (F := Ideal) x2 := by unfold val_main_v74 val_main_v73 val_main_v18 val_main_v17; rfl
  have hz : val_main_v76 (F := Ideal) = val_main_v20 (F := Ideal) := by unfold val_main_v76 val_main_cst_8 val_main_v20 val_main_cst; rfl
  have hd : val_main_v77 (F := Ideal) x1 = val_main_v21 (F := Ideal) x1 := by unfold val_main_v77 val_main_v21; rfl
  unfold val_main_v78 val_main_v75 val_main_v72 agg
  rw [hs, hw, hz, hd]

/-- The third layer's normalised source index is the first layer's. -/
theorem source2_eq : val_main_v128 (F := Ideal) x1 = val_main_v15 (F := Ideal) x1 := by
  unfold val_main_v128 val_main_v127 val_main_v124 val_main_v126 val_main_v123 val_main_v125 val_main_c_14 val_main_c_15
    val_main_v15 val_main_v14 val_main_v11 val_main_v13 val_main_v10 val_main_v12 val_main_c val_main_c_0
  rfl

/-- The third layer aggregates the second layer's array. -/
theorem aggregation2_eq : val_main_v135 (F := Ideal) x0 x1 x2 x3 x4 x5 x6 x7 x8 x9 = agg (val_main_v122 (F := Ideal) x0 x1 x2 x3 x4 x5 x6 x7 x8 x9) x1 x2 := by
  have hs := source2_eq x1
  have hw : val_main_v131 (F := Ideal) x2 = val_main_v18 (F := Ideal) x2 := by unfold val_main_v131 val_main_v130 val_main_v18 val_main_v17; rfl
  have hz : val_main_v133 (F := Ideal) = val_main_v20 (F := Ideal) := by unfold val_main_v133 val_main_cst_16 val_main_v20 val_main_cst; rfl
  have hd : val_main_v134 (F := Ideal) x1 = val_main_v21 (F := Ideal) x1 := by unfold val_main_v134 val_main_v21; rfl
  unfold val_main_v135 val_main_v132 val_main_v129 agg
  rw [hs, hw, hz, hd]

/-! ## The input stage -/

/-- The input stage: entry `(r, j)` is the sum over `k` of `x (r, k) * w (j, k)`, plus `b j`, clamped below at zero. -/
theorem input_eq : val_main_v9 (F := Ideal) x0 x3 x4 = inputStage x0 (matT x3) (vec x4) := by
  funext i
  obtain ⟨r, j, rfl⟩ : ∃ (r : Fin 50000) (j : Fin 128), i = ix2 r j := ⟨i 0, i 1, eq_ix2 i⟩
  have hl : ∀ k : Fin 128, lidx_main_v5 (ix2 r j) k = ix2 r k := fun k => funext fun a => by
    match a with
    | ⟨0, _⟩ => rfl
    | ⟨1, _⟩ => rfl
  have hr : ∀ k : Fin 128, idx_main_v4 (ridx_main_v5 (ix2 r j) k) = ix2 j k := fun k => funext fun a => by
    match a with
    | ⟨0, _⟩ => rfl
    | ⟨1, _⟩ => rfl
  have hb : idx_main_v6 (idx_main_v7 (ix2 r j)) = ix1 j := funext fun a => by
    match a with
    | ⟨0, _⟩ => rfl
  rw [val_main_v9_apply, val_main_v8_apply, val_main_v5_apply, val_main_v7_apply, val_main_v6_apply, hb,
    val_main_call0_v0_apply, val_main_call0_cst_apply]
  simp only [val_main_v4_apply, hl, hr]
  simp only [Ideal.addf_def, Ideal.maximumf_def, Ideal.ofBits_def]
  rfl

/-! ## The first layer

In each lemma the stages are first read at the index by rewriting, then every stage that is left is replaced by a
variable, and only then are the float operations read as the extended reals': no step compares two stages by
unfolding them. -/

/-- Before the normalisation, entry `(r, j)` of the first layer is the aggregated row `r` through the transposed slab 0 of the
    first weight array, plus the bias, plus the previous array's row `r` through the transposed slab 0 of the second: the
    reference adds the bias before the second product. -/
theorem pre0_apply (r : Fin 50000) (j : Fin 128) :
    (val_main_v36 (F := Ideal) x0 x1 x2 x3 x4 x5 x6 x7) (ix2 r j) = combine (rowOf (val_main_v22 (F := Ideal) x0 x1 x2 x3 x4) r) (rowOf (val_main_v9 (F := Ideal) x0 x3 x4) r) (slabT x5 (0 : Fin 3)) (slabT x7 (0 : Fin 3)) (vecAt x6 (0 : Fin 3)) j := by
  have hj := j.isLt
  have h1 : ∀ k : Fin 128, lidx_main_v26 (ix2 r j) k = ix2 r k := fun k => funext fun a => by
    match a with
    | ⟨0, _⟩ => rfl
    | ⟨1, _⟩ => rfl
  have h2 : ∀ k : Fin 128, idx_main_v23 (idx_main_v24 (idx_main_v25 (ridx_main_v26 (ix2 r j) k))) = ix3 (0 : Fin 3) j k := fun k => funext fun a => Fin.ext (by
    have hk := k.isLt
    match a with
    | ⟨0, _⟩ => rfl
    | ⟨1, _⟩ => show (j.val * 128 + k.val) / 128 % 128 = j.val; omega
    | ⟨2, _⟩ => show (j.val * 128 + k.val) % 128 = k.val; omega)
  have h3 : idx_main_v27 (idx_main_v28 (idx_main_v29 (idx_main_v30 (ix2 r j)))) = ix2 (0 : Fin 3) j := funext fun a => Fin.ext (by
    match a with
    | ⟨0, _⟩ => rfl
    | ⟨1, _⟩ => show j.val % 128 = j.val; omega)
  have h4 : ∀ k : Fin 128, lidx_main_v35 (ix2 r j) k = ix2 r k := fun k => funext fun a => by
    match a with
    | ⟨0, _⟩ => rfl
    | ⟨1, _⟩ => rfl
  have h5 : ∀ k : Fin 128, idx_main_v32 (idx_main_v33 (idx_main_v34 (ridx_main_v35 (ix2 r j) k))) = ix3 (0 : Fin 3) j k := fun k => funext fun a => Fin.ext (by
    have hk := k.isLt
    match a with
    | ⟨0, _⟩ => rfl
    | ⟨1, _⟩ => show (j.val * 128 + k.val) / 128 % 128 = j.val; omega
    | ⟨2, _⟩ => show (j.val * 128 + k.val) % 128 = k.val; omega)
  rw [val_main_v36_apply, val_main_v31_apply, val_main_v26_apply, val_main_v30_apply, val_main_v29_apply, val_main_v28_apply, val_main_v27_apply, h3, val_main_v35_apply]
  simp only [val_main_v25_apply, val_main_v24_apply, val_main_v23_apply, val_main_v34_apply, val_main_v33_apply, val_main_v32_apply, h1, h2, h4, h5]
  generalize val_main_v22 (F := Ideal) x0 x1 x2 x3 x4 = a
  generalize val_main_v9 (F := Ideal) x0 x3 x4 = h
  simp only [Ideal.addf_def]
  exact combine_bias_first (rowOf a r) (rowOf h r) (slabT x5 (0 : Fin 3)) (slabT x7 (0 : Fin 3)) (vecAt x6 (0 : Fin 3)) j

/-- The mean of row `r`: the sum of the row's 128 entries (the sum starts from the zero word, which denotes 0) divided by
    the word of 128. -/
theorem mean0_apply (r : Fin 50000) :
    (val_main_v44 (F := Ideal) x0 x1 x2 x3 x4 x5 x6 x7) (ix2 r (0 : Fin 1)) = rowMean (fun k : Fin 128 => (val_main_v36 (F := Ideal) x0 x1 x2 x3 x4 x5 x6 x7) (ix2 r k)) := by
  have h : ∀ k : Fin 128, idx_main_v41 (idx_main_v42 (ix2 r (0 : Fin 1))) k = ix2 r k := fun k => funext fun a => by
    match a with
    | ⟨0, _⟩ => rfl
    | ⟨1, _⟩ => rfl
  rw [val_main_v44_apply, val_main_v42_apply, val_main_v41_apply, val_main_v43_apply, val_main_cst_1_apply, val_main_cst_2_apply]
  simp only [h]
  generalize val_main_v36 (F := Ideal) x0 x1 x2 x3 x4 x5 x6 x7 = t
  simp only [Ideal.hostDivf_def, Ideal.ofBits_def, Ideal.ofBits_zero_f32, zero_add]
  rfl

/-- The centred row, as the reference computes it for the variance: entry `(r, j)` minus the mean of row `r`. -/
theorem centre0_apply (r : Fin 50000) (j : Fin 128) :
    (val_main_v46 (F := Ideal) x0 x1 x2 x3 x4 x5 x6 x7) (ix2 r j) = centre (fun k : Fin 128 => (val_main_v36 (F := Ideal) x0 x1 x2 x3 x4 x5 x6 x7) (ix2 r k)) j := by
  have h : idx_main_v45 (ix2 r j) = ix2 r (0 : Fin 1) := funext fun a => by
    match a with
    | ⟨0, _⟩ => rfl
    | ⟨1, _⟩ => rfl
  rw [val_main_v46_apply, val_main_v45_apply, h, mean0_apply]
  generalize val_main_v36 (F := Ideal) x0 x1 x2 x3 x4 x5 x6 x7 = t
  simp only [Ideal.subf_def]
  rfl

/-- The centred row again, as the reference recomputes it for the normalised entry. -/
theorem centred0_apply (r : Fin 50000) (j : Fin 128) :
    (val_main_v53 (F := Ideal) x0 x1 x2 x3 x4 x5 x6 x7) (ix2 r j) = centre (fun k : Fin 128 => (val_main_v36 (F := Ideal) x0 x1 x2 x3 x4 x5 x6 x7) (ix2 r k)) j := by
  have h : idx_main_v52 (ix2 r j) = ix2 r (0 : Fin 1) := funext fun a => by
    match a with
    | ⟨0, _⟩ => rfl
    | ⟨1, _⟩ => rfl
  rw [val_main_v53_apply, val_main_v52_apply, h, mean0_apply]
  generalize val_main_v36 (F := Ideal) x0 x1 x2 x3 x4 x5 x6 x7 = t
  simp only [Ideal.subf_def]
  rfl

/-- The square of the centred entry. -/
theorem square0_apply (r : Fin 50000) (j : Fin 128) :
    (val_main_v47 (F := Ideal) x0 x1 x2 x3 x4 x5 x6 x7) (ix2 r j) = centre (fun k : Fin 128 => (val_main_v36 (F := Ideal) x0 x1 x2 x3 x4 x5 x6 x7) (ix2 r k)) j * centre (fun k : Fin 128 => (val_main_v36 (F := Ideal) x0 x1 x2 x3 x4 x5 x6 x7) (ix2 r k)) j := by
  rw [val_main_v47_apply, centre0_apply]
  generalize val_main_v36 (F := Ideal) x0 x1 x2 x3 x4 x5 x6 x7 = t
  exact Ideal.mulf_def _ _

/-- The variance of row `r`: the sum of the squares of the centred row divided by the word of 128. -/
theorem var0_apply (r : Fin 50000) :
    (val_main_v51 (F := Ideal) x0 x1 x2 x3 x4 x5 x6 x7) (ix2 r (0 : Fin 1)) = rowVar (fun k : Fin 128 => (val_main_v36 (F := Ideal) x0 x1 x2 x3 x4 x5 x6 x7) (ix2 r k)) := by
  have h : ∀ k : Fin 128, idx_main_v48 (idx_main_v49 (ix2 r (0 : Fin 1))) k = ix2 r k := fun k => funext fun a => by
    match a with
    | ⟨0, _⟩ => rfl
    | ⟨1, _⟩ => rfl
  rw [val_main_v51_apply, val_main_v49_apply, val_main_v48_apply, val_main_v50_apply, val_main_cst_3_apply, val_main_cst_4_apply]
  simp only [h, square0_apply]
  generalize val_main_v36 (F := Ideal) x0 x1 x2 x3 x4 x5 x6 x7 = t
  simp only [Ideal.hostDivf_def, Ideal.ofBits_def, Ideal.ofBits_zero_f32, zero_add]
  rfl

/-- The scale of row `r`: the reciprocal square root of the variance plus the small word. -/
theorem scale0_apply (r : Fin 50000) (j : Fin 128) :
    (val_main_v57 (F := Ideal) x0 x1 x2 x3 x4 x5 x6 x7) (ix2 r j) = Ideal.rsqrt (rowVar (fun k : Fin 128 => (val_main_v36 (F := Ideal) x0 x1 x2 x3 x4 x5 x6 x7) (ix2 r k)) + Ideal.ofBits .f32 0x3727C5AC#32) := by
  have h : idx_main_v57 (ix2 r j) = ix2 r (0 : Fin 1) := funext fun a => by
    match a with
    | ⟨0, _⟩ => rfl
    | ⟨1, _⟩ => rfl
  rw [val_main_v57_apply, h, val_main_v56_apply, val_main_v55_apply, var0_apply, val_main_v54_apply, val_main_cst_5_apply]
  generalize val_main_v36 (F := Ideal) x0 x1 x2 x3 x4 x5 x6 x7 = t
  simp only [Ideal.addf_def, Ideal.hostUnary_rsqrt_def, Ideal.ofBits_def]

/-- The gain at `(r, j)` is entry `j` of row 0 of the gain array. -/
theorem gain0_apply (r : Fin 50000) (j : Fin 128) :
    (val_main_v60 (F := Ideal) x8) (ix2 r j) = vecAt x8 (0 : Fin 3) j := by
  have hj := j.isLt
  have h : idx_main_v37 (idx_main_v38 (idx_main_v59 (idx_main_v60 (ix2 r j)))) = ix2 (0 : Fin 3) j := funext fun a => Fin.ext (by
    match a with
    | ⟨0, _⟩ => rfl
    | ⟨1, _⟩ => show j.val % 128 = j.val; omega)
  rw [val_main_v60_apply, val_main_v59_apply, val_main_v38_apply, val_main_v37_apply, h]
  rfl

/-- The bias at `(r, j)` is entry `j` of row 0 of the bias array. -/
theorem bias0_apply (r : Fin 50000) (j : Fin 128) :
    (val_main_v63 (F := Ideal) x9) (ix2 r j) = vecAt x9 (0 : Fin 3) j := by
  have hj := j.isLt
  have h : idx_main_v39 (idx_main_v40 (idx_main_v62 (idx_main_v63 (ix2 r j)))) = ix2 (0 : Fin 3) j := funext fun a => Fin.ext (by
    match a with
    | ⟨0, _⟩ => rfl
    | ⟨1, _⟩ => show j.val % 128 = j.val; omega)
  rw [val_main_v63_apply, val_main_v62_apply, val_main_v40_apply, val_main_v39_apply, h]
  rfl

/-- The normalised row: the centred entry times the scale, times the gain, plus the bias. -/
theorem norm0_apply (r : Fin 50000) (j : Fin 128) :
    (val_main_v64 (F := Ideal) x0 x1 x2 x3 x4 x5 x6 x7 x8 x9) (ix2 r j) = normalise (fun k : Fin 128 => (val_main_v36 (F := Ideal) x0 x1 x2 x3 x4 x5 x6 x7) (ix2 r k)) (vecAt x8 (0 : Fin 3)) (vecAt x9 (0 : Fin 3)) j := by
  rw [val_main_v64_apply, val_main_v61_apply, val_main_v58_apply, centred0_apply, scale0_apply, gain0_apply, bias0_apply]
  generalize val_main_v36 (F := Ideal) x0 x1 x2 x3 x4 x5 x6 x7 = t
  simp only [Ideal.addf_def, Ideal.mulf_def]
  rfl

/-- The first layer is the specification's layer, on the aggregated array and the previous array. -/
theorem layer0_eq :
    val_main_v65 (F := Ideal) x0 x1 x2 x3 x4 x5 x6 x7 x8 x9 = layerStage (val_main_v22 (F := Ideal) x0 x1 x2 x3 x4) (val_main_v9 (F := Ideal) x0 x3 x4) (slabT x5 (0 : Fin 3)) (slabT x7 (0 : Fin 3)) (vecAt x6 (0 : Fin 3)) (vecAt x8 (0 : Fin 3)) (vecAt x9 (0 : Fin 3)) := by
  funext i
  obtain ⟨r, j, rfl⟩ : ∃ (r : Fin 50000) (j : Fin 128), i = ix2 r j := ⟨i 0, i 1, eq_ix2 i⟩
  have hT : (fun k : Fin 128 => (val_main_v36 (F := Ideal) x0 x1 x2 x3 x4 x5 x6 x7) (ix2 r k)) = combine (rowOf (val_main_v22 (F := Ideal) x0 x1 x2 x3 x4) r) (rowOf (val_main_v9 (F := Ideal) x0 x3 x4) r) (slabT x5 (0 : Fin 3)) (slabT x7 (0 : Fin 3)) (vecAt x6 (0 : Fin 3)) :=
    funext fun k => pre0_apply x0 x1 x2 x3 x4 x5 x6 x7 r k
  rw [val_main_v65_apply, val_main_call1_v0_apply, val_main_call1_cst_apply, norm0_apply, hT]
  generalize val_main_v22 (F := Ideal) x0 x1 x2 x3 x4 = a
  generalize val_main_v9 (F := Ideal) x0 x3 x4 = h
  simp only [Ideal.maximumf_def, Ideal.ofBits_def]
  rfl

/-! ## The second layer

In each lemma the stages are first read at the index by rewriting, then every stage that is left is replaced by a
variable, and only then are the float operations read as the extended reals': no step compares two stages by
unfolding them. -/

/-- Before the normalisation, entry `(r, j)` of the second layer is the aggregated row `r` through the transposed slab 1 of the
    first weight array, plus the bias, plus the previous array's row `r` through the transposed slab 1 of the second: the
    reference adds the bias before the second product. -/
theorem pre1_apply (r : Fin 50000) (j : Fin 128) :
    (val_main_v92 (F := Ideal) x0 x1 x2 x3 x4 x5 x6 x7 x8 x9) (ix2 r j) = combine (rowOf (val_main_v78 (F := Ideal) x0 x1 x2 x3 x4 x5 x6 x7 x8 x9) r) (rowOf (val_main_v65 (F := Ideal) x0 x1 x2 x3 x4 x5 x6 x7 x8 x9) r) (slabT x5 (1 : Fin 3)) (slabT x7 (1 : Fin 3)) (vecAt x6 (1 : Fin 3)) j := by
  have hj := j.isLt
  have h1 : ∀ k : Fin 128, lidx_main_v82 (ix2 r j) k = ix2 r k := fun k => funext fun a => by
    match a with
    | ⟨0, _⟩ => rfl
    | ⟨1, _⟩ => rfl
  have h2 : ∀ k : Fin 128, idx_main_v79 (idx_main_v80 (idx_main_v81 (ridx_main_v82 (ix2 r j) k))) = ix3 (1 : Fin 3) j k := fun k => funext fun a => Fin.ext (by
    have hk := k.isLt
    match a with
    | ⟨0, _⟩ => rfl
    | ⟨1, _⟩ => show (j.val * 128 + k.val) / 128 % 128 = j.val; omega
    | ⟨2, _⟩ => show (j.val * 128 + k.val) % 128 = k.val; omega)
  have h3 : idx_main_v83 (idx_main_v84 (idx_main_v85 (idx_main_v86 (ix2 r j)))) = ix2 (1 : Fin 3) j := funext fun a => Fin.ext (by
    match a with
    | ⟨0, _⟩ => rfl
    | ⟨1, _⟩ => show j.val % 128 = j.val; omega)
  have h4 : ∀ k : Fin 128, lidx_main_v91 (ix2 r j) k = ix2 r k := fun k => funext fun a => by
    match a with
    | ⟨0, _⟩ => rfl
    | ⟨1, _⟩ => rfl
  have h5 : ∀ k : Fin 128, idx_main_v88 (idx_main_v89 (idx_main_v90 (ridx_main_v91 (ix2 r j) k))) = ix3 (1 : Fin 3) j k := fun k => funext fun a => Fin.ext (by
    have hk := k.isLt
    match a with
    | ⟨0, _⟩ => rfl
    | ⟨1, _⟩ => show (j.val * 128 + k.val) / 128 % 128 = j.val; omega
    | ⟨2, _⟩ => show (j.val * 128 + k.val) % 128 = k.val; omega)
  rw [val_main_v92_apply, val_main_v87_apply, val_main_v82_apply, val_main_v86_apply, val_main_v85_apply, val_main_v84_apply, val_main_v83_apply, h3, val_main_v91_apply]
  simp only [val_main_v81_apply, val_main_v80_apply, val_main_v79_apply, val_main_v90_apply, val_main_v89_apply, val_main_v88_apply, h1, h2, h4, h5]
  generalize val_main_v78 (F := Ideal) x0 x1 x2 x3 x4 x5 x6 x7 x8 x9 = a
  generalize val_main_v65 (F := Ideal) x0 x1 x2 x3 x4 x5 x6 x7 x8 x9 = h
  simp only [Ideal.addf_def]
  exact combine_bias_first (rowOf a r) (rowOf h r) (slabT x5 (1 : Fin 3)) (slabT x7 (1 : Fin 3)) (vecAt x6 (1 : Fin 3)) j

/-- The mean of row `r`: the sum of the row's 128 entries (the sum starts from the zero word, which denotes 0) divided by
    the word of 128. -/
theorem mean1_apply (r : Fin 50000) :
    (val_main_v100 (F := Ideal) x0 x1 x2 x3 x4 x5 x6 x7 x8 x9) (ix2 r (0 : Fin 1)) = rowMean (fun k : Fin 128 => (val_main_v92 (F := Ideal) x0 x1 x2 x3 x4 x5 x6 x7 x8 x9) (ix2 r k)) := by
  have h : ∀ k : Fin 128, idx_main_v97 (idx_main_v98 (ix2 r (0 : Fin 1))) k = ix2 r k := fun k => funext fun a => by
    match a with
    | ⟨0, _⟩ => rfl
    | ⟨1, _⟩ => rfl
  rw [val_main_v100_apply, val_main_v98_apply, val_main_v97_apply, val_main_v99_apply, val_main_cst_9_apply, val_main_cst_10_apply]
  simp only [h]
  generalize val_main_v92 (F := Ideal) x0 x1 x2 x3 x4 x5 x6 x7 x8 x9 = t
  simp only [Ideal.hostDivf_def, Ideal.ofBits_def, Ideal.ofBits_zero_f32, zero_add]
  rfl

/-- The centred row, as the reference computes it for the variance: entry `(r, j)` minus the mean of row `r`. -/
theorem centre1_apply (r : Fin 50000) (j : Fin 128) :
    (val_main_v102 (F := Ideal) x0 x1 x2 x3 x4 x5 x6 x7 x8 x9) (ix2 r j) = centre (fun k : Fin 128 => (val_main_v92 (F := Ideal) x0 x1 x2 x3 x4 x5 x6 x7 x8 x9) (ix2 r k)) j := by
  have h : idx_main_v101 (ix2 r j) = ix2 r (0 : Fin 1) := funext fun a => by
    match a with
    | ⟨0, _⟩ => rfl
    | ⟨1, _⟩ => rfl
  rw [val_main_v102_apply, val_main_v101_apply, h, mean1_apply]
  generalize val_main_v92 (F := Ideal) x0 x1 x2 x3 x4 x5 x6 x7 x8 x9 = t
  simp only [Ideal.subf_def]
  rfl

/-- The centred row again, as the reference recomputes it for the normalised entry. -/
theorem centred1_apply (r : Fin 50000) (j : Fin 128) :
    (val_main_v109 (F := Ideal) x0 x1 x2 x3 x4 x5 x6 x7 x8 x9) (ix2 r j) = centre (fun k : Fin 128 => (val_main_v92 (F := Ideal) x0 x1 x2 x3 x4 x5 x6 x7 x8 x9) (ix2 r k)) j := by
  have h : idx_main_v108 (ix2 r j) = ix2 r (0 : Fin 1) := funext fun a => by
    match a with
    | ⟨0, _⟩ => rfl
    | ⟨1, _⟩ => rfl
  rw [val_main_v109_apply, val_main_v108_apply, h, mean1_apply]
  generalize val_main_v92 (F := Ideal) x0 x1 x2 x3 x4 x5 x6 x7 x8 x9 = t
  simp only [Ideal.subf_def]
  rfl

/-- The square of the centred entry. -/
theorem square1_apply (r : Fin 50000) (j : Fin 128) :
    (val_main_v103 (F := Ideal) x0 x1 x2 x3 x4 x5 x6 x7 x8 x9) (ix2 r j) = centre (fun k : Fin 128 => (val_main_v92 (F := Ideal) x0 x1 x2 x3 x4 x5 x6 x7 x8 x9) (ix2 r k)) j * centre (fun k : Fin 128 => (val_main_v92 (F := Ideal) x0 x1 x2 x3 x4 x5 x6 x7 x8 x9) (ix2 r k)) j := by
  rw [val_main_v103_apply, centre1_apply]
  generalize val_main_v92 (F := Ideal) x0 x1 x2 x3 x4 x5 x6 x7 x8 x9 = t
  exact Ideal.mulf_def _ _

/-- The variance of row `r`: the sum of the squares of the centred row divided by the word of 128. -/
theorem var1_apply (r : Fin 50000) :
    (val_main_v107 (F := Ideal) x0 x1 x2 x3 x4 x5 x6 x7 x8 x9) (ix2 r (0 : Fin 1)) = rowVar (fun k : Fin 128 => (val_main_v92 (F := Ideal) x0 x1 x2 x3 x4 x5 x6 x7 x8 x9) (ix2 r k)) := by
  have h : ∀ k : Fin 128, idx_main_v104 (idx_main_v105 (ix2 r (0 : Fin 1))) k = ix2 r k := fun k => funext fun a => by
    match a with
    | ⟨0, _⟩ => rfl
    | ⟨1, _⟩ => rfl
  rw [val_main_v107_apply, val_main_v105_apply, val_main_v104_apply, val_main_v106_apply, val_main_cst_11_apply, val_main_cst_12_apply]
  simp only [h, square1_apply]
  generalize val_main_v92 (F := Ideal) x0 x1 x2 x3 x4 x5 x6 x7 x8 x9 = t
  simp only [Ideal.hostDivf_def, Ideal.ofBits_def, Ideal.ofBits_zero_f32, zero_add]
  rfl

/-- The scale of row `r`: the reciprocal square root of the variance plus the small word. -/
theorem scale1_apply (r : Fin 50000) (j : Fin 128) :
    (val_main_v113 (F := Ideal) x0 x1 x2 x3 x4 x5 x6 x7 x8 x9) (ix2 r j) = Ideal.rsqrt (rowVar (fun k : Fin 128 => (val_main_v92 (F := Ideal) x0 x1 x2 x3 x4 x5 x6 x7 x8 x9) (ix2 r k)) + Ideal.ofBits .f32 0x3727C5AC#32) := by
  have h : idx_main_v113 (ix2 r j) = ix2 r (0 : Fin 1) := funext fun a => by
    match a with
    | ⟨0, _⟩ => rfl
    | ⟨1, _⟩ => rfl
  rw [val_main_v113_apply, h, val_main_v112_apply, val_main_v111_apply, var1_apply, val_main_v110_apply, val_main_cst_13_apply]
  generalize val_main_v92 (F := Ideal) x0 x1 x2 x3 x4 x5 x6 x7 x8 x9 = t
  simp only [Ideal.addf_def, Ideal.hostUnary_rsqrt_def, Ideal.ofBits_def]

/-- The gain at `(r, j)` is entry `j` of row 1 of the gain array. -/
theorem gain1_apply (r : Fin 50000) (j : Fin 128) :
    (val_main_v116 (F := Ideal) x8) (ix2 r j) = vecAt x8 (1 : Fin 3) j := by
  have hj := j.isLt
  have h : idx_main_v93 (idx_main_v94 (idx_main_v115 (idx_main_v116 (ix2 r j)))) = ix2 (1 : Fin 3) j := funext fun a => Fin.ext (by
    match a with
    | ⟨0, _⟩ => rfl
    | ⟨1, _⟩ => show j.val % 128 = j.val; omega)
  rw [val_main_v116_apply, val_main_v115_apply, val_main_v94_apply, val_main_v93_apply, h]
  rfl

/-- The bias at `(r, j)` is entry `j` of row 1 of the bias array. -/
theorem bias1_apply (r : Fin 50000) (j : Fin 128) :
    (val_main_v119 (F := Ideal) x9) (ix2 r j) = vecAt x9 (1 : Fin 3) j := by
  have hj := j.isLt
  have h : idx_main_v95 (idx_main_v96 (idx_main_v118 (idx_main_v119 (ix2 r j)))) = ix2 (1 : Fin 3) j := funext fun a => Fin.ext (by
    match a with
    | ⟨0, _⟩ => rfl
    | ⟨1, _⟩ => show j.val % 128 = j.val; omega)
  rw [val_main_v119_apply, val_main_v118_apply, val_main_v96_apply, val_main_v95_apply, h]
  rfl

/-- The normalised row: the centred entry times the scale, times the gain, plus the bias. -/
theorem norm1_apply (r : Fin 50000) (j : Fin 128) :
    (val_main_v120 (F := Ideal) x0 x1 x2 x3 x4 x5 x6 x7 x8 x9) (ix2 r j) = normalise (fun k : Fin 128 => (val_main_v92 (F := Ideal) x0 x1 x2 x3 x4 x5 x6 x7 x8 x9) (ix2 r k)) (vecAt x8 (1 : Fin 3)) (vecAt x9 (1 : Fin 3)) j := by
  rw [val_main_v120_apply, val_main_v117_apply, val_main_v114_apply, centred1_apply, scale1_apply, gain1_apply, bias1_apply]
  generalize val_main_v92 (F := Ideal) x0 x1 x2 x3 x4 x5 x6 x7 x8 x9 = t
  simp only [Ideal.addf_def, Ideal.mulf_def]
  rfl

/-- The second layer is the specification's layer with the input stage's array as residual, on the aggregated array and the previous array. -/
theorem layer1_eq :
    val_main_v122 (F := Ideal) x0 x1 x2 x3 x4 x5 x6 x7 x8 x9 = layerResStage (val_main_v78 (F := Ideal) x0 x1 x2 x3 x4 x5 x6 x7 x8 x9) (val_main_v65 (F := Ideal) x0 x1 x2 x3 x4 x5 x6 x7 x8 x9) (slabT x5 (1 : Fin 3)) (slabT x7 (1 : Fin 3)) (vecAt x6 (1 : Fin 3)) (vecAt x8 (1 : Fin 3)) (vecAt x9 (1 : Fin 3)) (val_main_v9 (F := Ideal) x0 x3 x4) := by
  funext i
  obtain ⟨r, j, rfl⟩ : ∃ (r : Fin 50000) (j : Fin 128), i = ix2 r j := ⟨i 0, i 1, eq_ix2 i⟩
  have hT : (fun k : Fin 128 => (val_main_v92 (F := Ideal) x0 x1 x2 x3 x4 x5 x6 x7 x8 x9) (ix2 r k)) = combine (rowOf (val_main_v78 (F := Ideal) x0 x1 x2 x3 x4 x5 x6 x7 x8 x9) r) (rowOf (val_main_v65 (F := Ideal) x0 x1 x2 x3 x4 x5 x6 x7 x8 x9) r) (slabT x5 (1 : Fin 3)) (slabT x7 (1 : Fin 3)) (vecAt x6 (1 : Fin 3)) :=
    funext fun k => pre1_apply x0 x1 x2 x3 x4 x5 x6 x7 x8 x9 r k
  rw [val_main_v122_apply, val_main_call2_v0_apply, val_main_call2_cst_apply, val_main_v121_apply, norm1_apply, hT]
  generalize val_main_v78 (F := Ideal) x0 x1 x2 x3 x4 x5 x6 x7 x8 x9 = a
  generalize val_main_v65 (F := Ideal) x0 x1 x2 x3 x4 x5 x6 x7 x8 x9 = h
  generalize val_main_v9 (F := Ideal) x0 x3 x4 = res
  simp only [Ideal.maximumf_def, Ideal.addf_def, Ideal.ofBits_def]
  rfl

/-! ## The third layer

In each lemma the stages are first read at the index by rewriting, then every stage that is left is replaced by a
variable, and only then are the float operations read as the extended reals': no step compares two stages by
unfolding them. -/

/-- Before the normalisation, entry `(r, j)` of the third layer is the aggregated row `r` through the transposed slab 2 of the
    first weight array, plus the bias, plus the previous array's row `r` through the transposed slab 2 of the second: the
    reference adds the bias before the second product. -/
theorem pre2_apply (r : Fin 50000) (j : Fin 128) :
    (val_main_v149 (F := Ideal) x0 x1 x2 x3 x4 x5 x6 x7 x8 x9) (ix2 r j) = combine (rowOf (val_main_v135 (F := Ideal) x0 x1 x2 x3 x4 x5 x6 x7 x8 x9) r) (rowOf (val_main_v122 (F := Ideal) x0 x1 x2 x3 x4 x5 x6 x7 x8 x9) r) (slabT x5 (2 : Fin 3)) (slabT x7 (2 : Fin 3)) (vecAt x6 (2 : Fin 3)) j := by
  have hj := j.isLt
  have h1 : ∀ k : Fin 128, lidx_main_v139 (ix2 r j) k = ix2 r k := fun k => funext fun a => by
    match a with
    | ⟨0, _⟩ => rfl
    | ⟨1, _⟩ => rfl
  have h2 : ∀ k : Fin 128, idx_main_v136 (idx_main_v137 (idx_main_v138 (ridx_main_v139 (ix2 r j) k))) = ix3 (2 : Fin 3) j k := fun k => funext fun a => Fin.ext (by
    have hk := k.isLt
    match a with
    | ⟨0, _⟩ => rfl
    | ⟨1, _⟩ => show (j.val * 128 + k.val) / 128 % 128 = j.val; omega
    | ⟨2, _⟩ => show (j.val * 128 + k.val) % 128 = k.val; omega)
  have h3 : idx_main_v140 (idx_main_v141 (idx_main_v142 (idx_main_v143 (ix2 r j)))) = ix2 (2 : Fin 3) j := funext fun a => Fin.ext (by
    match a with
    | ⟨0, _⟩ => rfl
    | ⟨1, _⟩ => show j.val % 128 = j.val; omega)
  have h4 : ∀ k : Fin 128, lidx_main_v148 (ix2 r j) k = ix2 r k := fun k => funext fun a => by
    match a with
    | ⟨0, _⟩ => rfl
    | ⟨1, _⟩ => rfl
  have h5 : ∀ k : Fin 128, idx_main_v145 (idx_main_v146 (idx_main_v147 (ridx_main_v148 (ix2 r j) k))) = ix3 (2 : Fin 3) j k := fun k => funext fun a => Fin.ext (by
    have hk := k.isLt
    match a with
    | ⟨0, _⟩ => rfl
    | ⟨1, _⟩ => show (j.val * 128 + k.val) / 128 % 128 = j.val; omega
    | ⟨2, _⟩ => show (j.val * 128 + k.val) % 128 = k.val; omega)
  rw [val_main_v149_apply, val_main_v144_apply, val_main_v139_apply, val_main_v143_apply, val_main_v142_apply, val_main_v141_apply, val_main_v140_apply, h3, val_main_v148_apply]
  simp only [val_main_v138_apply, val_main_v137_apply, val_main_v136_apply, val_main_v147_apply, val_main_v146_apply, val_main_v145_apply, h1, h2, h4, h5]
  generalize val_main_v135 (F := Ideal) x0 x1 x2 x3 x4 x5 x6 x7 x8 x9 = a
  generalize val_main_v122 (F := Ideal) x0 x1 x2 x3 x4 x5 x6 x7 x8 x9 = h
  simp only [Ideal.addf_def]
  exact combine_bias_first (rowOf a r) (rowOf h r) (slabT x5 (2 : Fin 3)) (slabT x7 (2 : Fin 3)) (vecAt x6 (2 : Fin 3)) j

/-- The mean of row `r`: the sum of the row's 128 entries (the sum starts from the zero word, which denotes 0) divided by
    the word of 128. -/
theorem mean2_apply (r : Fin 50000) :
    (val_main_v157 (F := Ideal) x0 x1 x2 x3 x4 x5 x6 x7 x8 x9) (ix2 r (0 : Fin 1)) = rowMean (fun k : Fin 128 => (val_main_v149 (F := Ideal) x0 x1 x2 x3 x4 x5 x6 x7 x8 x9) (ix2 r k)) := by
  have h : ∀ k : Fin 128, idx_main_v154 (idx_main_v155 (ix2 r (0 : Fin 1))) k = ix2 r k := fun k => funext fun a => by
    match a with
    | ⟨0, _⟩ => rfl
    | ⟨1, _⟩ => rfl
  rw [val_main_v157_apply, val_main_v155_apply, val_main_v154_apply, val_main_v156_apply, val_main_cst_17_apply, val_main_cst_18_apply]
  simp only [h]
  generalize val_main_v149 (F := Ideal) x0 x1 x2 x3 x4 x5 x6 x7 x8 x9 = t
  simp only [Ideal.hostDivf_def, Ideal.ofBits_def, Ideal.ofBits_zero_f32, zero_add]
  rfl

/-- The centred row, as the reference computes it for the variance: entry `(r, j)` minus the mean of row `r`. -/
theorem centre2_apply (r : Fin 50000) (j : Fin 128) :
    (val_main_v159 (F := Ideal) x0 x1 x2 x3 x4 x5 x6 x7 x8 x9) (ix2 r j) = centre (fun k : Fin 128 => (val_main_v149 (F := Ideal) x0 x1 x2 x3 x4 x5 x6 x7 x8 x9) (ix2 r k)) j := by
  have h : idx_main_v158 (ix2 r j) = ix2 r (0 : Fin 1) := funext fun a => by
    match a with
    | ⟨0, _⟩ => rfl
    | ⟨1, _⟩ => rfl
  rw [val_main_v159_apply, val_main_v158_apply, h, mean2_apply]
  generalize val_main_v149 (F := Ideal) x0 x1 x2 x3 x4 x5 x6 x7 x8 x9 = t
  simp only [Ideal.subf_def]
  rfl

/-- The centred row again, as the reference recomputes it for the normalised entry. -/
theorem centred2_apply (r : Fin 50000) (j : Fin 128) :
    (val_main_v166 (F := Ideal) x0 x1 x2 x3 x4 x5 x6 x7 x8 x9) (ix2 r j) = centre (fun k : Fin 128 => (val_main_v149 (F := Ideal) x0 x1 x2 x3 x4 x5 x6 x7 x8 x9) (ix2 r k)) j := by
  have h : idx_main_v165 (ix2 r j) = ix2 r (0 : Fin 1) := funext fun a => by
    match a with
    | ⟨0, _⟩ => rfl
    | ⟨1, _⟩ => rfl
  rw [val_main_v166_apply, val_main_v165_apply, h, mean2_apply]
  generalize val_main_v149 (F := Ideal) x0 x1 x2 x3 x4 x5 x6 x7 x8 x9 = t
  simp only [Ideal.subf_def]
  rfl

/-- The square of the centred entry. -/
theorem square2_apply (r : Fin 50000) (j : Fin 128) :
    (val_main_v160 (F := Ideal) x0 x1 x2 x3 x4 x5 x6 x7 x8 x9) (ix2 r j) = centre (fun k : Fin 128 => (val_main_v149 (F := Ideal) x0 x1 x2 x3 x4 x5 x6 x7 x8 x9) (ix2 r k)) j * centre (fun k : Fin 128 => (val_main_v149 (F := Ideal) x0 x1 x2 x3 x4 x5 x6 x7 x8 x9) (ix2 r k)) j := by
  rw [val_main_v160_apply, centre2_apply]
  generalize val_main_v149 (F := Ideal) x0 x1 x2 x3 x4 x5 x6 x7 x8 x9 = t
  exact Ideal.mulf_def _ _

/-- The variance of row `r`: the sum of the squares of the centred row divided by the word of 128. -/
theorem var2_apply (r : Fin 50000) :
    (val_main_v164 (F := Ideal) x0 x1 x2 x3 x4 x5 x6 x7 x8 x9) (ix2 r (0 : Fin 1)) = rowVar (fun k : Fin 128 => (val_main_v149 (F := Ideal) x0 x1 x2 x3 x4 x5 x6 x7 x8 x9) (ix2 r k)) := by
  have h : ∀ k : Fin 128, idx_main_v161 (idx_main_v162 (ix2 r (0 : Fin 1))) k = ix2 r k := fun k => funext fun a => by
    match a with
    | ⟨0, _⟩ => rfl
    | ⟨1, _⟩ => rfl
  rw [val_main_v164_apply, val_main_v162_apply, val_main_v161_apply, val_main_v163_apply, val_main_cst_19_apply, val_main_cst_20_apply]
  simp only [h, square2_apply]
  generalize val_main_v149 (F := Ideal) x0 x1 x2 x3 x4 x5 x6 x7 x8 x9 = t
  simp only [Ideal.hostDivf_def, Ideal.ofBits_def, Ideal.ofBits_zero_f32, zero_add]
  rfl

/-- The scale of row `r`: the reciprocal square root of the variance plus the small word. -/
theorem scale2_apply (r : Fin 50000) (j : Fin 128) :
    (val_main_v170 (F := Ideal) x0 x1 x2 x3 x4 x5 x6 x7 x8 x9) (ix2 r j) = Ideal.rsqrt (rowVar (fun k : Fin 128 => (val_main_v149 (F := Ideal) x0 x1 x2 x3 x4 x5 x6 x7 x8 x9) (ix2 r k)) + Ideal.ofBits .f32 0x3727C5AC#32) := by
  have h : idx_main_v170 (ix2 r j) = ix2 r (0 : Fin 1) := funext fun a => by
    match a with
    | ⟨0, _⟩ => rfl
    | ⟨1, _⟩ => rfl
  rw [val_main_v170_apply, h, val_main_v169_apply, val_main_v168_apply, var2_apply, val_main_v167_apply, val_main_cst_21_apply]
  generalize val_main_v149 (F := Ideal) x0 x1 x2 x3 x4 x5 x6 x7 x8 x9 = t
  simp only [Ideal.addf_def, Ideal.hostUnary_rsqrt_def, Ideal.ofBits_def]

/-- The gain at `(r, j)` is entry `j` of row 2 of the gain array. -/
theorem gain2_apply (r : Fin 50000) (j : Fin 128) :
    (val_main_v173 (F := Ideal) x8) (ix2 r j) = vecAt x8 (2 : Fin 3) j := by
  have hj := j.isLt
  have h : idx_main_v150 (idx_main_v151 (idx_main_v172 (idx_main_v173 (ix2 r j)))) = ix2 (2 : Fin 3) j := funext fun a => Fin.ext (by
    match a with
    | ⟨0, _⟩ => rfl
    | ⟨1, _⟩ => show j.val % 128 = j.val; omega)
  rw [val_main_v173_apply, val_main_v172_apply, val_main_v151_apply, val_main_v150_apply, h]
  rfl

/-- The bias at `(r, j)` is entry `j` of row 2 of the bias array. -/
theorem bias2_apply (r : Fin 50000) (j : Fin 128) :
    (val_main_v176 (F := Ideal) x9) (ix2 r j) = vecAt x9 (2 : Fin 3) j := by
  have hj := j.isLt
  have h : idx_main_v152 (idx_main_v153 (idx_main_v175 (idx_main_v176 (ix2 r j)))) = ix2 (2 : Fin 3) j := funext fun a => Fin.ext (by
    match a with
    | ⟨0, _⟩ => rfl
    | ⟨1, _⟩ => show j.val % 128 = j.val; omega)
  rw [val_main_v176_apply, val_main_v175_apply, val_main_v153_apply, val_main_v152_apply, h]
  rfl

/-- The normalised row: the centred entry times the scale, times the gain, plus the bias. -/
theorem norm2_apply (r : Fin 50000) (j : Fin 128) :
    (val_main_v177 (F := Ideal) x0 x1 x2 x3 x4 x5 x6 x7 x8 x9) (ix2 r j) = normalise (fun k : Fin 128 => (val_main_v149 (F := Ideal) x0 x1 x2 x3 x4 x5 x6 x7 x8 x9) (ix2 r k)) (vecAt x8 (2 : Fin 3)) (vecAt x9 (2 : Fin 3)) j := by
  rw [val_main_v177_apply, val_main_v174_apply, val_main_v171_apply, centred2_apply, scale2_apply, gain2_apply, bias2_apply]
  generalize val_main_v149 (F := Ideal) x0 x1 x2 x3 x4 x5 x6 x7 x8 x9 = t
  simp only [Ideal.addf_def, Ideal.mulf_def]
  rfl

/-- The third layer is the specification's layer, on the aggregated array and the previous array. -/
theorem layer2_eq :
    val_main_v178 (F := Ideal) x0 x1 x2 x3 x4 x5 x6 x7 x8 x9 = layerStage (val_main_v135 (F := Ideal) x0 x1 x2 x3 x4 x5 x6 x7 x8 x9) (val_main_v122 (F := Ideal) x0 x1 x2 x3 x4 x5 x6 x7 x8 x9) (slabT x5 (2 : Fin 3)) (slabT x7 (2 : Fin 3)) (vecAt x6 (2 : Fin 3)) (vecAt x8 (2 : Fin 3)) (vecAt x9 (2 : Fin 3)) := by
  funext i
  obtain ⟨r, j, rfl⟩ : ∃ (r : Fin 50000) (j : Fin 128), i = ix2 r j := ⟨i 0, i 1, eq_ix2 i⟩
  have hT : (fun k : Fin 128 => (val_main_v149 (F := Ideal) x0 x1 x2 x3 x4 x5 x6 x7 x8 x9) (ix2 r k)) = combine (rowOf (val_main_v135 (F := Ideal) x0 x1 x2 x3 x4 x5 x6 x7 x8 x9) r) (rowOf (val_main_v122 (F := Ideal) x0 x1 x2 x3 x4 x5 x6 x7 x8 x9) r) (slabT x5 (2 : Fin 3)) (slabT x7 (2 : Fin 3)) (vecAt x6 (2 : Fin 3)) :=
    funext fun k => pre2_apply x0 x1 x2 x3 x4 x5 x6 x7 x8 x9 r k
  rw [val_main_v178_apply, val_main_call3_v0_apply, val_main_call3_cst_apply, norm2_apply, hT]
  generalize val_main_v135 (F := Ideal) x0 x1 x2 x3 x4 x5 x6 x7 x8 x9 = a
  generalize val_main_v122 (F := Ideal) x0 x1 x2 x3 x4 x5 x6 x7 x8 x9 = h
  simp only [Ideal.maximumf_def, Ideal.ofBits_def]
  rfl

/-! ## The output stage -/

/-- The output stage: entry `(r, j)` is the sum over `k` of the third layer's `(r, k)` times `w (j, k)`, plus `b j`. -/
theorem outputStage_eq :
    val_main_v183 (F := Ideal) x0 x1 x2 x3 x4 x5 x6 x7 x8 x9 x10 x11 = outputStage (val_main_v178 (F := Ideal) x0 x1 x2 x3 x4 x5 x6 x7 x8 x9) (matT x10) (vec x11) := by
  funext i
  obtain ⟨r, j, rfl⟩ : ∃ (r : Fin 50000) (j : Fin 128), i = ix2 r j := ⟨i 0, i 1, eq_ix2 i⟩
  have hl : ∀ k : Fin 128, lidx_main_v180 (ix2 r j) k = ix2 r k := fun k => funext fun a => by
    match a with
    | ⟨0, _⟩ => rfl
    | ⟨1, _⟩ => rfl
  have hr : ∀ k : Fin 128, idx_main_v179 (ridx_main_v180 (ix2 r j) k) = ix2 j k := fun k => funext fun a => by
    match a with
    | ⟨0, _⟩ => rfl
    | ⟨1, _⟩ => rfl
  have hb : idx_main_v181 (idx_main_v182 (ix2 r j)) = ix1 j := funext fun a => by
    match a with
    | ⟨0, _⟩ => rfl
  rw [val_main_v183_apply, val_main_v180_apply, val_main_v182_apply, val_main_v181_apply, hb]
  simp only [val_main_v179_apply, hl, hr]
  generalize val_main_v178 (F := Ideal) x0 x1 x2 x3 x4 x5 x6 x7 x8 x9 = h
  simp only [Ideal.addf_def]
  rfl

/-! ## The whole stack -/

/-- The reference's first result is the specification's third hidden array, over the reference's aggregation. -/
theorem hidden3_eq :
    val_main_v178 (F := Ideal) x0 x1 x2 x3 x4 x5 x6 x7 x8 x9 = hidden3 (fun h => agg h x1 x2) (weightsOf x3 x4 x5 x6 x7 x8 x9 x10 x11) x0 := by
  rw [layer2_eq, aggregation2_eq, layer1_eq, aggregation1_eq, layer0_eq, aggregation0_eq, input_eq]
  simp only [hidden3, hidden2, hidden1, hidden0, weightsOf]

/-- The reference's second result is the specification's output, over the reference's aggregation. -/
theorem output_eq :
    val_main_v183 (F := Ideal) x0 x1 x2 x3 x4 x5 x6 x7 x8 x9 x10 x11 = output (fun h => agg h x1 x2) (weightsOf x3 x4 x5 x6 x7 x8 x9 x10 x11) x0 := by
  rw [outputStage_eq, hidden3_eq x0 x1 x2 x3 x4 x5 x6 x7 x8 x9 x10 x11]
  simp only [output, weightsOf]

end Cert.ReferenceIdeal.Stages

end
-- ==== Proof.Aggregation.lean ====
/-
  The two programs aggregate along the edges alike.

  Between its launches the kernel program's host gathers the rows of the previous array at the edges' source nodes —
  narrowing the array to a shorter float format first and widening the gathered rows back —, scales them by the edge
  weights and adds them into the destination nodes' rows of a zero array. The reference does the same without the two
  changes of format. Over the extended reals a change of float format is the identity, so the two chains are ONE
  function of the array they aggregate, of the edge array and of the edge weights: the same operations on the same
  index vectors (row 0 of the edge array for the sources, a negative index wrapped round by 50000; row 1 for the
  destinations).
-/
import proofs.«170463_j5016521802571_2_alg».proof.Proof.KernelValue
import proofs.«170463_j5016521802571_2_alg».proof.Proof.ReferenceStages

set_option maxRecDepth 16384

noncomputable section

namespace Cert.Aggregation

open Idealize.ShloMosaic Idealize.ShloMosaic.TcCoe Idealize.SL.Sem Cert.GraphConv

variable (m : (ℓ : Loc Cert.KernelIdeal.nD Cert.KernelIdeal.τ Cert.KernelIdeal.sig) → Buf (Elt Ideal) ℓ)
  (ρ : Dev Cert.KernelIdeal.nD → PrngReg)

set_option maxHeartbeats 4000000 in
/-- The kernel program's aggregation of an array is the reference's aggregation of it, at the kernel program's own
    edge array and edge weights. -/
theorem agg_eq (c : Dev Cert.KernelIdeal.nD) (h : Feat) :
    Cert.KernelIdeal.Stack.agg m ρ c h = Cert.ReferenceIdeal.Stages.agg h (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  unfold Cert.KernelIdeal.Stack.agg
  rw [Cert.KernelIdeal.Fold.W1_src, Cert.KernelIdeal.Fold.W1_dst]
  rfl

/-- THE TWO STACKS AGREE: at arguments that agree, the stack over the reference's aggregation and the reference's
    weights is the stack over the kernel program's aggregation and the kernel program's weights — both results. -/
theorem results_agree (c : Dev Cert.KernelIdeal.nD)
    (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S800000, .f32⟩ : BufTy).Contents (Elt Ideal))
    (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S3x128x128, .f32⟩ : BufTy).Contents (Elt Ideal)) (x6 : (⟨Cert.ReferenceIdeal.S3x128, .f32⟩ : BufTy).Contents (Elt Ideal))
    (x7 : (⟨Cert.ReferenceIdeal.S3x128x128, .f32⟩ : BufTy).Contents (Elt Ideal)) (x8 x9 : (⟨Cert.ReferenceIdeal.S3x128, .f32⟩ : BufTy).Contents (Elt Ideal)) (x10 : (⟨Cert.ReferenceIdeal.S128x128, .f32⟩ : BufTy).Contents (Elt Ideal)) (x11 : (⟨Cert.ReferenceIdeal.S128, .f32⟩ : BufTy).Contents (Elt Ideal))
    (h0 : x0 = (m ((c.tc : Thread Cert.KernelIdeal.nD Cert.KernelIdeal.τ).loc Cert.KernelIdeal.main_arg0))) (h1 : x1 = (m ((c.tc : Thread Cert.KernelIdeal.nD Cert.KernelIdeal.τ).loc Cert.KernelIdeal.main_arg1))) (h2 : x2 = (m ((c.tc : Thread Cert.KernelIdeal.nD Cert.KernelIdeal.τ).loc Cert.KernelIdeal.main_arg2))) (h3 : x3 = (m ((c.tc : Thread Cert.KernelIdeal.nD Cert.KernelIdeal.τ).loc Cert.KernelIdeal.main_arg3))) (h4 : x4 = (m ((c.tc : Thread Cert.KernelIdeal.nD Cert.KernelIdeal.τ).loc Cert.KernelIdeal.main_arg4))) (h5 : x5 = (m ((c.tc : Thread Cert.KernelIdeal.nD Cert.KernelIdeal.τ).loc Cert.KernelIdeal.main_arg5))) (h6 : x6 = (m ((c.tc : Thread Cert.KernelIdeal.nD Cert.KernelIdeal.τ).loc Cert.KernelIdeal.main_arg6))) (h7 : x7 = (m ((c.tc : Thread Cert.KernelIdeal.nD Cert.KernelIdeal.τ).loc Cert.KernelIdeal.main_arg7))) (h8 : x8 = (m ((c.tc : Thread Cert.KernelIdeal.nD Cert.KernelIdeal.τ).loc Cert.KernelIdeal.main_arg8))) (h9 : x9 = (m ((c.tc : Thread Cert.KernelIdeal.nD Cert.KernelIdeal.τ).loc Cert.KernelIdeal.main_arg9))) (h10 : x10 = (m ((c.tc : Thread Cert.KernelIdeal.nD Cert.KernelIdeal.τ).loc Cert.KernelIdeal.main_arg10))) (h11 : x11 = (m ((c.tc : Thread Cert.KernelIdeal.nD Cert.KernelIdeal.τ).loc Cert.KernelIdeal.main_arg11))) :
    hidden3 (fun h => Cert.ReferenceIdeal.Stages.agg h x1 x2) (weightsOf x3 x4 x5 x6 x7 x8 x9 x10 x11) x0
        = hidden3 (Cert.KernelIdeal.Stack.agg m ρ c) (Cert.KernelIdeal.Stack.weights m c) (m ((c.tc : Thread Cert.KernelIdeal.nD Cert.KernelIdeal.τ).loc Cert.KernelIdeal.main_arg0))
    ∧ output (fun h => Cert.ReferenceIdeal.Stages.agg h x1 x2) (weightsOf x3 x4 x5 x6 x7 x8 x9 x10 x11) x0
        = output (Cert.KernelIdeal.Stack.agg m ρ c) (Cert.KernelIdeal.Stack.weights m c) (m ((c.tc : Thread Cert.KernelIdeal.nD Cert.KernelIdeal.τ).loc Cert.KernelIdeal.main_arg0)) := by
  subst h0 h1 h2 h3 h4 h5 h6 h7 h8 h9 h10 h11
  have e : (fun h => Cert.ReferenceIdeal.Stages.agg h (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = Cert.KernelIdeal.Stack.agg m ρ c :=
    funext fun h => (agg_eq m ρ c h).symm
  rw [e]
  exact ⟨rfl, rfl⟩

end Cert.Aggregation

end
-- ==== Proof.lean ====
/-
  The certificate of a stack of graph-convolution layers: a kernel program of five launches among host operations
  against a reference of 216 host operations, equal over the extended reals.

  Both programs compute, on 50000 nodes of 128 features: an input stage (a row through a transposed matrix, plus a
  bias, clamped below at zero); three layers, each aggregating the previous array along 800000 weighted edges, combining
  the aggregated row and the node's own row through two matrices and a bias, normalising the row (mean, variance plus
  a small constant, reciprocal square root, gain, bias) and clamping below at zero, the second layer adding the input
  stage's array before the clamp; and an output stage. The kernel program does the dense stages in launches over blocks
  of 5000 rows, narrowing the matrix products' operands to a shorter float format, and adds the layer's bias after the
  second product where the reference adds it before; it narrows the gathered rows too.

  Over the extended reals a change of float format is the identity, a matrix product into zero and a host contraction
  are the same finite sum, a lane sum and a host sum from the zero word are the same finite sum, and the two orders of
  adding the bias agree by commutativity and associativity of addition — which hold on all of the extended reals, so the
  precondition (every float input finite) is never opened. Hence:

  * the kernel program's run ends with result 0 the third layer's array and result 1 the output stage's array of the
    stack `Cert.GraphConv` over the program's own aggregation (`Cert.KernelIdeal.Stack.run`: each launch's result array
    is its stage of the arrays it finds, the fold of the host operations in between traced back to the arguments);
  * the reference's run ends with every buffer at the fold of its 216 operations (`Cert.ReferenceIdeal.Fold.run`), the
    two results at their stage functions of the arguments, which are the same stack over the reference's aggregation
    (`Cert.ReferenceIdeal.Stages.hidden3_eq`, `output_eq`);
  * the two aggregations are one function (`Cert.Aggregation.agg_eq`), so at arguments that agree the results are equal.

  The three frames: the two kernel programs' are the launch theorem over their launches; the reference's is its run
  with the results dropped. Nothing was rewritten by the idealization, so `preserves` asks nothing.
-/
import proofs.«170463_j5016521802571_2_alg».proof.Defs
import proofs.«170463_j5016521802571_2_alg».proof.Proof.Gen.Kernel
import proofs.«170463_j5016521802571_2_alg».proof.Proof.Gen.Kernel.Skeleton
import proofs.«170463_j5016521802571_2_alg».proof.Proof.Gen.Kernel.Launch
import proofs.«170463_j5016521802571_2_alg».proof.Proof.Gen.Kernel.Points
import proofs.«170463_j5016521802571_2_alg».proof.Proof.Gen.Kernel.Frame
import proofs.«170463_j5016521802571_2_alg».proof.Proof.Gen.KernelIdeal
import proofs.«170463_j5016521802571_2_alg».proof.Proof.Gen.KernelIdeal.Skeleton
import proofs.«170463_j5016521802571_2_alg».proof.Proof.Gen.KernelIdeal.Launch
import proofs.«170463_j5016521802571_2_alg».proof.Proof.Gen.KernelIdeal.Points
import proofs.«170463_j5016521802571_2_alg».proof.Proof.Gen.KernelIdeal.Frame
import proofs.«170463_j5016521802571_2_alg».proof.Proof.Gen.ReferenceIdeal
import proofs.«170463_j5016521802571_2_alg».proof.Proof.Gen.Pre_finite_inputs
import proofs.«170463_j5016521802571_2_alg».proof.Proof.KernelValue
import proofs.«170463_j5016521802571_2_alg».proof.Proof.ReferenceFold
import proofs.«170463_j5016521802571_2_alg».proof.Proof.ReferenceStages
import proofs.«170463_j5016521802571_2_alg».proof.Proof.Aggregation
import Idealize.ShloMosaic.Adequacy
import Idealize.ShloMosaic.Init

noncomputable section

namespace Cert.Proof

open Idealize.ShloMosaic Idealize.SL.Sem Cert.GraphConv

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, every argument buffer still at the argument
    intro m ρ _
    exact (θ_run Cert.ReferenceIdeal.defs _ _).mono (fun r h c =>
      ⟨(h c Cert.ReferenceIdeal.main_arg0).trans (Cert.ReferenceIdeal.Fold.argAt216 m c Cert.ReferenceIdeal.main_arg0 (by decide)),
        (h c Cert.ReferenceIdeal.main_arg1).trans (Cert.ReferenceIdeal.Fold.argAt216 m c Cert.ReferenceIdeal.main_arg1 (by decide)),
        (h c Cert.ReferenceIdeal.main_arg2).trans (Cert.ReferenceIdeal.Fold.argAt216 m c Cert.ReferenceIdeal.main_arg2 (by decide)),
        (h c Cert.ReferenceIdeal.main_arg3).trans (Cert.ReferenceIdeal.Fold.argAt216 m c Cert.ReferenceIdeal.main_arg3 (by decide)),
        (h c Cert.ReferenceIdeal.main_arg4).trans (Cert.ReferenceIdeal.Fold.argAt216 m c Cert.ReferenceIdeal.main_arg4 (by decide)),
        (h c Cert.ReferenceIdeal.main_arg5).trans (Cert.ReferenceIdeal.Fold.argAt216 m c Cert.ReferenceIdeal.main_arg5 (by decide)),
        (h c Cert.ReferenceIdeal.main_arg6).trans (Cert.ReferenceIdeal.Fold.argAt216 m c Cert.ReferenceIdeal.main_arg6 (by decide)),
        (h c Cert.ReferenceIdeal.main_arg7).trans (Cert.ReferenceIdeal.Fold.argAt216 m c Cert.ReferenceIdeal.main_arg7 (by decide)),
        (h c Cert.ReferenceIdeal.main_arg8).trans (Cert.ReferenceIdeal.Fold.argAt216 m c Cert.ReferenceIdeal.main_arg8 (by decide)),
        (h c Cert.ReferenceIdeal.main_arg9).trans (Cert.ReferenceIdeal.Fold.argAt216 m c Cert.ReferenceIdeal.main_arg9 (by decide)),
        (h c Cert.ReferenceIdeal.main_arg10).trans (Cert.ReferenceIdeal.Fold.argAt216 m c Cert.ReferenceIdeal.main_arg10 (by decide)),
        (h c Cert.ReferenceIdeal.main_arg11).trans (Cert.ReferenceIdeal.Fold.argAt216 m c Cert.ReferenceIdeal.main_arg11 (by decide))⟩)
      (Cert.ReferenceIdeal.Fold.run (F := Ideal) m ρ)
  · -- the two results agree: the kernel program's run, and the reference's run read through its stages
    intro m ρ m' ρ' _ hagree
    refine ⟨fun c => hidden3 (Cert.KernelIdeal.Stack.agg m ρ c) (Cert.KernelIdeal.Stack.weights m c) (m ((c.tc : Thread Cert.KernelIdeal.nD Cert.KernelIdeal.τ).loc Cert.KernelIdeal.main_arg0)),
      fun c => output (Cert.KernelIdeal.Stack.agg m ρ c) (Cert.KernelIdeal.Stack.weights m c) (m ((c.tc : Thread Cert.KernelIdeal.nD Cert.KernelIdeal.τ).loc Cert.KernelIdeal.main_arg0)),
      Cert.KernelIdeal.Stack.run m ρ, ?_⟩
    refine (θ_run Cert.ReferenceIdeal.defs _ _).mono (fun r h c => ?_) (Cert.ReferenceIdeal.Fold.run (F := Ideal) m' ρ')
    obtain ⟨g0, g1, g2, g3, g4, g5, g6, g7, g8, g9, g10, g11⟩ := hagree c
    obtain ⟨e0, e1⟩ := Cert.Aggregation.results_agree m ρ c
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      g0 g1 g2 g3 g4 g5 g6 g7 g8 g9 g10 g11
    exact ⟨(h c Cert.ReferenceIdeal.main_v178).trans ((Cert.ReferenceIdeal.Fold.result0 m' c).trans
          ((Cert.ReferenceIdeal.Stages.hidden3_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans e0)),
        (h c Cert.ReferenceIdeal.main_v183).trans ((Cert.ReferenceIdeal.Fold.stage_output m' c).trans
          ((Cert.ReferenceIdeal.Stages.output_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans e1)),
        (h c Cert.ReferenceIdeal.main_arg0).trans (Cert.ReferenceIdeal.Fold.argAt216 m' c Cert.ReferenceIdeal.main_arg0 (by decide)),
        (h c Cert.ReferenceIdeal.main_arg1).trans (Cert.ReferenceIdeal.Fold.argAt216 m' c Cert.ReferenceIdeal.main_arg1 (by decide)),
        (h c Cert.ReferenceIdeal.main_arg2).trans (Cert.ReferenceIdeal.Fold.argAt216 m' c Cert.ReferenceIdeal.main_arg2 (by decide)),
        (h c Cert.ReferenceIdeal.main_arg3).trans (Cert.ReferenceIdeal.Fold.argAt216 m' c Cert.ReferenceIdeal.main_arg3 (by decide)),
        (h c Cert.ReferenceIdeal.main_arg4).trans (Cert.ReferenceIdeal.Fold.argAt216 m' c Cert.ReferenceIdeal.main_arg4 (by decide)),
        (h c Cert.ReferenceIdeal.main_arg5).trans (Cert.ReferenceIdeal.Fold.argAt216 m' c Cert.ReferenceIdeal.main_arg5 (by decide)),
        (h c Cert.ReferenceIdeal.main_arg6).trans (Cert.ReferenceIdeal.Fold.argAt216 m' c Cert.ReferenceIdeal.main_arg6 (by decide)),
        (h c Cert.ReferenceIdeal.main_arg7).trans (Cert.ReferenceIdeal.Fold.argAt216 m' c Cert.ReferenceIdeal.main_arg7 (by decide)),
        (h c Cert.ReferenceIdeal.main_arg8).trans (Cert.ReferenceIdeal.Fold.argAt216 m' c Cert.ReferenceIdeal.main_arg8 (by decide)),
        (h c Cert.ReferenceIdeal.main_arg9).trans (Cert.ReferenceIdeal.Fold.argAt216 m' c Cert.ReferenceIdeal.main_arg9 (by decide)),
        (h c Cert.ReferenceIdeal.main_arg10).trans (Cert.ReferenceIdeal.Fold.argAt216 m' c Cert.ReferenceIdeal.main_arg10 (by decide)),
        (h c Cert.ReferenceIdeal.main_arg11).trans (Cert.ReferenceIdeal.Fold.argAt216 m' c Cert.ReferenceIdeal.main_arg11 (by decide))⟩⟩

end Cert.Proof

end
